-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v144)) (v2 : (c : Dev Cert.KernelIdeal.nD) → Buf (Elt Ideal) ((c.tc : Thread Cert.KernelIdeal.nD Cert.KernelIdeal.τ).loc Cert.KernelIdeal.main_v110)) (v3 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v144) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_v114) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S2x393216 : Shape := ⟨2, ![2, 393216]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_

variable [Facts]

def fn_part6 {F : FTy → Type} [FloatOps F] (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  main_v103

def fn_part5 {F : FTy → Type} [FloatOps F] (main_arg19 : FVec F S512 .f32) (main_arg20 : FVec F S512x256 .f32) (main_arg21 : FVec F S256 .f32) (main_v83 : IVec S_ 1) (main_v84 : FVec F S128x512 .f32) (main_cst_32 : FVec F S_ .f32) : IVec S_ 1 :=
  let main_v85 : FVec F S128x512 .f32 := broadcastInDim S128x512 ![] bcast_S_S128x512 main_cst_32
  let main_v86 : IVec S128x512 1 := cmpf .olt main_v84 main_v85
  let main_c_33 : IVec S_ 1 := constantI S_ 1 1#1
  let main_v87 : IVec S_ 1 := (fun x v => Host.reduce IntOp.andi x v reducesTo_S128x512_S_d0_1 h_S_) main_v86 main_c_33
  let main_v88 : IVec S_ 1 := andi main_v83 main_v87
  let main_v89 : FVec F S512 .f32 := Host.absf main_arg19
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x256 .f32 := Host.absf main_arg20
  let main_cst_36 : FVec F S_ .f32 := constant S_ .f32 0x7F800000#32
  let main_v95 : FVec F S512x256 .f32 := broadcastInDim S512x256 ![] bcast_S_S512x256 main_cst_36
  let main_v96 : IVec S512x256 1 := cmpf .olt main_v94 main_v95
  let main_c_37 : IVec S_ 1 := constantI S_ 1 1#1
  let main_v97 : IVec S_ 1 := (fun x v => Host.reduce IntOp.andi x v reducesTo_S512x256_S_d0_1 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128 .f32) (main_arg17 : FVec F S128 .f32) (main_arg18 : FVec F S128x512 .f32) (main_arg19 : FVec F S512 .f32) (main_arg20 : FVec F S512x256 .f32) (main_arg21 : FVec F S256 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x512 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S256x64 .f32) (main_arg13 : FVec F S64 .f32) (main_arg14 : FVec F S64x128 .f32) (main_arg15 : FVec F S128 .f32) (main_arg16 : FVec F S128 .f32) (main_arg17 : FVec F S128 .f32) (main_arg18 : FVec F S128x512 .f32) (main_arg19 : FVec F S512 .f32) (main_arg20 : FVec F S512x256 .f32) (main_arg21 : FVec F S256 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S256x64 .f32 := Host.absf main_arg12
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S256 .f32) (main_arg9 : FVec F S256 .f32) (main_arg10 : FVec F S256x64 .f32) (main_arg11 : FVec F S64 .f32) (main_arg12 : FVec F S256x64 .f32) (main_arg13 : FVec F S64 .f32) (main_arg14 : FVec F S64x128 .f32) (main_arg15 : FVec F S128 .f32) (main_arg16 : FVec F S128 .f32) (main_arg17 : FVec F S128 .f32) (main_arg18 : FVec F S128x512 .f32) (main_arg19 : FVec F S512 .f32) (main_arg20 : FVec F S512x256 .f32) (main_arg21 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x64 .f32) (main_arg11 : FVec F S64 .f32) (main_arg12 : FVec F S256x64 .f32) (main_arg13 : FVec F S64 .f32) (main_arg14 : FVec F S64x128 .f32) (main_arg15 : FVec F S128 .f32) (main_arg16 : FVec F S128 .f32) (main_arg17 : FVec F S128 .f32) (main_arg18 : FVec F S128x512 .f32) (main_arg19 : FVec F S512 .f32) (main_arg20 : FVec F S512x256 .f32) (main_arg21 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S12288x256 .f32) (main_arg1 : IVec S2x393216 32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x64 .f32) (main_arg11 : FVec F S64 .f32) (main_arg12 : FVec F S256x64 .f32) (main_arg13 : FVec F S64 .f32) (main_arg14 : FVec F S64x128 .f32) (main_arg15 : FVec F S128 .f32) (main_arg16 : FVec F S128 .f32) (main_arg17 : FVec F S128 .f32) (main_arg18 : FVec F S128x512 .f32) (main_arg19 : FVec F S512 .f32) (main_arg20 : FVec F S512x256 .f32) (main_arg21 : FVec F S256 .f32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S12288x256 : Shape := ⟨2, ![12288, 256]⟩
abbrev S2x393216 : Shape := ⟨2, ![2, 393216]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S1x393216 : Shape := ⟨2, ![1, 393216]⟩
abbrev S393216 : Shape := ⟨1, ![393216]⟩
abbrev S_ : Shape := ⟨0, ![]⟩
abbrev S12288 : Shape := ⟨1, ![12288]⟩
abbrev S393216x1 : Shape := ⟨2, ![393216, 1]⟩
abbrev S12288x1 : Shape := ⟨2, ![12288, 1]⟩
abbrev S393216x256 : Shape := ⟨2, ![393216, 256]⟩
abbrev S1x256 : Shape := ⟨2, ![1, 256]⟩
abbrev S12288x64 : Shape := ⟨2, ![12288, 64]⟩
abbrev S1x64 : Shape := ⟨2, ![1, 64]⟩
abbrev S12288x12288 : Shape := ⟨2, ![12288, 12288]⟩
abbrev S1024x64 : Shape := ⟨2, ![1024, 64]⟩
abbrev S2048x64 : Shape := ⟨2, ![2048, 64]⟩
abbrev S1024x2048 : Shape := ⟨2, ![1024, 2048]⟩
abbrev S12288x128 : Shape := ⟨2, ![12288, 128]⟩
abbrev S1x128 : Shape := ⟨2, ![1, 128]⟩
abbrev S1x512 : Shape := ⟨2, ![1, 512]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 259
  | .vmem => 14
  | .smem => 0
  | _ => 0

abbrev hbmTy0_0 (i : Nat) : BufTy := match i % 128 with
  | 0 => ⟨S12288x256, .f32⟩
  | 1 => ⟨S2x393216, .i32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x64, .f32⟩
  | 11 => ⟨S64, .f32⟩
  | 12 => ⟨S256x64, .f32⟩
  | 13 => ⟨S64, .f32⟩
  | 14 => ⟨S64x128, .f32⟩
  | 15 => ⟨S128, .f32⟩
  | 16 => ⟨S128, .f32⟩
  | 17 => ⟨S128, .f32⟩
  | 18 => ⟨S128x512, .f32⟩
  | 19 => ⟨S512, .f32⟩
  | 20 => ⟨S512x256, .f32⟩
  | 21 => ⟨S256, .f32⟩
  | 22 => ⟨S1x393216, .i32⟩
  | 23 => ⟨S393216, .i32⟩
  | 24 => ⟨S1x393216, .i32⟩
  | 25 => ⟨S393216, .i32⟩
  | 26 => ⟨S_, .f32⟩
  | 27 => ⟨S393216, .f32⟩
  | 28 => ⟨S_, .f32⟩
  | 29 => ⟨S12288, .f32⟩
  | 30 => ⟨S393216x1, .i32⟩
  | 31 => ⟨S12288, .f32⟩
  | 32 => ⟨S_, .f32⟩
  | 33 => ⟨S12288, .f32⟩
  | 34 => ⟨S12288, .f32⟩
  | 35 => ⟨S12288, .f32⟩
  | 36 => ⟨S_, .i32⟩
  | 37 => ⟨S393216, .i32⟩
  | 38 => ⟨S393216, .i1⟩
  | 39 => ⟨S_, .i32⟩
  | 40 => ⟨S393216, .i32⟩
  | 41 => ⟨S393216, .i32⟩
  | 42 => ⟨S393216, .i32⟩
  | 43 => ⟨S393216x1, .i32⟩
  | 44 => ⟨S393216, .f32⟩
  | 45 => ⟨S_, .i32⟩
  | 46 => ⟨S393216, .i32⟩
  | 47 => ⟨S393216, .i1⟩
  | 48 => ⟨S_, .i32⟩
  | 49 => ⟨S393216, .i32⟩
  | 50 => ⟨S393216, .i32⟩
  | 51 => ⟨S393216, .i32⟩
  | 52 => ⟨S393216x1, .i32⟩
  | 53 => ⟨S393216, .f32⟩
  | 54 => ⟨S393216, .f32⟩
  | 55 => ⟨S393216x1, .f32⟩
  | 56 => ⟨S12288, .f32⟩
  | 57 => ⟨S12288x1, .f32⟩
  | 58 => ⟨S12288x256, .f32⟩
  | 59 => ⟨S_, .i32⟩
  | 60 => ⟨S393216, .i32⟩
  | 61 => ⟨S393216, .i1⟩
  | 62 => ⟨S_, .i32⟩
  | 63 => ⟨S393216, .i32⟩
  | 64 => ⟨S393216, .i32⟩
  | 65 => ⟨S393216, .i32⟩
  | 66 => ⟨S393216x1, .i32⟩
  | 67 => ⟨S393216x256, .f32⟩
  | 68 => ⟨S393216x256, .f32⟩
  | 69 => ⟨S393216x256, .f32⟩
  | 70 => ⟨S_, .f32⟩
  | 71 => ⟨S12288x256, .f32⟩
  | 72 => ⟨S393216x1, .i32⟩
  | 73 => ⟨S12288x256, .f32⟩
  | 74 => ⟨S12288x256, .f32⟩
  | 75 => ⟨S12288x256, .f32⟩
  | 76 => ⟨S12288x256, .f32⟩
  | 77 => ⟨S1x256, .f32⟩
  | 78 => ⟨S12288x256, .f32⟩
  | 79 => ⟨S12288x256, .f32⟩
  | 80 => ⟨S_, .f32⟩
  | 81 => ⟨S256, .f32⟩
  | 82 => ⟨S_, .f32⟩
  | 83 => ⟨S256, .f32⟩
  | 84 => ⟨S256, .f32⟩
  | 85 => ⟨S_, .i32⟩
  | 86 => ⟨S_, .f32⟩
  | 87 => ⟨S256, .f32⟩
  | 88 => ⟨S1x256, .f32⟩
  | 89 => ⟨S_, .f32⟩
  | 90 => ⟨S1x256, .f32⟩
  | 91 => ⟨S1x256, .f32⟩
  | 92 => ⟨S12288x256, .f32⟩
  | 93 => ⟨S12288x256, .f32⟩
  | 94 => ⟨S12288x256, .f32⟩
  | 95 => ⟨S_, .f32⟩
  | 96 => ⟨S_, .f32⟩
  | 97 => ⟨S_, .f32⟩
  | 98 => ⟨S_, .f32⟩
  | 99 => ⟨S256, .f32⟩
  | 100 => ⟨S256, .f32⟩
  | 101 => ⟨S256, .f32⟩
  | 102 => ⟨S_, .f32⟩
  | 103 => ⟨S_, .i1⟩
  | 104 => ⟨S_, .f32⟩
  | 105 => ⟨S_, .f32⟩
  | 106 => ⟨S256, .f32⟩
  | 107 => ⟨S256, .f32⟩
  | 108 => ⟨S1x256, .f32⟩
  | 109 => ⟨S12288x256, .f32⟩
  | 110 => ⟨S12288x256, .f32⟩
  | 111 => ⟨S_, .f32⟩
  | 112 => ⟨S256, .f32⟩
  | 113 => ⟨S256, .f32⟩
  | 114 => ⟨S256, .f32⟩
  | 115 => ⟨S1x256, .f32⟩
  | 116 => ⟨S12288x256, .f32⟩
  | 117 => ⟨S12288x256, .f32⟩
  | 118 => ⟨S1x256, .f32⟩
  | 119 => ⟨S12288x256, .f32⟩
  | 120 => ⟨S12288x256, .f32⟩
  | 121 => ⟨S1x256, .f32⟩
  | 122 => ⟨S12288x256, .f32⟩
  | 123 => ⟨S12288x256, .f32⟩
  | 124 => ⟨S_, .f32⟩
  | 125 => ⟨S12288x256, .f32⟩
  | 126 => ⟨S12288x256, .f32⟩
  | 127 => ⟨S12288x256, .f32⟩
  | _ => ⟨S12288x256, .f32⟩

abbrev hbmTy0_1 (i : Nat) : BufTy := match i % 128 with
  | 0 => ⟨S_, .i32⟩
  | 1 => ⟨S393216, .i32⟩
  | 2 => ⟨S393216, .i1⟩
  | 3 => ⟨S_, .i32⟩
  | 4 => ⟨S393216, .i32⟩
  | 5 => ⟨S393216, .i32⟩
  | 6 => ⟨S393216, .i32⟩
  | 7 => ⟨S393216x1, .i32⟩
  | 8 => ⟨S393216x256, .f32⟩
  | 9 => ⟨S393216x256, .f32⟩
  | 10 => ⟨S393216x256, .f32⟩
  | 11 => ⟨S_, .f32⟩
  | 12 => ⟨S12288x256, .f32⟩
  | 13 => ⟨S393216x1, .i32⟩
  | 14 => ⟨S12288x256, .f32⟩
  | 15 => ⟨S12288x256, .f32⟩
  | 16 => ⟨S12288x256, .f32⟩
  | 17 => ⟨S12288x256, .f32⟩
  | 18 => ⟨S1x256, .f32⟩
  | 19 => ⟨S12288x256, .f32⟩
  | 20 => ⟨S12288x256, .f32⟩
  | 21 => ⟨S_, .f32⟩
  | 22 => ⟨S256, .f32⟩
  | 23 => ⟨S_, .f32⟩
  | 24 => ⟨S256, .f32⟩
  | 25 => ⟨S256, .f32⟩
  | 26 => ⟨S_, .i32⟩
  | 27 => ⟨S_, .f32⟩
  | 28 => ⟨S256, .f32⟩
  | 29 => ⟨S1x256, .f32⟩
  | 30 => ⟨S_, .f32⟩
  | 31 => ⟨S1x256, .f32⟩
  | 32 => ⟨S1x256, .f32⟩
  | 33 => ⟨S12288x256, .f32⟩
  | 34 => ⟨S12288x256, .f32⟩
  | 35 => ⟨S12288x256, .f32⟩
  | 36 => ⟨S_, .f32⟩
  | 37 => ⟨S_, .f32⟩
  | 38 => ⟨S_, .f32⟩
  | 39 => ⟨S_, .f32⟩
  | 40 => ⟨S256, .f32⟩
  | 41 => ⟨S256, .f32⟩
  | 42 => ⟨S256, .f32⟩
  | 43 => ⟨S_, .f32⟩
  | 44 => ⟨S_, .i1⟩
  | 45 => ⟨S_, .f32⟩
  | 46 => ⟨S_, .f32⟩
  | 47 => ⟨S256, .f32⟩
  | 48 => ⟨S256, .f32⟩
  | 49 => ⟨S1x256, .f32⟩
  | 50 => ⟨S12288x256, .f32⟩
  | 51 => ⟨S12288x256, .f32⟩
  | 52 => ⟨S_, .f32⟩
  | 53 => ⟨S256, .f32⟩
  | 54 => ⟨S256, .f32⟩
  | 55 => ⟨S256, .f32⟩
  | 56 => ⟨S1x256, .f32⟩
  | 57 => ⟨S12288x256, .f32⟩
  | 58 => ⟨S12288x256, .f32⟩
  | 59 => ⟨S1x256, .f32⟩
  | 60 => ⟨S12288x256, .f32⟩
  | 61 => ⟨S12288x256, .f32⟩
  | 62 => ⟨S1x256, .f32⟩
  | 63 => ⟨S12288x256, .f32⟩
  | 64 => ⟨S12288x256, .f32⟩
  | 65 => ⟨S_, .f32⟩
  | 66 => ⟨S12288x256, .f32⟩
  | 67 => ⟨S12288x256, .f32⟩
  | 68 => ⟨S12288x64, .f32⟩
  | 69 => ⟨S1x64, .f32⟩
  | 70 => ⟨S12288x64, .f32⟩
  | 71 => ⟨S12288x64, .f32⟩
  | 72 => ⟨S12288x64, .f32⟩
  | 73 => ⟨S1x64, .f32⟩
  | 74 => ⟨S12288x64, .f32⟩
  | 75 => ⟨S12288x64, .f32⟩
  | 76 => ⟨S12288x64, .bf16⟩
  | 77 => ⟨S12288x12288, .f32⟩
  | 78 => ⟨S12288x128, .f32⟩
  | 79 => ⟨S1x128, .f32⟩
  | 80 => ⟨S12288x128, .f32⟩
  | 81 => ⟨S12288x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S12288x128, .f32⟩
  | 95 => ⟨S12288x128, .f32⟩
  | 96 => ⟨S12288x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S12288x128, .f32⟩
  | 112 => ⟨S12288x128, .f32⟩
  | 113 => ⟨S_, .f32⟩
  | 114 => ⟨S128, .f32⟩
  | 115 => ⟨S128, .f32⟩
  | 116 => ⟨S128, .f32⟩
  | 117 => ⟨S1x128, .f32⟩
  | 118 => ⟨S12288x128, .f32⟩
  | 119 => ⟨S12288x128, .f32⟩
  | 120 => ⟨S1x128, .f32⟩
  | 121 => ⟨S12288x128, .f32⟩
  | 122 => ⟨S12288x128, .f32⟩
  | 123 => ⟨S1x128, .f32⟩
  | 124 => ⟨S12288x128, .f32⟩
  | 125 => ⟨S12288x128, .f32⟩
  | 126 => ⟨S128x512, .bf16⟩
  | 127 => ⟨S512x256, .bf16⟩
  | _ => ⟨S12288x256, .f32⟩

abbrev hbmTy0_2 (i : Nat) : BufTy := match i % 128 with
  | 0 => ⟨S1x512, .f32⟩
  | 1 => ⟨S1x256, .f32⟩
  | 2 => ⟨S12288x256, .f32⟩
  | _ => ⟨S12288x256, .f32⟩

abbrev hbmTy (i : Nat) : BufTy := match i / 128 with
  | 0 => hbmTy0_0 i
  | 1 => hbmTy0_1 i
  | 2 => hbmTy0_2 i
  | _ => ⟨S12288x256, .f32⟩

abbrev bufTy : (tb : Table) → Fin (tcTables nBuf tb) → BufTy
  | .hbm, ⟨i, _⟩ => hbmTy i
  | .local _ .vmem, ⟨0, _⟩ => ⟨S1024x64, .bf16⟩
  | .local _ .vmem, ⟨1, _⟩ => ⟨S1024x64, .bf16⟩
  | .local _ .vmem, ⟨2, _⟩ => ⟨S2048x64, .bf16⟩
  | .local _ .vmem, ⟨3, _⟩ => ⟨S2048x64, .bf16⟩
  | .local _ .vmem, ⟨4, _⟩ => ⟨S1024x2048, .f32⟩
  | .local _ .vmem, ⟨5, _⟩ => ⟨S1024x2048, .f32⟩
  | .local _ .vmem, ⟨6, _⟩ => ⟨S2048x128, .f32⟩
  | .local _ .vmem, ⟨7, _⟩ => ⟨S2048x128, .f32⟩
  | .local _ .vmem, ⟨8, _⟩ => ⟨S128x512, .bf16⟩
  | .local _ .vmem, ⟨9, _⟩ => ⟨S1x512, .f32⟩
  | .local _ .vmem, ⟨10, _⟩ => ⟨S512x256, .bf16⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_cst_3 : Ref sig .tc := ⟨.hbm, 102, rfl⟩
abbrev main_call0_v12 : Ref sig .tc := ⟨.hbm, 103, rfl⟩
abbrev main_call0_cst_4 : Ref sig .tc := ⟨.hbm, 104, rfl⟩
abbrev main_call0_call0_v0 : Ref sig .tc := ⟨.hbm, 105, rfl⟩
abbrev main_call0_call0_v1 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_11 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call1_cst : Ref sig .tc := ⟨.hbm, 124, rfl⟩
abbrev main_call1_v0 : Ref sig .tc := ⟨.hbm, 125, rfl⟩
abbrev main_v67 : Ref sig .tc := ⟨.hbm, 126, rfl⟩
abbrev main_v68 : Ref sig .tc := ⟨.hbm, 127, rfl⟩
abbrev main_c_12 : Ref sig .tc := ⟨.hbm, 128, rfl⟩
abbrev main_v69 : Ref sig .tc := ⟨.hbm, 129, rfl⟩
abbrev main_v70 : Ref sig .tc := ⟨.hbm, 130, rfl⟩
abbrev main_c_13 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_cst_14 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_15 : Ref sig .tc := ⟨.hbm, 149, rfl⟩
abbrev main_v87 : Ref sig .tc := ⟨.hbm, 150, rfl⟩
abbrev main_cst_16 : Ref sig .tc := ⟨.hbm, 151, rfl⟩
abbrev main_v88 : Ref sig .tc := ⟨.hbm, 152, rfl⟩
abbrev main_v89 : Ref sig .tc := ⟨.hbm, 153, rfl⟩
abbrev main_c_17 : Ref sig .tc := ⟨.hbm, 154, rfl⟩
abbrev main_call2_cst : Ref sig .tc := ⟨.hbm, 155, rfl⟩
abbrev main_call2_v0 : Ref sig .tc := ⟨.hbm, 156, rfl⟩
abbrev main_call2_v1 : Ref sig .tc := ⟨.hbm, 157, rfl⟩
abbrev main_call2_cst_0 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_call2_v5 : Ref sig .tc := ⟨.hbm, 162, rfl⟩
abbrev main_call2_v6 : Ref sig .tc := ⟨.hbm, 163, rfl⟩
abbrev main_call2_v7 : Ref sig .tc := ⟨.hbm, 164, rfl⟩
abbrev main_call2_cst_1 : Ref sig .tc := ⟨.hbm, 165, rfl⟩
abbrev main_call2_v8 : Ref sig .tc := ⟨.hbm, 166, rfl⟩
abbrev main_call2_cst_2 : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_cst_3 : Ref sig .tc := ⟨.hbm, 171, rfl⟩
abbrev main_call2_v12 : Ref sig .tc := ⟨.hbm, 172, rfl⟩
abbrev main_call2_cst_4 : Ref sig .tc := ⟨.hbm, 173, rfl⟩
abbrev main_call2_call0_v0 : Ref sig .tc := ⟨.hbm, 174, rfl⟩
abbrev main_call2_call0_v1 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_cst_18 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_call3_cst : Ref sig .tc := ⟨.hbm, 193, rfl⟩
abbrev main_call3_v0 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_cst_19 : Ref sig .tc := ⟨.hbm, 210, rfl⟩
abbrev main_v121 : Ref sig .tc := ⟨.hbm, 211, rfl⟩
abbrev main_cst_20 : Ref sig .tc := ⟨.hbm, 212, rfl⟩
abbrev main_v122 : Ref sig .tc := ⟨.hbm, 213, rfl⟩
abbrev main_v123 : Ref sig .tc := ⟨.hbm, 214, rfl⟩
abbrev main_c_21 : Ref sig .tc := ⟨.hbm, 215, rfl⟩
abbrev main_call4_cst : Ref sig .tc := ⟨.hbm, 216, rfl⟩
abbrev main_call4_v0 : Ref sig .tc := ⟨.hbm, 217, rfl⟩
abbrev main_call4_v1 : Ref sig .tc := ⟨.hbm, 218, rfl⟩
abbrev main_call4_cst_0 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_call4_v5 : Ref sig .tc := ⟨.hbm, 223, rfl⟩
abbrev main_call4_v6 : Ref sig .tc := ⟨.hbm, 224, rfl⟩
abbrev main_call4_v7 : Ref sig .tc := ⟨.hbm, 225, rfl⟩
abbrev main_call4_cst_1 : Ref sig .tc := ⟨.hbm, 226, rfl⟩
abbrev main_call4_v8 : Ref sig .tc := ⟨.hbm, 227, rfl⟩
abbrev main_call4_cst_2 : Ref sig .tc := ⟨.hbm, 228, rfl⟩
abbrev main_call4_v9 : Ref sig .tc := ⟨.hbm, 229, rfl⟩
abbrev main_call4_v10 : Ref sig .tc := ⟨.hbm, 230, rfl⟩
abbrev main_call4_v11 : Ref sig .tc := ⟨.hbm, 231, rfl⟩
abbrev main_call4_cst_3 : Ref sig .tc := ⟨.hbm, 232, rfl⟩
abbrev main_call4_v12 : Ref sig .tc := ⟨.hbm, 233, rfl⟩
abbrev main_call4_cst_4 : Ref sig .tc := ⟨.hbm, 234, rfl⟩
abbrev main_call4_call0_v0 : Ref sig .tc := ⟨.hbm, 235, rfl⟩
abbrev main_call4_call0_v1 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_cst_22 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  bcast_S12288_S12288x1_0 : S12288.BroadcastsInDim S12288x1 (![0] : Fin 1 → Fin S12288x1.rank)
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  bcast_S12288x1_S12288x256_0_1 : S12288x1.BroadcastsInDim S12288x256 (![0, 1] : Fin 2 → Fin S12288x256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  reducesTo_S12288x256_S256_d0 : S12288x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x2048_S1024x2048_0_0 : ∀ a, (![0, 0] : Fin 2 → Nat) a + S1024x2048.size a ≤ S1024x2048.size a
  h_S1024x2048 : 0 < S1024x2048.numel
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  reducesTo_S12288x128_S128_d0 : S12288x128.ReducesTo [0] S128
  bcast_S_S128 : S_.BroadcastsInDim S128 (![] : Fin 0 → Fin S128.rank)
  bcast_S_S1x128 : S_.BroadcastsInDim S1x128 (![] : Fin 0 → Fin S1x128.rank)
  shapeCasts_S512_S1x512 : S512.ShapeCasts S1x512
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  scatter_S12288_S393216x1_S393216_n_0_0_1_wf : ScatterDims.WF S12288 S393216x1 S393216 [] [0] [0] 1
  gather_S12288_S393216x1_S393216_n_0_n_n_0_1_1_wf : GatherDims.WF S12288 S393216x1 S393216 [] [0] [] [0] [] 1 ![1]
  dot_S12288x256_S256x256_S12288x256_1_0_0_1_n_n_wf : DotDims.WF S12288x256 S256x256 S12288x256 [1] [0] [0] [1] [] []
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S12288x256_S256x64_S12288x64_1_0_0_1_n_n_wf : DotDims.WF S12288x256 S256x64 S12288x64 [1] [0] [0] [1] [] []
  dot_S1024x64_S2048x64_S1024x2048_1_1_0_0_n_n_wf : DotDims.WF S1024x64 S2048x64 S1024x2048 [1] [1] [0] [0] [] []
  dot_S12288x64_S64x128_S12288x128_1_0_0_1_n_n_wf : DotDims.WF S12288x64 S64x128 S12288x128 [1] [0] [0] [1] [] []
  dot_S2048x128_S128x512_S2048x512_1_0_0_1_n_n_wf : DotDims.WF S2048x128 S128x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S12288x64.size a
  hwx0_0 : ∀ i : grid0.Coords, EltTy.bits .bf16 = 32 ∨ (Rect.block (s := S12288x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S12288x64.size a
  hwx0_1 : ∀ i : grid0.Coords, EltTy.bits .bf16 = 32 ∨ (Rect.block (s := S12288x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S12288x12288.size a
  hwx0_2 : ∀ i : grid0.Coords, EltTy.bits .f32 = 32 ∨ (Rect.block (s := S12288x12288) S1024x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S12288x128.size a
  hwx1_0 : ∀ i : grid1.Coords, EltTy.bits .f32 = 32 ∨ (Rect.block (s := S12288x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .bf16 = 32 ∨ (Rect.block (s := S128x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .bf16 = 32 ∨ (Rect.block (s := S512x256) S512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S12288x256.size a
  hwx1_5 : ∀ i : grid1.Coords, EltTy.bits .f32 = 32 ∨ (Rect.block (s := S12288x256) S2048x256.size (cc1_transform_5 i) (hinb1_5 i)).WholeWords (EltTy.packing .f32)

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S12288x256_S256x64_S12288x64_1_0_0_1_n_n : DotDims S12288x256 S256x64 S12288x64 where
  lhsContracting := [1]
  rhsContracting := [0]
  lhsNonContracting := [0]
  rhsNonContracting := [1]
  lhsBatch := []
  rhsBatch := []
  wf := dot_S12288x256_S256x64_S12288x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S12288x64_S64x128_S12288x128_1_0_0_1_n_n : DotDims S12288x64 S64x128 S12288x128 where
  lhsContracting := [1]
  rhsContracting := [0]
  lhsNonContracting := [0]
  rhsNonContracting := [1]
  lhsBatch := []
  rhsBatch := []
  wf := dot_S12288x64_S64x128_S12288x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v115) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v115) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v116) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v139) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v140) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v142) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v141) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v143) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v144) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S12288x256 : Shape := ⟨2, ![12288, 256]⟩
abbrev S2x393216 : Shape := ⟨2, ![2, 393216]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x512 : Shape := ⟨2, ![128, 512]⟩
abbrev S512 : Shape := ⟨1, ![512]⟩
abbrev S512x256 : Shape := ⟨2, ![512, 256]⟩
abbrev S1x393216 : Shape := ⟨2, ![1, 393216]⟩
abbrev S393216 : Shape := ⟨1, ![393216]⟩
abbrev S_ : Shape := ⟨0, ![]⟩
abbrev S12288 : Shape := ⟨1, ![12288]⟩
abbrev S393216x1 : Shape := ⟨2, ![393216, 1]⟩
abbrev S393216x256 : Shape := ⟨2, ![393216, 256]⟩
abbrev S12288x1 : Shape := ⟨2, ![12288, 1]⟩
abbrev S1x256 : Shape := ⟨2, ![1, 256]⟩
abbrev S12288x64 : Shape := ⟨2, ![12288, 64]⟩
abbrev S1x64 : Shape := ⟨2, ![1, 64]⟩
abbrev S64x12288 : Shape := ⟨2, ![64, 12288]⟩
abbrev S12288x12288 : Shape := ⟨2, ![12288, 12288]⟩
abbrev S12288x128 : Shape := ⟨2, ![12288, 128]⟩
abbrev S1x128 : Shape := ⟨2, ![1, 128]⟩
abbrev S12288x512 : Shape := ⟨2, ![12288, 512]⟩
abbrev S1x512 : Shape := ⟨2, ![1, 512]⟩

abbrev nBuf : Space → Nat
  | .hbm => 295
  | .vmem => 0
  | .smem => 0
  | _ => 0

abbrev hbmTy0_0 (i : Nat) : BufTy := match i % 128 with
  | 0 => ⟨S12288x256, .f32⟩
  | 1 => ⟨S2x393216, .i32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x64, .f32⟩
  | 11 => ⟨S64, .f32⟩
  | 12 => ⟨S256x64, .f32⟩
  | 13 => ⟨S64, .f32⟩
  | 14 => ⟨S64x128, .f32⟩
  | 15 => ⟨S128, .f32⟩
  | 16 => ⟨S128, .f32⟩
  | 17 => ⟨S128, .f32⟩
  | 18 => ⟨S128x512, .f32⟩
  | 19 => ⟨S512, .f32⟩
  | 20 => ⟨S512x256, .f32⟩
  | 21 => ⟨S256, .f32⟩
  | 22 => ⟨S1x393216, .i32⟩
  | 23 => ⟨S393216, .i32⟩
  | 24 => ⟨S1x393216, .i32⟩
  | 25 => ⟨S393216, .i32⟩
  | 26 => ⟨S_, .f32⟩
  | 27 => ⟨S393216, .f32⟩
  | 28 => ⟨S_, .f32⟩
  | 29 => ⟨S12288, .f32⟩
  | 30 => ⟨S393216x1, .i32⟩
  | 31 => ⟨S12288, .f32⟩
  | 32 => ⟨S_, .f32⟩
  | 33 => ⟨S12288, .f32⟩
  | 34 => ⟨S12288, .f32⟩
  | 35 => ⟨S12288, .f32⟩
  | 36 => ⟨S12288x256, .f32⟩
  | 37 => ⟨S_, .i32⟩
  | 38 => ⟨S393216, .i32⟩
  | 39 => ⟨S393216, .i1⟩
  | 40 => ⟨S_, .i32⟩
  | 41 => ⟨S393216, .i32⟩
  | 42 => ⟨S393216, .i32⟩
  | 43 => ⟨S393216, .i32⟩
  | 44 => ⟨S393216x1, .i32⟩
  | 45 => ⟨S393216, .f32⟩
  | 46 => ⟨S_, .i32⟩
  | 47 => ⟨S393216, .i32⟩
  | 48 => ⟨S393216, .i1⟩
  | 49 => ⟨S_, .i32⟩
  | 50 => ⟨S393216, .i32⟩
  | 51 => ⟨S393216, .i32⟩
  | 52 => ⟨S393216, .i32⟩
  | 53 => ⟨S393216x1, .i32⟩
  | 54 => ⟨S393216, .f32⟩
  | 55 => ⟨S393216, .f32⟩
  | 56 => ⟨S393216x1, .f32⟩
  | 57 => ⟨S_, .i32⟩
  | 58 => ⟨S393216, .i32⟩
  | 59 => ⟨S393216, .i1⟩
  | 60 => ⟨S_, .i32⟩
  | 61 => ⟨S393216, .i32⟩
  | 62 => ⟨S393216, .i32⟩
  | 63 => ⟨S393216, .i32⟩
  | 64 => ⟨S393216x1, .i32⟩
  | 65 => ⟨S393216x256, .f32⟩
  | 66 => ⟨S393216x256, .f32⟩
  | 67 => ⟨S393216x256, .f32⟩
  | 68 => ⟨S_, .f32⟩
  | 69 => ⟨S12288x256, .f32⟩
  | 70 => ⟨S393216x1, .i32⟩
  | 71 => ⟨S12288x256, .f32⟩
  | 72 => ⟨S12288, .f32⟩
  | 73 => ⟨S12288x1, .f32⟩
  | 74 => ⟨S12288x256, .f32⟩
  | 75 => ⟨S12288x256, .f32⟩
  | 76 => ⟨S12288x256, .f32⟩
  | 77 => ⟨S1x256, .f32⟩
  | 78 => ⟨S12288x256, .f32⟩
  | 79 => ⟨S12288x256, .f32⟩
  | 80 => ⟨S_, .f32⟩
  | 81 => ⟨S256, .f32⟩
  | 82 => ⟨S_, .f32⟩
  | 83 => ⟨S256, .f32⟩
  | 84 => ⟨S256, .f32⟩
  | 85 => ⟨S_, .i32⟩
  | 86 => ⟨S_, .f32⟩
  | 87 => ⟨S256, .f32⟩
  | 88 => ⟨S1x256, .f32⟩
  | 89 => ⟨S_, .f32⟩
  | 90 => ⟨S1x256, .f32⟩
  | 91 => ⟨S1x256, .f32⟩
  | 92 => ⟨S12288x256, .f32⟩
  | 93 => ⟨S12288x256, .f32⟩
  | 94 => ⟨S12288x256, .f32⟩
  | 95 => ⟨S_, .f32⟩
  | 96 => ⟨S_, .f32⟩
  | 97 => ⟨S_, .f32⟩
  | 98 => ⟨S_, .f32⟩
  | 99 => ⟨S256, .f32⟩
  | 100 => ⟨S256, .f32⟩
  | 101 => ⟨S256, .f32⟩
  | 102 => ⟨S_, .f32⟩
  | 103 => ⟨S_, .i1⟩
  | 104 => ⟨S_, .f32⟩
  | 105 => ⟨S_, .f32⟩
  | 106 => ⟨S256, .f32⟩
  | 107 => ⟨S256, .f32⟩
  | 108 => ⟨S1x256, .f32⟩
  | 109 => ⟨S12288x256, .f32⟩
  | 110 => ⟨S12288x256, .f32⟩
  | 111 => ⟨S_, .f32⟩
  | 112 => ⟨S256, .f32⟩
  | 113 => ⟨S256, .f32⟩
  | 114 => ⟨S256, .f32⟩
  | 115 => ⟨S1x256, .f32⟩
  | 116 => ⟨S12288x256, .f32⟩
  | 117 => ⟨S12288x256, .f32⟩
  | 118 => ⟨S1x256, .f32⟩
  | 119 => ⟨S12288x256, .f32⟩
  | 120 => ⟨S12288x256, .f32⟩
  | 121 => ⟨S1x256, .f32⟩
  | 122 => ⟨S12288x256, .f32⟩
  | 123 => ⟨S12288x256, .f32⟩
  | 124 => ⟨S_, .f32⟩
  | 125 => ⟨S12288x256, .f32⟩
  | 126 => ⟨S12288x256, .f32⟩
  | 127 => ⟨S12288x256, .f32⟩
  | _ => ⟨S12288x256, .f32⟩

abbrev hbmTy0_1 (i : Nat) : BufTy := match i % 128 with
  | 0 => ⟨S_, .i32⟩
  | 1 => ⟨S393216, .i32⟩
  | 2 => ⟨S393216, .i1⟩
  | 3 => ⟨S_, .i32⟩
  | 4 => ⟨S393216, .i32⟩
  | 5 => ⟨S393216, .i32⟩
  | 6 => ⟨S393216, .i32⟩
  | 7 => ⟨S393216x1, .i32⟩
  | 8 => ⟨S393216, .f32⟩
  | 9 => ⟨S_, .i32⟩
  | 10 => ⟨S393216, .i32⟩
  | 11 => ⟨S393216, .i1⟩
  | 12 => ⟨S_, .i32⟩
  | 13 => ⟨S393216, .i32⟩
  | 14 => ⟨S393216, .i32⟩
  | 15 => ⟨S393216, .i32⟩
  | 16 => ⟨S393216x1, .i32⟩
  | 17 => ⟨S393216, .f32⟩
  | 18 => ⟨S393216, .f32⟩
  | 19 => ⟨S393216x1, .f32⟩
  | 20 => ⟨S_, .i32⟩
  | 21 => ⟨S393216, .i32⟩
  | 22 => ⟨S393216, .i1⟩
  | 23 => ⟨S_, .i32⟩
  | 24 => ⟨S393216, .i32⟩
  | 25 => ⟨S393216, .i32⟩
  | 26 => ⟨S393216, .i32⟩
  | 27 => ⟨S393216x1, .i32⟩
  | 28 => ⟨S393216x256, .f32⟩
  | 29 => ⟨S393216x256, .f32⟩
  | 30 => ⟨S393216x256, .f32⟩
  | 31 => ⟨S_, .f32⟩
  | 32 => ⟨S12288x256, .f32⟩
  | 33 => ⟨S393216x1, .i32⟩
  | 34 => ⟨S12288x256, .f32⟩
  | 35 => ⟨S12288, .f32⟩
  | 36 => ⟨S12288x1, .f32⟩
  | 37 => ⟨S12288x256, .f32⟩
  | 38 => ⟨S12288x256, .f32⟩
  | 39 => ⟨S12288x256, .f32⟩
  | 40 => ⟨S1x256, .f32⟩
  | 41 => ⟨S12288x256, .f32⟩
  | 42 => ⟨S12288x256, .f32⟩
  | 43 => ⟨S_, .f32⟩
  | 44 => ⟨S256, .f32⟩
  | 45 => ⟨S_, .f32⟩
  | 46 => ⟨S256, .f32⟩
  | 47 => ⟨S256, .f32⟩
  | 48 => ⟨S_, .i32⟩
  | 49 => ⟨S_, .f32⟩
  | 50 => ⟨S256, .f32⟩
  | 51 => ⟨S1x256, .f32⟩
  | 52 => ⟨S_, .f32⟩
  | 53 => ⟨S1x256, .f32⟩
  | 54 => ⟨S1x256, .f32⟩
  | 55 => ⟨S12288x256, .f32⟩
  | 56 => ⟨S12288x256, .f32⟩
  | 57 => ⟨S12288x256, .f32⟩
  | 58 => ⟨S_, .f32⟩
  | 59 => ⟨S_, .f32⟩
  | 60 => ⟨S_, .f32⟩
  | 61 => ⟨S_, .f32⟩
  | 62 => ⟨S256, .f32⟩
  | 63 => ⟨S256, .f32⟩
  | 64 => ⟨S256, .f32⟩
  | 65 => ⟨S_, .f32⟩
  | 66 => ⟨S_, .i1⟩
  | 67 => ⟨S_, .f32⟩
  | 68 => ⟨S_, .f32⟩
  | 69 => ⟨S256, .f32⟩
  | 70 => ⟨S256, .f32⟩
  | 71 => ⟨S1x256, .f32⟩
  | 72 => ⟨S12288x256, .f32⟩
  | 73 => ⟨S12288x256, .f32⟩
  | 74 => ⟨S_, .f32⟩
  | 75 => ⟨S256, .f32⟩
  | 76 => ⟨S256, .f32⟩
  | 77 => ⟨S256, .f32⟩
  | 78 => ⟨S1x256, .f32⟩
  | 79 => ⟨S12288x256, .f32⟩
  | 80 => ⟨S12288x256, .f32⟩
  | 81 => ⟨S1x256, .f32⟩
  | 82 => ⟨S12288x256, .f32⟩
  | 83 => ⟨S12288x256, .f32⟩
  | 84 => ⟨S1x256, .f32⟩
  | 85 => ⟨S12288x256, .f32⟩
  | 86 => ⟨S12288x256, .f32⟩
  | 87 => ⟨S_, .f32⟩
  | 88 => ⟨S12288x256, .f32⟩
  | 89 => ⟨S12288x256, .f32⟩
  | 90 => ⟨S12288x64, .f32⟩
  | 91 => ⟨S1x64, .f32⟩
  | 92 => ⟨S12288x64, .f32⟩
  | 93 => ⟨S12288x64, .f32⟩
  | 94 => ⟨S12288x64, .f32⟩
  | 95 => ⟨S1x64, .f32⟩
  | 96 => ⟨S12288x64, .f32⟩
  | 97 => ⟨S12288x64, .f32⟩
  | 98 => ⟨S64x12288, .f32⟩
  | 99 => ⟨S12288x12288, .f32⟩
  | 100 => ⟨S12288x12288, .f32⟩
  | 101 => ⟨S12288x12288, .f32⟩
  | 102 => ⟨S_, .f32⟩
  | 103 => ⟨S12288x12288, .f32⟩
  | 104 => ⟨S12288x12288, .f32⟩
  | 105 => ⟨S_, .f32⟩
  | 106 => ⟨S12288x12288, .f32⟩
  | 107 => ⟨S12288x12288, .f32⟩
  | 108 => ⟨S12288x128, .f32⟩
  | 109 => ⟨S1x128, .f32⟩
  | 110 => ⟨S12288x128, .f32⟩
  | 111 => ⟨S12288x128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S12288x128, .f32⟩
  | 125 => ⟨S12288x128, .f32⟩
  | 126 => ⟨S12288x128, .f32⟩
  | 127 => ⟨S_, .f32⟩
  | _ => ⟨S12288x256, .f32⟩

abbrev hbmTy0_2 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S12288x128, .f32⟩
  | 14 => ⟨S12288x128, .f32⟩
  | 15 => ⟨S_, .f32⟩
  | 16 => ⟨S128, .f32⟩
  | 17 => ⟨S128, .f32⟩
  | 18 => ⟨S128, .f32⟩
  | 19 => ⟨S1x128, .f32⟩
  | 20 => ⟨S12288x128, .f32⟩
  | 21 => ⟨S12288x128, .f32⟩
  | 22 => ⟨S1x128, .f32⟩
  | 23 => ⟨S12288x128, .f32⟩
  | 24 => ⟨S12288x128, .f32⟩
  | 25 => ⟨S1x128, .f32⟩
  | 26 => ⟨S12288x128, .f32⟩
  | 27 => ⟨S12288x128, .f32⟩
  | 28 => ⟨S12288x512, .f32⟩
  | 29 => ⟨S1x512, .f32⟩
  | 30 => ⟨S12288x512, .f32⟩
  | 31 => ⟨S12288x512, .f32⟩
  | 32 => ⟨S_, .f32⟩
  | 33 => ⟨S12288x512, .f32⟩
  | 34 => ⟨S12288x512, .f32⟩
  | 35 => ⟨S12288x256, .f32⟩
  | 36 => ⟨S1x256, .f32⟩
  | 37 => ⟨S12288x256, .f32⟩
  | 38 => ⟨S12288x256, .f32⟩
  | _ => ⟨S12288x256, .f32⟩

abbrev hbmTy (i : Nat) : BufTy := match i / 128 with
  | 0 => hbmTy0_0 i
  | 1 => hbmTy0_1 i
  | 2 => hbmTy0_2 i
  | _ => ⟨S12288x256, .f32⟩

abbrev bufTy : (tb : Table) → Fin (tcTables nBuf tb) → BufTy
  | .hbm, ⟨i, _⟩ => hbmTy i
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_cst_3 : Ref sig .tc := ⟨.hbm, 102, rfl⟩
abbrev main_call0_v12 : Ref sig .tc := ⟨.hbm, 103, rfl⟩
abbrev main_call0_cst_4 : Ref sig .tc := ⟨.hbm, 104, rfl⟩
abbrev main_call0_call0_v0 : Ref sig .tc := ⟨.hbm, 105, rfl⟩
abbrev main_call0_call0_v1 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_11 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call1_cst : Ref sig .tc := ⟨.hbm, 124, rfl⟩
abbrev main_call1_v0 : Ref sig .tc := ⟨.hbm, 125, rfl⟩
abbrev main_v67 : Ref sig .tc := ⟨.hbm, 126, rfl⟩
abbrev main_v68 : Ref sig .tc := ⟨.hbm, 127, rfl⟩
abbrev main_c_12 : Ref sig .tc := ⟨.hbm, 128, rfl⟩
abbrev main_v69 : Ref sig .tc := ⟨.hbm, 129, rfl⟩
abbrev main_v70 : Ref sig .tc := ⟨.hbm, 130, rfl⟩
abbrev main_c_13 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_c_14 : Ref sig .tc := ⟨.hbm, 137, rfl⟩
abbrev main_v76 : Ref sig .tc := ⟨.hbm, 138, rfl⟩
abbrev main_v77 : Ref sig .tc := ⟨.hbm, 139, rfl⟩
abbrev main_c_15 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_16 : Ref sig .tc := ⟨.hbm, 148, rfl⟩
abbrev main_v85 : Ref sig .tc := ⟨.hbm, 149, rfl⟩
abbrev main_v86 : Ref sig .tc := ⟨.hbm, 150, rfl⟩
abbrev main_c_17 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_18 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_19 : Ref sig .tc := ⟨.hbm, 171, rfl⟩
abbrev main_v105 : Ref sig .tc := ⟨.hbm, 172, rfl⟩
abbrev main_cst_20 : Ref sig .tc := ⟨.hbm, 173, rfl⟩
abbrev main_v106 : Ref sig .tc := ⟨.hbm, 174, rfl⟩
abbrev main_v107 : Ref sig .tc := ⟨.hbm, 175, rfl⟩
abbrev main_c_21 : Ref sig .tc := ⟨.hbm, 176, rfl⟩
abbrev main_call2_cst : Ref sig .tc := ⟨.hbm, 177, rfl⟩
abbrev main_call2_v0 : Ref sig .tc := ⟨.hbm, 178, rfl⟩
abbrev main_call2_v1 : Ref sig .tc := ⟨.hbm, 179, rfl⟩
abbrev main_call2_cst_0 : Ref sig .tc := ⟨.hbm, 180, rfl⟩
abbrev main_call2_v2 : Ref sig .tc := ⟨.hbm, 181, rfl⟩
abbrev main_call2_v3 : Ref sig .tc := ⟨.hbm, 182, rfl⟩
abbrev main_call2_v4 : Ref sig .tc := ⟨.hbm, 183, rfl⟩
abbrev main_call2_v5 : Ref sig .tc := ⟨.hbm, 184, rfl⟩
abbrev main_call2_v6 : Ref sig .tc := ⟨.hbm, 185, rfl⟩
abbrev main_call2_v7 : Ref sig .tc := ⟨.hbm, 186, rfl⟩
abbrev main_call2_cst_1 : Ref sig .tc := ⟨.hbm, 187, rfl⟩
abbrev main_call2_v8 : Ref sig .tc := ⟨.hbm, 188, rfl⟩
abbrev main_call2_cst_2 : Ref sig .tc := ⟨.hbm, 189, rfl⟩
abbrev main_call2_v9 : Ref sig .tc := ⟨.hbm, 190, rfl⟩
abbrev main_call2_v10 : Ref sig .tc := ⟨.hbm, 191, rfl⟩
abbrev main_call2_v11 : Ref sig .tc := ⟨.hbm, 192, rfl⟩
abbrev main_call2_cst_3 : Ref sig .tc := ⟨.hbm, 193, rfl⟩
abbrev main_call2_v12 : Ref sig .tc := ⟨.hbm, 194, rfl⟩
abbrev main_call2_cst_4 : Ref sig .tc := ⟨.hbm, 195, rfl⟩
abbrev main_call2_call0_v0 : Ref sig .tc := ⟨.hbm, 196, rfl⟩
abbrev main_call2_call0_v1 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_22 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_call3_cst : Ref sig .tc := ⟨.hbm, 215, rfl⟩
abbrev main_call3_v0 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_cst_23 : Ref sig .tc := ⟨.hbm, 230, rfl⟩
abbrev main_v137 : Ref sig .tc := ⟨.hbm, 231, rfl⟩
abbrev main_v138 : Ref sig .tc := ⟨.hbm, 232, rfl⟩
abbrev main_cst_24 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_cst_25 : Ref sig .tc := ⟨.hbm, 240, rfl⟩
abbrev main_v145 : Ref sig .tc := ⟨.hbm, 241, rfl⟩
abbrev main_cst_26 : Ref sig .tc := ⟨.hbm, 242, rfl⟩
abbrev main_v146 : Ref sig .tc := ⟨.hbm, 243, rfl⟩
abbrev main_v147 : Ref sig .tc := ⟨.hbm, 244, rfl⟩
abbrev main_c_27 : Ref sig .tc := ⟨.hbm, 245, rfl⟩
abbrev main_call4_cst : Ref sig .tc := ⟨.hbm, 246, rfl⟩
abbrev main_call4_v0 : Ref sig .tc := ⟨.hbm, 247, rfl⟩
abbrev main_call4_v1 : Ref sig .tc := ⟨.hbm, 248, rfl⟩
abbrev main_call4_cst_0 : Ref sig .tc := ⟨.hbm, 249, rfl⟩
abbrev main_call4_v2 : Ref sig .tc := ⟨.hbm, 250, rfl⟩
abbrev main_call4_v3 : Ref sig .tc := ⟨.hbm, 251, rfl⟩
abbrev main_call4_v4 : Ref sig .tc := ⟨.hbm, 252, rfl⟩
abbrev main_call4_v5 : Ref sig .tc := ⟨.hbm, 253, rfl⟩
abbrev main_call4_v6 : Ref sig .tc := ⟨.hbm, 254, rfl⟩
abbrev main_call4_v7 : Ref sig .tc := ⟨.hbm, 255, rfl⟩
abbrev main_call4_cst_1 : Ref sig .tc := ⟨.hbm, 256, rfl⟩
abbrev main_call4_v8 : Ref sig .tc := ⟨.hbm, 257, rfl⟩
abbrev main_call4_cst_2 : Ref sig .tc := ⟨.hbm, 258, rfl⟩
abbrev main_call4_v9 : Ref sig .tc := ⟨.hbm, 259, rfl⟩
abbrev main_call4_v10 : Ref sig .tc := ⟨.hbm, 260, rfl⟩
abbrev main_call4_v11 : Ref sig .tc := ⟨.hbm, 261, rfl⟩
abbrev main_call4_cst_3 : Ref sig .tc := ⟨.hbm, 262, rfl⟩
abbrev main_call4_v12 : Ref sig .tc := ⟨.hbm, 263, rfl⟩
abbrev main_call4_cst_4 : Ref sig .tc := ⟨.hbm, 264, rfl⟩
abbrev main_call4_call0_v0 : Ref sig .tc := ⟨.hbm, 265, rfl⟩
abbrev main_call4_call0_v1 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_cst_28 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_call5_cst : Ref sig .tc := ⟨.hbm, 288, rfl⟩
abbrev main_call5_v0 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_v172 : Ref sig .tc := ⟨.hbm, 294, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S_S12288 : S_.BroadcastsInDim S12288 (![] : Fin 0 → Fin S12288.rank)
  bcast_S393216_S393216x1_0 : S393216.BroadcastsInDim S393216x1 (![0] : Fin 1 → Fin S393216x1.rank)
  bcast_S393216x1_S393216x256_0_1 : S393216x1.BroadcastsInDim S393216x256 (![0, 1] : Fin 2 → Fin S393216x256.rank)
  bcast_S_S12288x256 : S_.BroadcastsInDim S12288x256 (![] : Fin 0 → Fin S12288x256.rank)
  bcast_S12288_S12288x1_0 : S12288.BroadcastsInDim S12288x1 (![0] : Fin 1 → Fin S12288x1.rank)
  bcast_S12288x1_S12288x256_0_1 : S12288x1.BroadcastsInDim S12288x256 (![0, 1] : Fin 2 → Fin S12288x256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  reducesTo_S12288x256_S256_d0 : S12288x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  transposes_S12288x64_S64x12288_1_0 : S12288x64.Transposes [1, 0] S64x12288
  bcast_S_S12288x12288 : S_.BroadcastsInDim S12288x12288 (![] : Fin 0 → Fin S12288x12288.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  reducesTo_S12288x128_S128_d0 : S12288x128.ReducesTo [0] S128
  bcast_S_S128 : S_.BroadcastsInDim S128 (![] : Fin 0 → Fin S128.rank)
  bcast_S_S1x128 : S_.BroadcastsInDim S1x128 (![] : Fin 0 → Fin S1x128.rank)
  bcast_S512_S1x512_1 : S512.BroadcastsInDim S1x512 (![1] : Fin 1 → Fin S1x512.rank)
  bcast_S1x512_S12288x512_0_1 : S1x512.BroadcastsInDim S12288x512 (![0, 1] : Fin 2 → Fin S12288x512.rank)
  bcast_S_S12288x512 : S_.BroadcastsInDim S12288x512 (![] : Fin 0 → Fin S12288x512.rank)
  scatter_S12288_S393216x1_S393216_n_0_0_1_wf : ScatterDims.WF S12288 S393216x1 S393216 [] [0] [0] 1
  dot_S12288x256_S256x256_S12288x256_1_0_0_1_n_n_wf : DotDims.WF S12288x256 S256x256 S12288x256 [1] [0] [0] [1] [] []
  gather_S12288_S393216x1_S393216_n_0_n_n_0_1_1_wf : GatherDims.WF S12288 S393216x1 S393216 [] [0] [] [0] [] 1 ![1]
  gather_S12288x256_S393216x1_S393216x256_1_0_n_n_0_1_1256_wf : GatherDims.WF S12288x256 S393216x1 S393216x256 [1] [0] [] [0] [] 1 ![1, 256]
  scatter_S12288x256_S393216x1_S393216x256_1_0_0_1_wf : ScatterDims.WF S12288x256 S393216x1 S393216x256 [1] [0] [0] 1
  dot_S12288x256_S256x64_S12288x64_1_0_0_1_n_n_wf : DotDims.WF S12288x256 S256x64 S12288x64 [1] [0] [0] [1] [] []
  dot_S12288x64_S64x12288_S12288x12288_1_0_0_1_n_n_wf : DotDims.WF S12288x64 S64x12288 S12288x12288 [1] [0] [0] [1] [] []
  dot_S12288x64_S64x128_S12288x128_1_0_0_1_n_n_wf : DotDims.WF S12288x64 S64x128 S12288x128 [1] [0] [0] [1] [] []
  dot_S12288x128_S128x512_S12288x512_1_0_0_1_n_n_wf : DotDims.WF S12288x128 S128x512 S12288x512 [1] [0] [0] [1] [] []
  dot_S12288x512_S512x256_S12288x256_1_0_0_1_n_n_wf : DotDims.WF S12288x512 S512x256 S12288x256 [1] [0] [0] [1] [] []

variable [Facts₀]

def scatter_S12288_S393216x1_S393216_n_0_0_1 : ScatterDims S12288 S393216x1 S393216 where
  updateWindowDims := []
  insertedWindowDims := [0]
  scatterDimsToOperandDims := [0]
  indexVectorDim := 1
  wf := scatter_S12288_S393216x1_S393216_n_0_0_1_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def gather_S12288_S393216x1_S393216_n_0_n_n_0_1_1 : GatherDims S12288 S393216x1 S393216 where
  offsetDims := []
  collapsedSliceDims := [0]
  operandBatchingDims := []
  startIndicesBatchingDims := []
  startIndexMap := [0]
  indexVectorDim := 1
  sliceSizes := ![1]
  wf := gather_S12288_S393216x1_S393216_n_0_n_n_0_1_1_wf
def gather_S12288x256_S393216x1_S393216x256_1_0_n_n_0_1_1256 : GatherDims S12288x256 S393216x1 S393216x256 where
  offsetDims := [1]
  collapsedSliceDims := [0]
  operandBatchingDims := []
  startIndicesBatchingDims := []
  startIndexMap := [0]
  indexVectorDim := 1
  sliceSizes := ![1, 256]
  wf := gather_S12288x256_S393216x1_S393216x256_1_0_n_n_0_1_1256_wf
def scatter_S12288x256_S393216x1_S393216x256_1_0_0_1 : ScatterDims S12288x256 S393216x1 S393216x256 where
  updateWindowDims := [1]
  insertedWindowDims := [0]
  scatterDimsToOperandDims := [0]
  indexVectorDim := 1
  wf := scatter_S12288x256_S393216x1_S393216x256_1_0_0_1_wf
def dot_S12288x256_S256x64_S12288x64_1_0_0_1_n_n : DotDims S12288x256 S256x64 S12288x64 where
  lhsContracting := [1]
  rhsContracting := [0]
  lhsNonContracting := [0]
  rhsNonContracting := [1]
  lhsBatch := []
  rhsBatch := []
  wf := dot_S12288x256_S256x64_S12288x64_1_0_0_1_n_n_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf
def dot_S12288x64_S64x128_S12288x128_1_0_0_1_n_n : DotDims S12288x64 S64x128 S12288x128 where
  lhsContracting := [1]
  rhsContracting := [0]
  lhsNonContracting := [0]
  rhsNonContracting := [1]
  lhsBatch := []
  rhsBatch := []
  wf := dot_S12288x64_S64x128_S12288x128_1_0_0_1_n_n_wf
def dot_S12288x128_S128x512_S12288x512_1_0_0_1_n_n : DotDims S12288x128 S128x512 S12288x512 where
  lhsContracting := [1]
  rhsContracting := [0]
  lhsNonContracting := [0]
  rhsNonContracting := [1]
  lhsBatch := []
  rhsBatch := []
  wf := dot_S12288x128_S128x512_S12288x512_1_0_0_1_n_n_wf
def dot_S12288x512_S512x256_S12288x256_1_0_0_1_n_n : DotDims S12288x512 S512x256 S12288x256 where
  lhsContracting := [1]
  rhsContracting := [0]
  lhsNonContracting := [0]
  rhsNonContracting := [1]
  lhsBatch := []
  rhsBatch := []
  wf := dot_S12288x512_S512x256_S12288x256_1_0_0_1_n_n_wf

class Facts : Prop extends Facts₀ where

variable [Facts]
-- ==== Proof.BitsBodies.lean ====
/-
  The two kernel bodies of `Kernel` as triples, and the proof data of their pipelines, at any float instance.

  Region 0 computes one 1024×2048 tile of sigmoid(z·zᵀ) per grid point (i, j) of a 12×6 grid: it loads the 1024×64 block
  of rows i of z and the 2048×64 block of rows j of z, both windows on the SAME array, multiplies them contracting the
  64 columns of both into a zero accumulator, applies the logistic function and stores the tile whole.  The body also
  loads the tile's buffer before storing it; that value is never used.  Because the two input windows sit on one
  array, the array's full share is dealt to them by halves: window 0 holds the left half, window 1 the right half.

  Region 1 computes 2048 rows of the two-layer perceptron per grid point of a grid of 6: rows·W₁ + b₁, clamped below at
  zero, times W₂, plus b₂, with the weights and the bias rows resident (fetched at the first point only).

  For each region: what a window's block is at a point, that an input window's buffer holds its block at every point
  whether or not it was fetched there, the output buffer after the body as the canon of the body's one store over the
  payload of the loaded blocks, the body's triple, the proof data, and the body obligation at a symbolic point.
-/
import proofs.«172694_j54030688584372_2_alg».proof.Proof.Gen.Kernel.Launch
import proofs.«172694_j54030688584372_2_alg».proof.Proof.Gen.Kernel.Skeleton
import proofs.«172694_j54030688584372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: a tile of sigmoid(z·zᵀ) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, its block index
    has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev r0_a : Rect S1024x64 := Rect.unit (s := S1024x64) ![0, 0] S1024x64.size inb_S1024x64_S1024x64_0_0
abbrev r0_b : Rect S2048x64 := Rect.unit (s := S2048x64) ![0, 0] S2048x64.size inb_S2048x64_S2048x64_0_0
abbrev r0_o : Rect S1024x2048 := Rect.unit (s := S1024x2048) ![0, 0] S1024x2048.size inb_S1024x2048_S1024x2048_0_0

/-- The tile's buffer after the body: its one store, of the payload of the two loaded blocks. -/
def out0_2 (x0 : Vec F S1024x64 .bf16) (x1 : Vec F S2048x64 .bf16) : Vec F S1024x2048 .f32 :=
  View.canon [⟨r0_o, k0_pay1 (View.ld x0 r0_a) (View.ld x1 r0_b)⟩]

/-- The store covers the tile. -/
theorem cover0_2 (p0 : Vec F S1024x2048 .f32) (y : S1024x2048.Idx) :
    ∃ pc ∈ ([⟨r0_o, p0⟩] : List (View.Piece (Elt F) S1024x2048 .f32)), y ∈ pc.1.set :=
  View.cover_of_tiled [⟨r0_o, p0⟩] S1024x2048.size (by rfl) y

set_option maxHeartbeats 1000000 in
/-- The body on whole staging memrefs, the two inputs at read contents and the tile's buffer at anything, runs to the
    continuation holding the inputs as they were and the tile at `out0_2` of them. -/
theorem sound_kernel0 (c : Dev nD) (E : Set ℕ) (i : grid0.Coords) (arg2 : Memref sig .tc .vmem S1024x64 .bf16) (harg2 : arg2.IsWhole)
    (arg3 : Memref sig .tc .vmem S2048x64 .bf16) (harg3 : arg3.IsWhole) (arg4 : Memref sig .tc .vmem S1024x2048 .f32) (harg4 : arg4.IsWhole)
    (x0 : Vec F S1024x64 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__innerprod_sigmoid_kernel i arg2 harg2 arg3 harg3 arg4 harg4) K := by
  simp only [cc0__innerprod_sigmoid_kernel_eq_skeleton]; unfold cc0__innerprod_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's buffer at
    its block and the tile's at `out0_2` of the two blocks; the class invariant; nothing owed; the shared array's share
    dealt by halves to the two windows on it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: 2048 rows of the two-layer perceptron -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: the rows' window is fetched
    at every point, the weights' and bias rows' windows at the first point only and their block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_x : Rect S2048x128 := Rect.unit (s := S2048x128) ![0, 0] S2048x128.size inb_S2048x128_S2048x128_0_0
abbrev r1_w1 : Rect S128x512 := Rect.unit (s := S128x512) ![0, 0] S128x512.size inb_S128x512_S128x512_0_0
abbrev r1_b1 : Rect S1x512 := Rect.unit (s := S1x512) ![0, 0] S1x512.size inb_S1x512_S1x512_0_0
abbrev r1_w2 : Rect S512x256 := Rect.unit (s := S512x256) ![0, 0] S512x256.size inb_S512x256_S512x256_0_0
abbrev r1_b2 : Rect S1x256 := Rect.unit (s := S1x256) ![0, 0] S1x256.size inb_S1x256_S1x256_0_0
abbrev r1_o : Rect S2048x256 := Rect.unit (s := S2048x256) ![0, 0] S2048x256.size inb_S2048x256_S2048x256_0_0

/-- The output rows' buffer after the body: its one store, of the payload of the five loaded blocks. -/
def out1_5 (x0 : Vec F S2048x128 .f32) (x1 : Vec F S128x512 .bf16) (x2 : Vec F S1x512 .f32) (x3 : Vec F S512x256 .bf16) (x4 : Vec F S1x256 .f32) :
    Vec F S2048x256 .f32 :=
  View.canon [⟨r1_o, k1_pay1 (View.ld x0 r1_x) (View.ld x1 r1_w1) (View.ld x2 r1_b1) (View.ld x3 r1_w2) (View.ld x4 r1_b2)⟩]

/-- The store covers the block. -/
theorem cover1_5 (p0 : Vec F S2048x256 .f32) (y : S2048x256.Idx) :
    ∃ pc ∈ ([⟨r1_o, p0⟩] : List (View.Piece (Elt F) S2048x256 .f32)), y ∈ pc.1.set :=
  View.cover_of_tiled [⟨r1_o, p0⟩] S2048x256.size (by rfl) y

set_option maxHeartbeats 1000000 in
/-- The body on whole staging memrefs, the five inputs at read contents and the output's buffer at anything, runs to the
    continuation holding the inputs as they were and the output at `out1_5` of them. -/
theorem sound_kernel1 (c : Dev nD) (E : Set ℕ) (i : grid1.Coords) (arg1 : Memref sig .tc .vmem S2048x128 .f32) (harg1 : arg1.IsWhole)
    (arg2 : Memref sig .tc .vmem S128x512 .bf16) (harg2 : arg2.IsWhole) (arg3 : Memref sig .tc .vmem S1x512 .f32) (harg3 : arg3.IsWhole)
    (arg4 : Memref sig .tc .vmem S512x256 .bf16) (harg4 : arg4.IsWhole) (arg5 : Memref sig .tc .vmem S1x256 .f32) (harg5 : arg5.IsWhole)
    (arg6 : Memref sig .tc .vmem S2048x256 .f32) (harg6 : arg6.IsWhole)
    (x0 : Vec F S2048x128 .f32) (x1 : Vec F S128x512 .bf16) (x2 : Vec F S1x512 .f32) (x3 : Vec F S512x256 .bf16) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__teacher_mlp_kernel i arg1 harg1 arg2 harg2 arg3 harg3 arg4 harg4 arg5 harg5 arg6 harg6) K := by
  simp only [cc1__teacher_mlp_kernel_eq_skeleton]; unfold cc1__teacher_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body each input's buffer at
    its block and the output's at `out1_5` of the five blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsLaunch.lean ====
/-
  The launch of `Kernel`: @main as host stretches and two kernel regions in order.

  Between two items every unscoped buffer of the core is held whole at known contents: the launch contents, then each
  host stretch's operations applied, then what a region's write-backs leave in its output array.  Region 0 is entered
  with the array its two input windows share held whole; its full share is split in halves, one per window, for the
  run of the region, and the halves are joined again at the exit, the array unchanged (an input is never written).
  Beside the buffers ride the core's generator register at some state and the fact that the core owes nothing.
-/
import proofs.«172694_j54030688584372_2_alg».proof.Proof.BitsBodies
import proofs.«172694_j54030688584372_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered with, and what they leave -/

/-- Region 0 is entered with the buffers as the nine host stretches before it leave them. -/
abbrev E9 : (c : Dev nD) → (b : Ref sig .tc) → Buf (Elt F) ((c : Thread nD τ).loc b) := fun c b => Gen.V9 m c b

/-- The tiles' array after region 0: every tile written back. -/
def o10 (c : Dev nD) : Buf (Elt F) ((c : Thread nD τ).loc main_v116) := (dat0 (E9 m) c).arrAt 2 cfg0.N

/-- What region 0 leaves, as the family the boundary contents are written over (read at `main_v116` only). -/
def outs10 : Gen.Outs (F := F) := fun _ r c =>
  if h : r = main_v116 then h ▸ o10 m c else m ((c : Thread nD τ).loc r)
theorem outs10_eq (c : Dev nD) : outs10 m 10 main_v116 c = o10 m c := by
  unfold outs10; rw [dif_pos rfl]

/-- Region 1 is entered with the buffers as the three host stretches after region 0 leave them. -/
abbrev E13 : (c : Dev nD) → (b : Ref sig .tc) → Buf (Elt F) ((c : Thread nD τ).loc b) := fun c b => Gen.V13 m (outs10 m) c b

/-- The perceptron's output array after region 1: every block of rows written back. -/
def o14 (c : Dev nD) : Buf (Elt F) ((c : Thread nD τ).loc main_v144) := (dat1 (E13 m) c).arrAt 5 cfg1.N

/-- What both regions leave. -/
def outs : Gen.Outs (F := F) := fun n r c =>
  if n = 14 then (if h : r = main_v144 then h ▸ o14 m c else m ((c : Thread nD τ).loc r)) else outs10 m n r c
theorem outs_10 (c : Dev nD) : outs m 10 main_v116 c = o10 m c := by
  unfold outs; rw [if_neg (by decide)]; exact outs10_eq m c
theorem outs_14 (c : Dev nD) : outs m 14 main_v144 c = o14 m c := by
  unfold outs; rw [if_pos rfl, dif_pos rfl]
theorem V13_outs (c : Dev nD) : Gen.V13 m (outs m) c = Gen.V13 m (outs10 m) c := by
  have h : Gen.V10 m (outs m) c = Gen.V10 m (outs10 m) c := by
    unfold Gen.V10
    rw [outs_10, outs10_eq]
  unfold Gen.V13 Gen.V12 Gen.V11
  rw [h]

/-! ## The proof data family and what rides beside the buffers -/

abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (cfgs p) c
  | ⟨0, _⟩ => fun c => dat0 (E9 m) c
  | ⟨1, _⟩ => fun c => dat1 (E13 m) c

abbrev 𝒱₀ : Variants := Variants.none
abbrev L : GSem nD τ sig → Finset Unit := fun _ => ∅
abbrev lv : GSem nD τ sig → Unit → ℕ := fun _ _ => 0

/-- The generator register at some state, and the core owing nothing. -/
abbrev Rr (c : Dev nD) : sProp 𝕄 := iprop((∃ r, prngReg c r) ∗ ∃ W, owes (c : Thread nD τ) (0 : CellTallies nD τ sig Unit) W)

/-! ## Region 0's array, shared by its two input windows -/

/-- The buffers behind region 0's windows: the array both input windows read, and the tiles' array. -/
theorem arrImage0 : Finset.univ.image (Pipeline.arrRef (sig := sig) spec0) = {main_v115, main_v116} := by decide

section Shared
variable (V V' : (c : Dev nD) → (b : Ref sig .tc) → Buf (Elt F) ((c : Thread nD τ).loc b))

theorem share0_0 (c : Dev nD) : (dat0 V c).share 0 = fullShare.left := rfl
theorem share0_1 (c : Dev nD) : (dat0 V c).share 1 = fullShare.right := rfl
theorem share0_2 (c : Dev nD) : (dat0 V c).share 2 = fullShare := rfl

/-- ENTRY: the core's unscoped buffers are region 0's arrays — the shared array's full share as its two halves, one per
    input window — and the rest. -/
theorem entry0 (c : Dev nD) :
    (unscopedBufs c (V c) : sProp 𝕄)
      ⊢ iprop((dat0 V c).arrays (fun w => (dat0 V c).arrAt w 0) ∗ Pipeline.unscopedRest spec0 c (V c)) := by
  rw [Pipeline.unscopedBufs_split₀ cfgs 0 winFacts₀0.arr_unscoped c (V c)]
  refine sep_mono ?_ .rfl
  unfold Pipeline.arrBufs Pipeline.Dat.arrays
  rw [show Finset.image (Pipeline.arrRef (sig := sig) (cfgs 0).spec) Finset.univ = {main_v115, main_v116} from arrImage0, bigSep_insert (by decide), bigSep_singleton, bigSep_W0, share0_0, share0_1, share0_2,
    (arr_whole0 0).set_eq_univ, (arr_whole0 2).set_eq_univ]
  beta_reduce
  refine (show iprop(_ ∗ _) ⊢ _ from ?_)
  iintro ⟨Ha, Hb⟩
  ihave Hs := (pointsTo_share (PosShare.mem_left_op_right fullShare)).1 $$ Ha
  icases Hs with ⟨Hl, Hr⟩
  isplitl [Hl]; · iexact Hl
  isplitl [Hr]; · iexact Hr
  iexact Hb

/-- EXIT: the two halves joined, the shared array as it was (an input is never written), the tiles' array at what the
    write-backs left, the rest unchanged. -/
theorem exit0 (c : Dev nD) (hsame : V' c main_v115 = V c main_v115) (hout : V' c main_v116 = (dat0 V c).arrAt 2 cfg0.N)
    (hrest : ∀ b, b ∉ Finset.univ.image (Pipeline.arrRef (sig := sig) spec0) → V' c b = V c b) :
    iprop((dat0 V c).arrays (fun w => (dat0 V c).arrAt w cfg0.N) ∗ Pipeline.unscopedRest spec0 c (V c))
      ⊢ (unscopedBufs c (V' c) : sProp 𝕄) := by
  rw [Pipeline.unscopedBufs_split₀ cfgs 0 winFacts₀0.arr_unscoped c (V' c)]
  refine sep_mono ?_ (Entails.of_eq ?_)
  · unfold Pipeline.arrBufs Pipeline.Dat.arrays
    rw [show Finset.image (Pipeline.arrRef (sig := sig) (cfgs 0).spec) Finset.univ = {main_v115, main_v116} from arrImage0, bigSep_insert (by decide), bigSep_singleton, bigSep_W0, share0_0, share0_1, share0_2,
      (arr_whole0 0).set_eq_univ, (arr_whole0 2).set_eq_univ]
    beta_reduce
    rw [(dat0 V c).arrAt_in 0 rfl cfg0.N, (dat0 V c).arrAt_in 1 rfl cfg0.N, hsame, hout]
    refine (show _ ⊢ iprop(_ ∗ _) from ?_)
    iintro ⟨Hl, Hr, Hb⟩
    isplitl [Hl Hr]
    · iapply (pointsTo_share (PosShare.mem_left_op_right fullShare)).2
      isplitl [Hl]; · iexact Hl
      iexact Hr
    iexact Hb
  · unfold Pipeline.unscopedRest
    exact bigSep_congr fun b hb => by rw [hrest b (Finset.mem_sdiff.mp hb).2]

end Shared

/-! ## The regions as segments -/

theorem V10_same (c : Dev nD) : Gen.V10 m (outs m) c main_v115 = Gen.V9 m c main_v115 := Gen.V10_of m (outs m) c main_v115 (by decide)
theorem V10_out (c : Dev nD) : Gen.V10 m (outs m) c main_v116 = (dat0 (E9 m) c).arrAt 2 cfg0.N := by
  unfold Gen.V10
  rw [Function.update_self, outs_10]; rfl
theorem V10_rest (c : Dev nD) (b : Ref sig .tc) (hb : b ∉ Finset.univ.image (Pipeline.arrRef (sig := sig) spec0)) :
    Gen.V10 m (outs m) c b = Gen.V9 m c b :=
  Gen.V10_of m (outs m) c b (by
    rw [arrImage0] at hb
    intro h; rw [List.mem_singleton] at h; subst h; exact hb (by decide))

set_option backward.isDefEq.respectTransparency.types false in
/-- REGION 0 over the thread state: entered from every unscoped buffer at the contents the host stretches before it
    leave, left with the tiles' array at what its write-backs leave. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E9 m) c).loose
  hwaits := Pipeline.hwaits_of_owed_zero _ _ _ _ L lv 0 fun _ _ => rfl
  pre c := iprop(StableHlo.held (c : Thread nD τ) (Pipeline.ucRefs τ sig) (Gen.V9 m c) ∗ Rr c)
  post c := iprop(StableHlo.held (c : Thread nD τ) (Pipeline.ucRefs τ sig) (Gen.V10 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit : (unscopedBufs c (E9 m c) : sProp 𝕄)
        ⊢ iprop((pdats m 0 c).arrays ((pdats m 0 c).arrAt · 0) ∗ Pipeline.unscopedRest spec0 c (E9 m c)) := entry0 (E9 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E9 m c))
        ⊢ (unscopedBufs c (fun b => Gen.V10 m (outs m) c b) : sProp 𝕄) :=
      exit0 (E9 m) (fun c b => Gen.V10 m (outs m) c b) c (V10_same m c) (V10_out m c) (V10_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents region 1 leaves: its inputs as entered, its output array at what its write-backs leave. -/
theorem hF1 (c : Dev nD) (w : Fin cfg1.W) :
    (dat1 (E13 m) c).arrAt w cfg1.N = Gen.V14 m (outs m) c (Pipeline.arrRef spec1 w) := by
  have hin : ∀ (w : Fin cfg1.W) (hw : (cfg1.win w).isOut = false) (hne : Pipeline.arrRef spec1 w ∉ ([main_v144] : List (Ref sig .tc))),
      (dat1 (E13 m) c).arrAt w cfg1.N = Gen.V14 m (outs m) c (Pipeline.arrRef spec1 w) := fun w hw hne => by
    rw [(dat1 (E13 m) c).arrAt_in w hw cfg1.N, Gen.V14_of m (outs m) c _ hne, V13_outs]; rfl
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    unfold Gen.V14
    rw [Function.update_self, outs_14]; rfl
theorem hrest1 (c : Dev nD) : ∀ b, b ∉ Finset.univ.image (Pipeline.arrRef (sig := sig) spec1) →
    Gen.V14 m (outs m) c b = Gen.V13 m (outs10 m) c b := fun b hb => by
  rw [Gen.V14_of m (outs m) c b (by
    intro h; rw [List.mem_singleton] at h; subst h
    exact hb (Finset.mem_image.mpr ⟨5, Finset.mem_univ _, rfl⟩)), V13_outs]

/-- The last thread state without the `owes`. -/
abbrev Tₙ (c : Dev nD) : sProp 𝕄 :=
  iprop(StableHlo.held (c : Thread nD τ) (Pipeline.ucRefs τ sig) (Gen.V14 m (outs m) c) ∗ ∃ r, prngReg c r)

set_option backward.isDefEq.respectTransparency.types false in
/-- REGION 1 over the thread state: entered from the contents the three host stretches after region 0 leave, left with
    the perceptron's output array at what its write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E13 m) c).loose
  hwaits := Pipeline.hwaits_of_owed_zero _ _ _ _ L lv 1 fun _ _ => rfl
  pre c := iprop(StableHlo.held (c : Thread nD τ) (Pipeline.ucRefs τ sig) (Gen.V13 m (outs m) c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E13 m c)
  hentry c := by
    rw [Pipeline.ownSems0_none, V13_outs]
    have hsplit := Pipeline.arrays_of_unscopedBufs (p := 1) (pcfgs (F := F)) adm (pdats m) launch1.win launch1.arr_whole c
      ((pdats m 1 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E13 m c) (fun b => Gen.V14 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

-- the launch theorem's implicit arguments are found by unifying its conclusion with this one, which takes unfolding
-- plain definitions in a metavariable's type
set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V14 m (outs m) c b) := by
  refine Pipeline.θ_run_regions_kit_dev (pcfgs (F := F)) adm (pdats m) () cellOf_inj emb₁ defs₀ 𝒱₀ L lv m ρ main
    (Gen.segs m (outs m) 𝒱₀ L lv (fun _ => Rr) () (pdats m) (reg0 m) (reg1 m))
    (fun c Q => by
      rewrite [main_chain c, Pipeline.Seg.run_eq_chain,
        show (Gen.segs m (outs m) 𝒱₀ L lv (fun _ => Rr) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tₙ m)
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V14 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V14 m (outs m) c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends holding its launch contents — no host stretch writes one, no region may
    change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨
      (h c _ (mem_uc main_arg0 (by decide))).trans (Gen.V14_main_arg0 m (outs m) c),
      (h c _ (mem_uc main_arg1 (by decide))).trans (Gen.V14_main_arg1 m (outs m) c),
      (h c _ (mem_uc main_arg2 (by decide))).trans (Gen.V14_main_arg2 m (outs m) c),
      (h c _ (mem_uc main_arg3 (by decide))).trans (Gen.V14_main_arg3 m (outs m) c),
      (h c _ (mem_uc main_arg4 (by decide))).trans (Gen.V14_main_arg4 m (outs m) c),
      (h c _ (mem_uc main_arg5 (by decide))).trans (Gen.V14_main_arg5 m (outs m) c),
      (h c _ (mem_uc main_arg6 (by decide))).trans (Gen.V14_main_arg6 m (outs m) c),
      (h c _ (mem_uc main_arg7 (by decide))).trans (Gen.V14_main_arg7 m (outs m) c),
      (h c _ (mem_uc main_arg8 (by decide))).trans (Gen.V14_main_arg8 m (outs m) c),
      (h c _ (mem_uc main_arg9 (by decide))).trans (Gen.V14_main_arg9 m (outs m) c),
      (h c _ (mem_uc main_arg10 (by decide))).trans (Gen.V14_main_arg10 m (outs m) c),
      (h c _ (mem_uc main_arg11 (by decide))).trans (Gen.V14_main_arg11 m (outs m) c),
      (h c _ (mem_uc main_arg12 (by decide))).trans (Gen.V14_main_arg12 m (outs m) c),
      (h c _ (mem_uc main_arg13 (by decide))).trans (Gen.V14_main_arg13 m (outs m) c),
      (h c _ (mem_uc main_arg14 (by decide))).trans (Gen.V14_main_arg14 m (outs m) c),
      (h c _ (mem_uc main_arg15 (by decide))).trans (Gen.V14_main_arg15 m (outs m) c),
      (h c _ (mem_uc main_arg16 (by decide))).trans (Gen.V14_main_arg16 m (outs m) c),
      (h c _ (mem_uc main_arg17 (by decide))).trans (Gen.V14_main_arg17 m (outs m) c),
      (h c _ (mem_uc main_arg18 (by decide))).trans (Gen.V14_main_arg18 m (outs m) c),
      (h c _ (mem_uc main_arg19 (by decide))).trans (Gen.V14_main_arg19 m (outs m) c),
      (h c _ (mem_uc main_arg20 (by decide))).trans (Gen.V14_main_arg20 m (outs m) c),
      (h c _ (mem_uc main_arg21 (by decide))).trans (Gen.V14_main_arg21 m (outs m) c)⟩)
    (run_all m ρ)

end Cert.Kernel.Hand

end
-- ==== Proof.IdealBodies.lean ====
/-
  The two kernel bodies of `KernelIdeal` as triples, and the proof data of their pipelines, at any float instance.

  Region 0 computes one 1024×2048 tile of sigmoid(z·zᵀ) per grid point (i, j) of a 12×6 grid: it loads the 1024×64 block
  of rows i of z and the 2048×64 block of rows j of z, both windows on the SAME array, multiplies them contracting the
  64 columns of both into a zero accumulator, applies the logistic function and stores the tile whole.  The body also
  loads the tile's buffer before storing it; that value is never used.  Because the two input windows sit on one
  array, the array's full share is dealt to them by halves: window 0 holds the left half, window 1 the right half.

  Region 1 computes 2048 rows of the two-layer perceptron per grid point of a grid of 6: rows·W₁ + b₁, clamped below at
  zero, times W₂, plus b₂, with the weights and the bias rows resident (fetched at the first point only).

  For each region: what a window's block is at a point, that an input window's buffer holds its block at every point
  whether or not it was fetched there, the output buffer after the body as the canon of the body's one store over the
  payload of the loaded blocks, the body's triple, the proof data, and the body obligation at a symbolic point.
-/
import proofs.«172694_j54030688584372_2_alg».proof.Proof.Gen.KernelIdeal.Launch
import proofs.«172694_j54030688584372_2_alg».proof.Proof.Gen.KernelIdeal.Skeleton
import proofs.«172694_j54030688584372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: a tile of sigmoid(z·zᵀ) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, its block index
    has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev r0_a : Rect S1024x64 := Rect.unit (s := S1024x64) ![0, 0] S1024x64.size inb_S1024x64_S1024x64_0_0
abbrev r0_b : Rect S2048x64 := Rect.unit (s := S2048x64) ![0, 0] S2048x64.size inb_S2048x64_S2048x64_0_0
abbrev r0_o : Rect S1024x2048 := Rect.unit (s := S1024x2048) ![0, 0] S1024x2048.size inb_S1024x2048_S1024x2048_0_0

/-- The tile's buffer after the body: its one store, of the payload of the two loaded blocks. -/
def out0_2 (x0 : Vec F S1024x64 .bf16) (x1 : Vec F S2048x64 .bf16) : Vec F S1024x2048 .f32 :=
  View.canon [⟨r0_o, k0_pay1 (View.ld x0 r0_a) (View.ld x1 r0_b)⟩]

/-- The store covers the tile. -/
theorem cover0_2 (p0 : Vec F S1024x2048 .f32) (y : S1024x2048.Idx) :
    ∃ pc ∈ ([⟨r0_o, p0⟩] : List (View.Piece (Elt F) S1024x2048 .f32)), y ∈ pc.1.set :=
  View.cover_of_tiled [⟨r0_o, p0⟩] S1024x2048.size (by rfl) y

set_option maxHeartbeats 1000000 in
/-- The body on whole staging memrefs, the two inputs at read contents and the tile's buffer at anything, runs to the
    continuation holding the inputs as they were and the tile at `out0_2` of them. -/
theorem sound_kernel0 (c : Dev nD) (E : Set ℕ) (i : grid0.Coords) (arg2 : Memref sig .tc .vmem S1024x64 .bf16) (harg2 : arg2.IsWhole)
    (arg3 : Memref sig .tc .vmem S2048x64 .bf16) (harg3 : arg3.IsWhole) (arg4 : Memref sig .tc .vmem S1024x2048 .f32) (harg4 : arg4.IsWhole)
    (x0 : Vec F S1024x64 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__innerprod_sigmoid_kernel i arg2 harg2 arg3 harg3 arg4 harg4) K := by
  simp only [cc0__innerprod_sigmoid_kernel_eq_skeleton]; unfold cc0__innerprod_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's buffer at
    its block and the tile's at `out0_2` of the two blocks; the class invariant; nothing owed; the shared array's share
    dealt by halves to the two windows on it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: 2048 rows of the two-layer perceptron -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: the rows' window is fetched
    at every point, the weights' and bias rows' windows at the first point only and their block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev r1_x : Rect S2048x128 := Rect.unit (s := S2048x128) ![0, 0] S2048x128.size inb_S2048x128_S2048x128_0_0
abbrev r1_w1 : Rect S128x512 := Rect.unit (s := S128x512) ![0, 0] S128x512.size inb_S128x512_S128x512_0_0
abbrev r1_b1 : Rect S1x512 := Rect.unit (s := S1x512) ![0, 0] S1x512.size inb_S1x512_S1x512_0_0
abbrev r1_w2 : Rect S512x256 := Rect.unit (s := S512x256) ![0, 0] S512x256.size inb_S512x256_S512x256_0_0
abbrev r1_b2 : Rect S1x256 := Rect.unit (s := S1x256) ![0, 0] S1x256.size inb_S1x256_S1x256_0_0
abbrev r1_o : Rect S2048x256 := Rect.unit (s := S2048x256) ![0, 0] S2048x256.size inb_S2048x256_S2048x256_0_0

/-- The output rows' buffer after the body: its one store, of the payload of the five loaded blocks. -/
def out1_5 (x0 : Vec F S2048x128 .f32) (x1 : Vec F S128x512 .bf16) (x2 : Vec F S1x512 .f32) (x3 : Vec F S512x256 .bf16) (x4 : Vec F S1x256 .f32) :
    Vec F S2048x256 .f32 :=
  View.canon [⟨r1_o, k1_pay1 (View.ld x0 r1_x) (View.ld x1 r1_w1) (View.ld x2 r1_b1) (View.ld x3 r1_w2) (View.ld x4 r1_b2)⟩]

/-- The store covers the block. -/
theorem cover1_5 (p0 : Vec F S2048x256 .f32) (y : S2048x256.Idx) :
    ∃ pc ∈ ([⟨r1_o, p0⟩] : List (View.Piece (Elt F) S2048x256 .f32)), y ∈ pc.1.set :=
  View.cover_of_tiled [⟨r1_o, p0⟩] S2048x256.size (by rfl) y

set_option maxHeartbeats 1000000 in
/-- The body on whole staging memrefs, the five inputs at read contents and the output's buffer at anything, runs to the
    continuation holding the inputs as they were and the output at `out1_5` of them. -/
theorem sound_kernel1 (c : Dev nD) (E : Set ℕ) (i : grid1.Coords) (arg1 : Memref sig .tc .vmem S2048x128 .f32) (harg1 : arg1.IsWhole)
    (arg2 : Memref sig .tc .vmem S128x512 .bf16) (harg2 : arg2.IsWhole) (arg3 : Memref sig .tc .vmem S1x512 .f32) (harg3 : arg3.IsWhole)
    (arg4 : Memref sig .tc .vmem S512x256 .bf16) (harg4 : arg4.IsWhole) (arg5 : Memref sig .tc .vmem S1x256 .f32) (harg5 : arg5.IsWhole)
    (arg6 : Memref sig .tc .vmem S2048x256 .f32) (harg6 : arg6.IsWhole)
    (x0 : Vec F S2048x128 .f32) (x1 : Vec F S128x512 .bf16) (x2 : Vec F S1x512 .f32) (x3 : Vec F S512x256 .bf16) (x4 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__teacher_mlp_kernel i arg1 harg1 arg2 harg2 arg3 harg3 arg4 harg4 arg5 harg5 arg6 harg6) K := by
  simp only [cc1__teacher_mlp_kernel_eq_skeleton]; unfold cc1__teacher_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body each input's buffer at
    its block and the output's at `out1_5` of the five blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealLaunch.lean ====
/-
  The launch of `KernelIdeal`: @main as host stretches and two kernel regions in order.

  Between two items every unscoped buffer of the core is held whole at known contents: the launch contents, then each
  host stretch's operations applied, then what a region's write-backs leave in its output array.  Region 0 is entered
  with the array its two input windows share held whole; its full share is split in halves, one per window, for the
  run of the region, and the halves are joined again at the exit, the array unchanged (an input is never written).
  Beside the buffers ride the core's generator register at some state and the fact that the core owes nothing.
-/
import proofs.«172694_j54030688584372_2_alg».proof.Proof.IdealBodies
import proofs.«172694_j54030688584372_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered with, and what they leave -/

/-- Region 0 is entered with the buffers as the nine host stretches before it leave them. -/
abbrev E9 : (c : Dev nD) → (b : Ref sig .tc) → Buf (Elt F) ((c : Thread nD τ).loc b) := fun c b => Gen.V9 m c b

/-- The tiles' array after region 0: every tile written back. -/
def o10 (c : Dev nD) : Buf (Elt F) ((c : Thread nD τ).loc main_v116) := (dat0 (E9 m) c).arrAt 2 cfg0.N

/-- What region 0 leaves, as the family the boundary contents are written over (read at `main_v116` only). -/
def outs10 : Gen.Outs (F := F) := fun _ r c =>
  if h : r = main_v116 then h ▸ o10 m c else m ((c : Thread nD τ).loc r)
theorem outs10_eq (c : Dev nD) : outs10 m 10 main_v116 c = o10 m c := by
  unfold outs10; rw [dif_pos rfl]

/-- Region 1 is entered with the buffers as the three host stretches after region 0 leave them. -/
abbrev E13 : (c : Dev nD) → (b : Ref sig .tc) → Buf (Elt F) ((c : Thread nD τ).loc b) := fun c b => Gen.V13 m (outs10 m) c b

/-- The perceptron's output array after region 1: every block of rows written back. -/
def o14 (c : Dev nD) : Buf (Elt F) ((c : Thread nD τ).loc main_v144) := (dat1 (E13 m) c).arrAt 5 cfg1.N

/-- What both regions leave. -/
def outs : Gen.Outs (F := F) := fun n r c =>
  if n = 14 then (if h : r = main_v144 then h ▸ o14 m c else m ((c : Thread nD τ).loc r)) else outs10 m n r c
theorem outs_10 (c : Dev nD) : outs m 10 main_v116 c = o10 m c := by
  unfold outs; rw [if_neg (by decide)]; exact outs10_eq m c
theorem outs_14 (c : Dev nD) : outs m 14 main_v144 c = o14 m c := by
  unfold outs; rw [if_pos rfl, dif_pos rfl]
theorem V13_outs (c : Dev nD) : Gen.V13 m (outs m) c = Gen.V13 m (outs10 m) c := by
  have h : Gen.V10 m (outs m) c = Gen.V10 m (outs10 m) c := by
    unfold Gen.V10
    rw [outs_10, outs10_eq]
  unfold Gen.V13 Gen.V12 Gen.V11
  rw [h]

/-! ## The proof data family and what rides beside the buffers -/

abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (cfgs p) c
  | ⟨0, _⟩ => fun c => dat0 (E9 m) c
  | ⟨1, _⟩ => fun c => dat1 (E13 m) c

abbrev 𝒱₀ : Variants := Variants.none
abbrev L : GSem nD τ sig → Finset Unit := fun _ => ∅
abbrev lv : GSem nD τ sig → Unit → ℕ := fun _ _ => 0

/-- The generator register at some state, and the core owing nothing. -/
abbrev Rr (c : Dev nD) : sProp 𝕄 := iprop((∃ r, prngReg c r) ∗ ∃ W, owes (c : Thread nD τ) (0 : CellTallies nD τ sig Unit) W)

/-! ## Region 0's array, shared by its two input windows -/

/-- The buffers behind region 0's windows: the array both input windows read, and the tiles' array. -/
theorem arrImage0 : Finset.univ.image (Pipeline.arrRef (sig := sig) spec0) = {main_v115, main_v116} := by decide

section Shared
variable (V V' : (c : Dev nD) → (b : Ref sig .tc) → Buf (Elt F) ((c : Thread nD τ).loc b))

theorem share0_0 (c : Dev nD) : (dat0 V c).share 0 = fullShare.left := rfl
theorem share0_1 (c : Dev nD) : (dat0 V c).share 1 = fullShare.right := rfl
theorem share0_2 (c : Dev nD) : (dat0 V c).share 2 = fullShare := rfl

/-- ENTRY: the core's unscoped buffers are region 0's arrays — the shared array's full share as its two halves, one per
    input window — and the rest. -/
theorem entry0 (c : Dev nD) :
    (unscopedBufs c (V c) : sProp 𝕄)
      ⊢ iprop((dat0 V c).arrays (fun w => (dat0 V c).arrAt w 0) ∗ Pipeline.unscopedRest spec0 c (V c)) := by
  rw [Pipeline.unscopedBufs_split₀ cfgs 0 winFacts₀0.arr_unscoped c (V c)]
  refine sep_mono ?_ .rfl
  unfold Pipeline.arrBufs Pipeline.Dat.arrays
  rw [show Finset.image (Pipeline.arrRef (sig := sig) (cfgs 0).spec) Finset.univ = {main_v115, main_v116} from arrImage0, bigSep_insert (by decide), bigSep_singleton, bigSep_W0, share0_0, share0_1, share0_2,
    (arr_whole0 0).set_eq_univ, (arr_whole0 2).set_eq_univ]
  beta_reduce
  refine (show iprop(_ ∗ _) ⊢ _ from ?_)
  iintro ⟨Ha, Hb⟩
  ihave Hs := (pointsTo_share (PosShare.mem_left_op_right fullShare)).1 $$ Ha
  icases Hs with ⟨Hl, Hr⟩
  isplitl [Hl]; · iexact Hl
  isplitl [Hr]; · iexact Hr
  iexact Hb

/-- EXIT: the two halves joined, the shared array as it was (an input is never written), the tiles' array at what the
    write-backs left, the rest unchanged. -/
theorem exit0 (c : Dev nD) (hsame : V' c main_v115 = V c main_v115) (hout : V' c main_v116 = (dat0 V c).arrAt 2 cfg0.N)
    (hrest : ∀ b, b ∉ Finset.univ.image (Pipeline.arrRef (sig := sig) spec0) → V' c b = V c b) :
    iprop((dat0 V c).arrays (fun w => (dat0 V c).arrAt w cfg0.N) ∗ Pipeline.unscopedRest spec0 c (V c))
      ⊢ (unscopedBufs c (V' c) : sProp 𝕄) := by
  rw [Pipeline.unscopedBufs_split₀ cfgs 0 winFacts₀0.arr_unscoped c (V' c)]
  refine sep_mono ?_ (Entails.of_eq ?_)
  · unfold Pipeline.arrBufs Pipeline.Dat.arrays
    rw [show Finset.image (Pipeline.arrRef (sig := sig) (cfgs 0).spec) Finset.univ = {main_v115, main_v116} from arrImage0, bigSep_insert (by decide), bigSep_singleton, bigSep_W0, share0_0, share0_1, share0_2,
      (arr_whole0 0).set_eq_univ, (arr_whole0 2).set_eq_univ]
    beta_reduce
    rw [(dat0 V c).arrAt_in 0 rfl cfg0.N, (dat0 V c).arrAt_in 1 rfl cfg0.N, hsame, hout]
    refine (show _ ⊢ iprop(_ ∗ _) from ?_)
    iintro ⟨Hl, Hr, Hb⟩
    isplitl [Hl Hr]
    · iapply (pointsTo_share (PosShare.mem_left_op_right fullShare)).2
      isplitl [Hl]; · iexact Hl
      iexact Hr
    iexact Hb
  · unfold Pipeline.unscopedRest
    exact bigSep_congr fun b hb => by rw [hrest b (Finset.mem_sdiff.mp hb).2]

end Shared

/-! ## The regions as segments -/

theorem V10_same (c : Dev nD) : Gen.V10 m (outs m) c main_v115 = Gen.V9 m c main_v115 := Gen.V10_of m (outs m) c main_v115 (by decide)
theorem V10_out (c : Dev nD) : Gen.V10 m (outs m) c main_v116 = (dat0 (E9 m) c).arrAt 2 cfg0.N := by
  unfold Gen.V10
  rw [Function.update_self, outs_10]; rfl
theorem V10_rest (c : Dev nD) (b : Ref sig .tc) (hb : b ∉ Finset.univ.image (Pipeline.arrRef (sig := sig) spec0)) :
    Gen.V10 m (outs m) c b = Gen.V9 m c b :=
  Gen.V10_of m (outs m) c b (by
    rw [arrImage0] at hb
    intro h; rw [List.mem_singleton] at h; subst h; exact hb (by decide))

set_option backward.isDefEq.respectTransparency.types false in
/-- REGION 0 over the thread state: entered from every unscoped buffer at the contents the host stretches before it
    leave, left with the tiles' array at what its write-backs leave. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E9 m) c).loose
  hwaits := Pipeline.hwaits_of_owed_zero _ _ _ _ L lv 0 fun _ _ => rfl
  pre c := iprop(StableHlo.held (c : Thread nD τ) (Pipeline.ucRefs τ sig) (Gen.V9 m c) ∗ Rr c)
  post c := iprop(StableHlo.held (c : Thread nD τ) (Pipeline.ucRefs τ sig) (Gen.V10 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit : (unscopedBufs c (E9 m c) : sProp 𝕄)
        ⊢ iprop((pdats m 0 c).arrays ((pdats m 0 c).arrAt · 0) ∗ Pipeline.unscopedRest spec0 c (E9 m c)) := entry0 (E9 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E9 m c))
        ⊢ (unscopedBufs c (fun b => Gen.V10 m (outs m) c b) : sProp 𝕄) :=
      exit0 (E9 m) (fun c b => Gen.V10 m (outs m) c b) c (V10_same m c) (V10_out m c) (V10_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The contents region 1 leaves: its inputs as entered, its output array at what its write-backs leave. -/
theorem hF1 (c : Dev nD) (w : Fin cfg1.W) :
    (dat1 (E13 m) c).arrAt w cfg1.N = Gen.V14 m (outs m) c (Pipeline.arrRef spec1 w) := by
  have hin : ∀ (w : Fin cfg1.W) (hw : (cfg1.win w).isOut = false) (hne : Pipeline.arrRef spec1 w ∉ ([main_v144] : List (Ref sig .tc))),
      (dat1 (E13 m) c).arrAt w cfg1.N = Gen.V14 m (outs m) c (Pipeline.arrRef spec1 w) := fun w hw hne => by
    rw [(dat1 (E13 m) c).arrAt_in w hw cfg1.N, Gen.V14_of m (outs m) c _ hne, V13_outs]; rfl
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    unfold Gen.V14
    rw [Function.update_self, outs_14]; rfl
theorem hrest1 (c : Dev nD) : ∀ b, b ∉ Finset.univ.image (Pipeline.arrRef (sig := sig) spec1) →
    Gen.V14 m (outs m) c b = Gen.V13 m (outs10 m) c b := fun b hb => by
  rw [Gen.V14_of m (outs m) c b (by
    intro h; rw [List.mem_singleton] at h; subst h
    exact hb (Finset.mem_image.mpr ⟨5, Finset.mem_univ _, rfl⟩)), V13_outs]

/-- The last thread state without the `owes`. -/
abbrev Tₙ (c : Dev nD) : sProp 𝕄 :=
  iprop(StableHlo.held (c : Thread nD τ) (Pipeline.ucRefs τ sig) (Gen.V14 m (outs m) c) ∗ ∃ r, prngReg c r)

set_option backward.isDefEq.respectTransparency.types false in
/-- REGION 1 over the thread state: entered from the contents the three host stretches after region 0 leave, left with
    the perceptron's output array at what its write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E13 m) c).loose
  hwaits := Pipeline.hwaits_of_owed_zero _ _ _ _ L lv 1 fun _ _ => rfl
  pre c := iprop(StableHlo.held (c : Thread nD τ) (Pipeline.ucRefs τ sig) (Gen.V13 m (outs m) c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E13 m c)
  hentry c := by
    rw [Pipeline.ownSems0_none, V13_outs]
    have hsplit := Pipeline.arrays_of_unscopedBufs (p := 1) (pcfgs (F := F)) adm (pdats m) launch1.win launch1.arr_whole c
      ((pdats m 1 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E13 m c) (fun b => Gen.V14 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

-- the launch theorem's implicit arguments are found by unifying its conclusion with this one, which takes unfolding
-- plain definitions in a metavariable's type
set_option backward.isDefEq.respectTransparency.types false in
/-- THE RUN: from any memory with zero counters every weakly fair execution of @main terminates, nothing faulting, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V14 m (outs m) c b) := by
  refine Pipeline.θ_run_regions_kit_dev (pcfgs (F := F)) adm (pdats m) () cellOf_inj emb₁ defs₀ 𝒱₀ L lv m ρ main
    (Gen.segs m (outs m) 𝒱₀ L lv (fun _ => Rr) () (pdats m) (reg0 m) (reg1 m))
    (fun c Q => by
      rewrite [main_chain c, Pipeline.Seg.run_eq_chain,
        show (Gen.segs m (outs m) 𝒱₀ L lv (fun _ => Rr) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c)) (Tₙ := Tₙ m)
    (hch := fun c => ⟨.rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V14 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V14 m (outs m) c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends holding its launch contents — no host stretch writes one, no region may
    change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨
      (h c _ (mem_uc main_arg0 (by decide))).trans (Gen.V14_main_arg0 m (outs m) c),
      (h c _ (mem_uc main_arg1 (by decide))).trans (Gen.V14_main_arg1 m (outs m) c),
      (h c _ (mem_uc main_arg2 (by decide))).trans (Gen.V14_main_arg2 m (outs m) c),
      (h c _ (mem_uc main_arg3 (by decide))).trans (Gen.V14_main_arg3 m (outs m) c),
      (h c _ (mem_uc main_arg4 (by decide))).trans (Gen.V14_main_arg4 m (outs m) c),
      (h c _ (mem_uc main_arg5 (by decide))).trans (Gen.V14_main_arg5 m (outs m) c),
      (h c _ (mem_uc main_arg6 (by decide))).trans (Gen.V14_main_arg6 m (outs m) c),
      (h c _ (mem_uc main_arg7 (by decide))).trans (Gen.V14_main_arg7 m (outs m) c),
      (h c _ (mem_uc main_arg8 (by decide))).trans (Gen.V14_main_arg8 m (outs m) c),
      (h c _ (mem_uc main_arg9 (by decide))).trans (Gen.V14_main_arg9 m (outs m) c),
      (h c _ (mem_uc main_arg10 (by decide))).trans (Gen.V14_main_arg10 m (outs m) c),
      (h c _ (mem_uc main_arg11 (by decide))).trans (Gen.V14_main_arg11 m (outs m) c),
      (h c _ (mem_uc main_arg12 (by decide))).trans (Gen.V14_main_arg12 m (outs m) c),
      (h c _ (mem_uc main_arg13 (by decide))).trans (Gen.V14_main_arg13 m (outs m) c),
      (h c _ (mem_uc main_arg14 (by decide))).trans (Gen.V14_main_arg14 m (outs m) c),
      (h c _ (mem_uc main_arg15 (by decide))).trans (Gen.V14_main_arg15 m (outs m) c),
      (h c _ (mem_uc main_arg16 (by decide))).trans (Gen.V14_main_arg16 m (outs m) c),
      (h c _ (mem_uc main_arg17 (by decide))).trans (Gen.V14_main_arg17 m (outs m) c),
      (h c _ (mem_uc main_arg18 (by decide))).trans (Gen.V14_main_arg18 m (outs m) c),
      (h c _ (mem_uc main_arg19 (by decide))).trans (Gen.V14_main_arg19 m (outs m) c),
      (h c _ (mem_uc main_arg20 (by decide))).trans (Gen.V14_main_arg20 m (outs m) c),
      (h c _ (mem_uc main_arg21 (by decide))).trans (Gen.V14_main_arg21 m (outs m) c)⟩)
    (run_all m ρ)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.Spec.lean ====
/-
  The two whole-array functions the kernel regions compute, on the extended reals, over literal shapes; no program
  is mentioned.

  `adj z` is the logistic function of z·zᵀ entry by entry: at (r, s) the logistic function of the inner product of
  rows r and s of the 12288×64 array z.
  `mlp x W₁ b₁ W₂ b₂` is two dense layers, the first clamped below at the zero word, each bias a 1×n row: at (r, q) the sum
  over the 512 hidden units j of max(Σₖ x(r,k)·W₁(k,j) + b₁(0,j), 0) · W₂(j,q), plus b₂(0,q).
-/
import Idealize.ShloMosaic.PureOps.Ideal.Laws
import Idealize.ShloMosaic.Lib.ValueIdx

open scoped BigOperators

noncomputable section

namespace Cert.Proof.Spec

open Idealize.ShloMosaic Idealize.ShloMosaic.ValueIdx

/-- The logistic function of z·zᵀ, entry by entry. -/
def adj (z : (⟨2, ![12288, 64]⟩ : Shape).Idx → EReal) : (⟨2, ![12288, 12288]⟩ : Shape).Idx → EReal :=
  fun i => Ideal.logistic (∑ k : Fin 64, z (ix2 (i 0) k) * z (ix2 (i 1) k))

theorem adj_apply (z : (⟨2, ![12288, 64]⟩ : Shape).Idx → EReal) (r s : Fin 12288) :
    adj z (ix2 r s) = Ideal.logistic (∑ k : Fin 64, z (ix2 r k) * z (ix2 s k)) := rfl

/-- Two dense layers, the first clamped below at the zero word, the biases 1×n rows. -/
def mlp (x : (⟨2, ![12288, 128]⟩ : Shape).Idx → EReal) (W1 : (⟨2, ![128, 512]⟩ : Shape).Idx → EReal)
    (b1 : (⟨2, ![1, 512]⟩ : Shape).Idx → EReal) (W2 : (⟨2, ![512, 256]⟩ : Shape).Idx → EReal)
    (b2 : (⟨2, ![1, 256]⟩ : Shape).Idx → EReal) : (⟨2, ![12288, 256]⟩ : Shape).Idx → EReal :=
  fun i => (∑ j : Fin 512, max ((∑ k : Fin 128, x (ix2 (i 0) k) * W1 (ix2 k j)) + b1 (ix2 0 j)) (Ideal.ofBits .f32 0x00000000#32)
      * W2 (ix2 j (i 1))) + b2 (ix2 0 (i 1))

theorem mlp_apply (x : (⟨2, ![12288, 128]⟩ : Shape).Idx → EReal) (W1 : (⟨2, ![128, 512]⟩ : Shape).Idx → EReal)
    (b1 : (⟨2, ![1, 512]⟩ : Shape).Idx → EReal) (W2 : (⟨2, ![512, 256]⟩ : Shape).Idx → EReal)
    (b2 : (⟨2, ![1, 256]⟩ : Shape).Idx → EReal) (r : Fin 12288) (q : Fin 256) :
    mlp x W1 b1 W2 b2 (ix2 r q)
      = (∑ j : Fin 512, max ((∑ k : Fin 128, x (ix2 r k) * W1 (ix2 k j)) + b1 (ix2 0 j)) (Ideal.ofBits .f32 0x00000000#32)
          * W2 (ix2 j q)) + b2 (ix2 0 q) := rfl

end Cert.Proof.Spec

end
-- ==== Proof.IdealValues.lean ====
/-
  What the two kernel regions compute on the extended reals, as whole-array functions of the arrays they are entered
  with.

  Region 0: the tile at grid point (i, j) holds, at (p, q), the logistic function of the sum over the 64 columns k of
  z(1024·i + p, k) · z(2048·j + q, k): the product into a zero accumulator contracts the columns of both blocks, so it
  is the inner product of two rows of z.  The 12×6 tiles of 1024×2048 entries cover the 12288×12288 array, every point
  writing its own tile back, so the array ends holding `adj z`, the logistic function of z·zᵀ entry by entry.

  Region 1: the block at grid point i holds, at (p, q), the sum over the 512 hidden units j of
  max(Σₖ x(2048·i + p, k)·W₁(k, j) + b₁(j), 0) · W₂(j, q), plus b₂(q): a change of float format is the identity on the
  extended reals, the bias rows are read at their one row.  Six blocks of 2048 rows cover the 12288 rows, so the array
  ends holding `mlp x W₁ b₁ W₂ b₂`.
-/
import proofs.«172694_j54030688584372_2_alg».proof.Proof.IdealBodies
import proofs.«172694_j54030688584372_2_alg».proof.Proof.LibBlockReads
import proofs.«172694_j54030688584372_2_alg».proof.Proof.Spec
import Idealize.ShloMosaic.PureOps.Ideal.Laws
import Idealize.ShloMosaic.Lib.ValueIdx
import Idealize.ShloMosaic.Lib.Pipeline.Value

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx Cert.Lib.BlockReads
open Idealize.ShloMosaic.Pipeline (Dat Cfg Window)
open Cert.Proof.Spec (adj mlp)

theorem hz2 : (![0, 0] : Fin 2 → Nat) = fun _ => 0 := funext fun a => by fin_cases a <;> rfl

/-! ## Region 0 -/

/-- The body's payload at an entry of the tile: the logistic function of the inner product of row p of the first block
    with row q of the second. -/
theorem tile_apply (x0 : Vec Ideal S1024x64 .bf16) (x1 : Vec Ideal S2048x64 .bf16) (p : Fin 1024) (q : Fin 2048) :
    k0_pay1 (F := Ideal) x0 x1 (ix2 p q) = Ideal.logistic (∑ k : Fin 64, x0 (ix2 p k) * x1 (ix2 q k)) := by
  unfold k0_pay1
  simp only [shapeCast_self]
  exact congrArg Ideal.logistic
    (matmul_zero_cols_apply (φ₁ := .bf16) (φ₂ := .bf16) dot_S1024x64_S2048x64_S1024x2048_1_1_0_0_n_n rfl rfl rfl rfl rfl rfl none x0 x1 p q)

/-- The printed index maps, decided over the grid: window 0 follows the tile's row of blocks, window 1 the tile's
    column of blocks, both at column block 0. -/
theorem idx_facts0 : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 11 ∧ win0_2.index t (1 : Fin 2) ≤ 5 :=
  (by decide +kernel : ∀ t : Fin grid0.N, _)

/-- Every tile is some point's. -/
theorem idx_onto0 : ∀ (q0 : Fin 12) (q1 : Fin 6), ∃ t : Fin cfg0.N, win0_2.index t = ![q0.val, q1.val] :=
  (by decide +kernel : ∀ (q0 : Fin 12) (q1 : Fin 6), ∃ t : Fin grid0.N, win0_2.index t = ![q0.val, q1.val])

variable (V : (c : Dev nD) → (b : Ref sig .tc) → Buf (Elt Ideal) ((c : Thread nD τ).loc b))

/-- What point `t` writes back is tile `t` of `adj` of the shared array as the region finds it. -/
theorem flushed0_eq (c : Dev nD) (t : Fin cfg0.N) :
    (dat0 (F := Ideal) V c).flushed 2 t = ((cfg0.win 2).blk t).view.read (Elt Ideal) (adj (V c main_v115)) := by
  show (cfg0.win 2).cut (grid0.coords t) ((dat0 V c).after 2 t) = _
  rw [after0_2]
  unfold out0_2
  rw [View.canon_unit_zero hz2]
  simp only [View.ld_unit_zero (S := S1024x64) hz2, View.ld_unit_zero (S := S2048x64) hz2]
  obtain ⟨e0, e1, e2, e3, e4, e5⟩ := idx_facts0 t
  funext j
  obtain ⟨p, q, rfl⟩ : ∃ (p : Fin 1024) (q : Fin 2048), j = ix2 p q := ⟨j 0, j 1, eq_ix2 j⟩
  refine (tile_apply _ _ p q).trans ?_
  let z : S12288x64.Idx → EReal := V c main_v115
  show Ideal.logistic (∑ k : Fin 64, z (((cfg0.win 0).blk t).view.emb (ix2 p k)) * z (((cfg0.win 1).blk t).view.emb (ix2 q k)))
    = Ideal.logistic (∑ k : Fin 64, z (ix2 ((((cfg0.win 2).blk t).view.emb (ix2 p q)) 0) k)
        * z (ix2 ((((cfg0.win 2).blk t).view.emb (ix2 p q)) 1) k))
  refine congrArg Ideal.logistic (Finset.sum_congr rfl fun k _ => ?_)
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 64 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 2048 + 1 * q.val = win0_2.index t (1 : Fin 2) * 2048 + 1 * q.val; omega
    | ⟨1, _⟩ => show win0_1.index t (1 : Fin 2) * 64 + 1 * k.val = k.val; omega
  rw [h0, h1]
  rfl

/-- An index of the array is in point `t`'s tile iff each coordinate is in the tile's range on its axis. -/
theorem mem_blk0 (t : Fin cfg0.N) (i : S12288x12288.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v116).slice (win0_2.rect t)).set ↔ _
  rw [View.set_slice_whole, Rect.mem_set_unit]
  exact Iff.rfl

/-- The tiles cover the array: entry (r, s) is in the tile of the point at (r / 1024, s / 2048). -/
theorem cover0 (i : S12288x12288.Idx) :
    ∃ t : Fin cfg0.N, (cfg0.win 2).flush t = true ∧ i ∈ ((cfg0.win 2).blk t).view.set := by
  have hi0 : (i 0).val < 12288 := (i 0).isLt
  have hi1 : (i 1).val < 12288 := (i 1).isLt
  obtain ⟨t, ht⟩ := idx_onto0 ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The tiles' array after region 0. -/
theorem adj_final (c : Dev nD) : (dat0 (F := Ideal) V c).arrAt 2 cfg0.N = adj (V c main_v115) :=
  (dat0 V c).arrAt_eq_of_cover 2 _ (fun t _ => flushed0_eq V c t) cover0

/-! ## Region 1 -/

/-- The body's payload at an entry of the block of rows: the hidden layer of row p clamped at the zero word, times
    column q of the second weights, plus the second bias. -/
theorem rows_apply (x0 : Vec Ideal S2048x128 .f32) (x1 : Vec Ideal S128x512 .bf16) (x2 : Vec Ideal S1x512 .f32)
    (x3 : Vec Ideal S512x256 .bf16) (x4 : Vec Ideal S1x256 .f32) (p : Fin 2048) (q : Fin 256) :
    k1_pay1 (F := Ideal) x0 x1 x2 x3 x4 (ix2 p q)
      = (∑ j : Fin 512, max ((∑ k : Fin 128, x0 (ix2 p k) * x1 (ix2 k j)) + x2 (ix2 0 j)) (Ideal.ofBits .f32 0x00000000#32)
          * x3 (ix2 j q)) + x4 (ix2 0 q) := by
  unfold k1_pay1
  simp only [shapeCast_self]
  refine (addf_apply _ _ _).trans ?_
  rw [broadcast_row_apply]
  refine congrArg (· + x4 (ix2 0 q)) ?_
  refine (matmul_zero_rows_apply (φ₁ := .bf16) (φ₂ := .bf16) dot_S2048x512_S512x256_S2048x256_1_0_0_1_n_n rfl rfl rfl rfl rfl rfl none _ x3 p q).trans ?_
  refine Finset.sum_congr rfl fun j _ => ?_
  refine congrArg (· * x3 (ix2 j q)) ?_
  refine (truncf_apply (ψ := .bf16) _ bitsLt_bf16_f32 _).trans ((maximumf_apply _ _ _).trans ?_)
  refine congrArg₂ max ?_ rfl
  refine (addf_apply _ _ _).trans ?_
  rw [broadcast_row_apply]
  refine congrArg (· + x2 (ix2 0 j)) ?_
  exact matmul_zero_rows_apply (φ₁ := .bf16) (φ₂ := .bf16) dot_S2048x128_S128x512_S2048x512_1_0_0_1_n_n rfl rfl rfl rfl rfl rfl none (truncf .bf16 x0 bitsLt_bf16_f32) x1 p j

/-- The printed index maps, decided over the grid: the rows' window and the output's move together, the weights' and
    bias rows' windows stay at block 0. -/
theorem idx_facts1 : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 5 ∧ win1_5.index t (1 : Fin 2) = 0 :=
  (by decide +kernel : ∀ t : Fin grid1.N, _)

/-- Every block of rows is some point's. -/
theorem idx_onto1 : ∀ (q0 : Fin 6), ∃ t : Fin cfg1.N, win1_5.index t = ![q0.val, 0] :=
  (by decide +kernel : ∀ (q0 : Fin 6), ∃ t : Fin grid1.N, win1_5.index t = ![q0.val, 0])

/-- What point `t` writes back is block `t` of `mlp` of the five arrays as the region finds them. -/
theorem flushed1_eq (c : Dev nD) (t : Fin cfg1.N) :
    (dat1 (F := Ideal) V c).flushed 5 t = ((cfg1.win 5).blk t).view.read (Elt Ideal)
      (mlp (V c main_v139) (V c main_v140) (V c main_v142) (V c main_v141) (V c main_v143)) := by
  show (cfg1.win 5).cut (grid1.coords t) ((dat1 V c).after 5 t) = _
  rw [after1_5]
  unfold out1_5
  rw [View.canon_unit_zero hz2]
  simp only [View.ld_unit_zero (S := S2048x128) hz2, View.ld_unit_zero (S := S128x512) hz2, View.ld_unit_zero (S := S1x512) hz2,
    View.ld_unit_zero (S := S512x256) hz2, View.ld_unit_zero (S := S1x256) hz2]
  obtain ⟨e0, e1, e2, e3, e4, e5, e6, e7, e8, e9, e10, e11⟩ := idx_facts1 t
  funext j
  obtain ⟨p, q, rfl⟩ : ∃ (p : Fin 2048) (q : Fin 256), j = ix2 p q := ⟨j 0, j 1, eq_ix2 j⟩
  refine (rows_apply _ _ _ _ _ p q).trans ?_
  let xx : S12288x128.Idx → EReal := V c main_v139
  let w1 : S128x512.Idx → EReal := V c main_v140
  let b1 : S1x512.Idx → EReal := V c main_v142
  let w2 : S512x256.Idx → EReal := V c main_v141
  let b2 : S1x256.Idx → EReal := V c main_v143
  show (∑ j : Fin 512, max ((∑ k : Fin 128, xx (((cfg1.win 0).blk t).view.emb (ix2 p k)) * w1 (((cfg1.win 1).blk t).view.emb (ix2 k j)))
          + b1 (((cfg1.win 2).blk t).view.emb (ix2 0 j))) (Ideal.ofBits .f32 0x00000000#32)
        * w2 (((cfg1.win 3).blk t).view.emb (ix2 j q))) + b2 (((cfg1.win 4).blk t).view.emb (ix2 0 q))
    = (∑ j : Fin 512, max ((∑ k : Fin 128, xx (ix2 ((((cfg1.win 5).blk t).view.emb (ix2 p q)) 0) k) * w1 (ix2 k j))
          + b1 (ix2 0 j)) (Ideal.ofBits .f32 0x00000000#32)
        * w2 (ix2 j ((((cfg1.win 5).blk t).view.emb (ix2 p q)) 1))) + b2 (ix2 0 ((((cfg1.win 5).blk t).view.emb (ix2 p q)) 1))
  have hx : ∀ k : Fin 128, ((cfg1.win 0).blk t).view.emb (ix2 p k) = ix2 ((((cfg1.win 5).blk t).view.emb (ix2 p q)) 0) k := fun k => by
    funext a; apply Fin.ext
    match a with
    | ⟨0, _⟩ => show win1_0.index t (0 : Fin 2) * 2048 + 1 * p.val = win1_5.index t (0 : Fin 2) * 2048 + 1 * p.val; omega
    | ⟨1, _⟩ => show win1_0.index t (1 : Fin 2) * 128 + 1 * k.val = k.val; omega
  have hw1 : ∀ (k : Fin 128) (j : Fin 512), ((cfg1.win 1).blk t).view.emb (ix2 k j) = ix2 k j := fun k j => by
    funext a; apply Fin.ext
    match a with
    | ⟨0, _⟩ => show win1_1.index t (0 : Fin 2) * 128 + 1 * k.val = k.val; omega
    | ⟨1, _⟩ => show win1_1.index t (1 : Fin 2) * 512 + 1 * j.val = j.val; omega
  have hb1 : ∀ (j : Fin 512), ((cfg1.win 2).blk t).view.emb (ix2 0 j) = ix2 0 j := fun j => by
    funext a; apply Fin.ext
    match a with
    | ⟨0, _⟩ => show win1_2.index t (0 : Fin 2) * 1 + 1 * 0 = 0; omega
    | ⟨1, _⟩ => show win1_2.index t (1 : Fin 2) * 512 + 1 * j.val = j.val; omega
  have hw2 : ∀ (j : Fin 512), ((cfg1.win 3).blk t).view.emb (ix2 j q) = ix2 j ((((cfg1.win 5).blk t).view.emb (ix2 p q)) 1) := fun j => by
    funext a; apply Fin.ext
    match a with
    | ⟨0, _⟩ => show win1_3.index t (0 : Fin 2) * 512 + 1 * j.val = j.val; omega
    | ⟨1, _⟩ => show win1_3.index t (1 : Fin 2) * 256 + 1 * q.val = win1_5.index t (1 : Fin 2) * 256 + 1 * q.val; omega
  have hb2 : ((cfg1.win 4).blk t).view.emb (ix2 0 q) = ix2 0 ((((cfg1.win 5).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 256 + 1 * q.val = win1_5.index t (1 : Fin 2) * 256 + 1 * q.val; omega
  simp only [hx, hw1, hb1, hw2, hb2]
  rfl

/-- An index of the array is in point `t`'s block iff each coordinate is in the block's range on its axis. -/
theorem mem_blk1 (t : Fin cfg1.N) (i : S12288x256.Idx) :
    i ∈ ((cfg1.win 5).blk t).view.set ↔ ∀ a : Fin 2, win1_5.index t a * S2048x256.size a ≤ (i a).val
      ∧ (i a).val < win1_5.index t a * S2048x256.size a + S2048x256.size a := by
  show i ∈ ((View.whole main_v144).slice (win1_5.rect t)).set ↔ _
  rw [View.set_slice_whole, Rect.mem_set_unit]
  exact Iff.rfl

/-- The blocks cover the array: row r is in the block of the point r / 2048. -/
theorem cover1 (i : S12288x256.Idx) :
    ∃ t : Fin cfg1.N, (cfg1.win 5).flush t = true ∧ i ∈ ((cfg1.win 5).blk t).view.set := by
  have hi0 : (i 0).val < 12288 := (i 0).isLt
  have hi1 : (i 1).val < 256 := (i 1).isLt
  obtain ⟨t, ht⟩ := idx_onto1 ⟨(i 0).val / 2048, by omega⟩
  have q0 : win1_5.index t (0 : Fin 2) = (i 0).val / 2048 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 256 ≤ (i 1).val ∧ (i 1).val < win1_5.index t (1 : Fin 2) * 256 + 256; omega

/-- The perceptron's output array after region 1. -/
theorem mlp_final (c : Dev nD) : (dat1 (F := Ideal) V c).arrAt 5 cfg1.N
    = mlp (V c main_v139) (V c main_v140) (V c main_v142) (V c main_v141) (V c main_v143) :=
  (dat1 V c).arrAt_eq_of_cover 5 _ (fun t _ => flushed1_eq V c t) cover1

end Cert.KernelIdeal.Hand

end
-- ==== Proof.IdealResults.lean ====
/-
  What the idealized kernel program's four results hold after the run, on the extended reals.

  The two latent arrays (mean and log-variance) are host results computed before region 0 and never written again.  The
  reconstruction of the adjacency is region 0's array: `adj` of the array both input windows read, which is the mean
  array after a change of float format, the identity on the extended reals.  The reconstruction of the features is
  region 1's array: `mlp` of the projected latent array, the two weight arrays (again after a change of float format)
  and the two bias vectors re-shaped to 1×n rows.
-/
import proofs.«172694_j54030688584372_2_alg».proof.Proof.IdealLaunch
import proofs.«172694_j54030688584372_2_alg».proof.Proof.IdealValues

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert.Proof.Spec (adj mlp)

variable (m : (ℓ : Loc nD τ sig) → Buf (Elt Ideal) ℓ)

/-! ## The host results that survive to the end -/

theorem V14_mu (c : Dev nD) : Gen.V14 m (outs m) c main_v110 = Gen.V9 m c main_v110 :=
  (Gen.V14_of m (outs m) c main_v110 (by decide)).trans <| (Gen.V13_of m (outs m) c main_v110 (by decide)).trans <|
    (Gen.V12_of m (outs m) c main_v110 (by decide)).trans <| (Gen.V11_of m (outs m) c main_v110 (by decide)).trans <|
    Gen.V10_of m (outs m) c main_v110 (by decide)
theorem V14_logvar (c : Dev nD) : Gen.V14 m (outs m) c main_v114 = Gen.V9 m c main_v114 :=
  (Gen.V14_of m (outs m) c main_v114 (by decide)).trans <| (Gen.V13_of m (outs m) c main_v114 (by decide)).trans <|
    (Gen.V12_of m (outs m) c main_v114 (by decide)).trans <| (Gen.V11_of m (outs m) c main_v114 (by decide)).trans <|
    Gen.V10_of m (outs m) c main_v114 (by decide)

/-! ## Region 0's array -/

/-- The array both input windows of region 0 read is the mean array after a change of float format. -/
theorem V9_narrowed (c : Dev nD) :
    (Gen.V9 m c main_v115 : S12288x64.Idx → EReal) = (Gen.V9 m c main_v110 : S12288x64.Idx → EReal) := by
  unfold Gen.V9
  generalize Gen.V8 m c = W
  simp only [hostOps0_8]
  after_results_simp
  first | done | rfl

theorem V14_adj (c : Dev nD) : Gen.V14 m (outs m) c main_v116 = adj (Gen.V9 m c main_v110) := by
  rw [Gen.V14_of m (outs m) c main_v116 (by decide), Gen.V13_of m (outs m) c main_v116 (by decide),
    Gen.V12_of m (outs m) c main_v116 (by decide), Gen.V11_of m (outs m) c main_v116 (by decide), V10_out]
  refine (adj_final (E9 m) c).trans ?_
  exact congrArg adj (V9_narrowed m c)

/-! ## Region 1's array -/

section
variable (o : Gen.Outs (F := Ideal))

theorem V13_w1 (c : Dev nD) : (Gen.V13 m o c main_v140 : S128x512.Idx → EReal) = m ((c : Thread nD τ).loc main_arg18) := by
  have h : Gen.V12 m o c main_arg18 = m ((c : Thread nD τ).loc main_arg18) :=
    ((Gen.V13_of m o c main_arg18 (by decide)).symm.trans (Gen.V14_of m o c main_arg18 (by decide)).symm).trans (Gen.V14_main_arg18 m o c)
  rw [← h]
  unfold Gen.V13
  generalize Gen.V12 m o c = W
  simp only [hostOps1_2]
  after_results_simp
  first | done | rfl
theorem V13_w2 (c : Dev nD) : (Gen.V13 m o c main_v141 : S512x256.Idx → EReal) = m ((c : Thread nD τ).loc main_arg20) := by
  have h : Gen.V12 m o c main_arg20 = m ((c : Thread nD τ).loc main_arg20) :=
    ((Gen.V13_of m o c main_arg20 (by decide)).symm.trans (Gen.V14_of m o c main_arg20 (by decide)).symm).trans (Gen.V14_main_arg20 m o c)
  rw [← h]
  unfold Gen.V13
  generalize Gen.V12 m o c = W
  simp only [hostOps1_2]
  after_results_simp
  first | done | rfl
theorem V13_b1 (c : Dev nD) : Gen.V13 m o c main_v142 = shapeCast S1x512 (m ((c : Thread nD τ).loc main_arg19)) shapeCasts_S512_S1x512 := by
  have h : Gen.V12 m o c main_arg19 = m ((c : Thread nD τ).loc main_arg19) :=
    ((Gen.V13_of m o c main_arg19 (by decide)).symm.trans (Gen.V14_of m o c main_arg19 (by decide)).symm).trans (Gen.V14_main_arg19 m o c)
  rw [← h]
  unfold Gen.V13
  generalize Gen.V12 m o c = W
  simp only [hostOps1_2]
  after_results_simp
  first | done | rfl
theorem V13_b2 (c : Dev nD) : Gen.V13 m o c main_v143 = shapeCast S1x256 (m ((c : Thread nD τ).loc main_arg21)) shapeCasts_S256_S1x256 := by
  have h : Gen.V12 m o c main_arg21 = m ((c : Thread nD τ).loc main_arg21) :=
    ((Gen.V13_of m o c main_arg21 (by decide)).symm.trans (Gen.V14_of m o c main_arg21 (by decide)).symm).trans (Gen.V14_main_arg21 m o c)
  rw [← h]
  unfold Gen.V13
  generalize Gen.V12 m o c = W
  simp only [hostOps1_2]
  after_results_simp
  first | done | rfl
end

theorem V14_xrec (c : Dev nD) : Gen.V14 m (outs m) c main_v144
    = mlp (Gen.V13 m (outs m) c main_v139) (m ((c : Thread nD τ).loc main_arg18))
        (shapeCast S1x512 (m ((c : Thread nD τ).loc main_arg19)) shapeCasts_S512_S1x512) (m ((c : Thread nD τ).loc main_arg20))
        (shapeCast S1x256 (m ((c : Thread nD τ).loc main_arg21)) shapeCasts_S256_S1x256) := by
  have h14 : Gen.V14 m (outs m) c main_v144 = o14 m c := by
    unfold Gen.V14
    rw [Function.update_self, outs_14]
  rw [h14]
  refine (mlp_final (E13 m) c).trans ?_
  show mlp (Gen.V13 m (outs10 m) c main_v139) (Gen.V13 m (outs10 m) c main_v140) (Gen.V13 m (outs10 m) c main_v142)
      (Gen.V13 m (outs10 m) c main_v141) (Gen.V13 m (outs10 m) c main_v143) = _
  have e1 := V13_w1 m (outs10 m) c
  have e2 := V13_w2 m (outs10 m) c
  have e3 := V13_b1 m (outs10 m) c
  have e4 := V13_b2 m (outs10 m) c
  rw [e1, e2, e3, e4, ← V13_outs]

end Cert.KernelIdeal.Hand

end
-- ==== Proof.RefRun.lean ====
/- The reference program's @main as ONE list of its 273 host operations in program order — each outlined
   function's operations written at its call site over that call's buffers, a nested call's inside its caller's —
   and the run read off it: every weakly fair execution terminates with each buffer at the operations' composed
   value of the launch contents. The list is the concatenation `ops0 ++ … ++ ops17` of consecutive stretches:
   a stretch ends where a function's operations begin or end, where @main's printed windows end, after the
   operation producing `main_v132` (so `main_v128`, `main_v132` are produced within `ops0 … ops10`) and after the one
   producing `main_v163` (within `ops0 … ops14`). No stretch writes an argument. -/
import proofs.«172694_j54030688584372_2_alg».proof.Proof.Gen.ReferenceIdeal
import Idealize.ShloMosaic.Lib.StableHlo.Run
import Idealize.ShloMosaic.Lib.Pipeline.Regions

set_option maxRecDepth 1604

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Lists of operations: concatenation -/

section Lists
variable {nD : Nat} {τ : Topo} {sig : RefSig} {Val : EltTy → Type} {Λ : Labels}

/-- The contents after a concatenation: after the second list, from the contents after the first. -/
theorem after_append (a b : List (HloOp τ sig Val)) (V : Valuation τ sig Val) : after (a ++ b) V = after b (after a V) := by
  induction a generalizing V with
  | nil => rfl
  | cons op a ih => simp only [List.cons_append, after_cons, ih]

/-- A property of every operation of two lists holds of every operation of their concatenation. -/
theorem forall_append {p : HloOp τ sig Val → Prop} {a b : List (HloOp τ sig Val)} (ha : a.Forall p) (hb : b.Forall p) : (a ++ b).Forall p :=
  List.forall_iff_forall_mem.2 fun x hx => (List.mem_append.1 hx).elim (List.forall_iff_forall_mem.1 ha x) (List.forall_iff_forall_mem.1 hb x)

/-- A stretch run, then the chain of the rest, which is a list's run: the concatenation's run. -/
theorem chain_seq_cons (a : List (HloOp τ sig Val)) (qs : List (Prog (TpuEff nD τ sig Val Λ .tc) PUnit)) (r : List (HloOp τ sig Val))
    (h : Pipeline.chain qs = seq r) : Pipeline.chain (seq a :: qs) = seq (a ++ r) := by
  rw [Pipeline.chain_cons, h, seq_append]

/-- The chain of one stretch is its run. -/
theorem chain_seq_one (a : List (HloOp τ sig Val)) : Pipeline.chain [(seq a : Prog (TpuEff nD τ sig Val Λ .tc) PUnit)] = seq a := by
  rw [Pipeline.chain_cons, Pipeline.chain_nil]; exact bind_pure_unit

/-- References outside two lists' written sets keep their contents through the concatenation. -/
theorem kept_append {W₁ W₂ : List (Ref sig .tc)} {a b : List (HloOp τ sig Val)}
    (ha : ∀ r, r ∉ W₁ → ∀ V : Valuation τ sig Val, after a V (Proc.devRef .tc r) = V (Proc.devRef .tc r))
    (hb : ∀ r, r ∉ W₂ → ∀ V : Valuation τ sig Val, after b V (Proc.devRef .tc r) = V (Proc.devRef .tc r)) :
    ∀ r, r ∉ W₁ ++ W₂ → ∀ V : Valuation τ sig Val, after (a ++ b) V (Proc.devRef .tc r) = V (Proc.devRef .tc r) := fun r hr V => by
  rw [after_append, hb r (fun h => hr (List.mem_append_right _ h)), ha r (fun h => hr (List.mem_append_left _ h))]

end Lists

/-- One operation's written references lie in a list of references holding its result. -/
local macro "writes_mem" : tactic =>
  `(tactic| (simp only [nullary_writes, unary_writes, binary_writes, ternary_writes, reshape_writes, Finset.singleton_subset_iff, List.mem_toFinset]
             exact List.mem_map_of_mem (by decide)))

/-! ## The stretches -/

/-- 60 operations of @main, in order (window 0). -/
abbrev ops0 : List (HloOp τ sig (Elt F)) :=
  [ StableHlo.unary main_arg1 main_v0 ((extractStridedSlice S1x393216 ![0, 0] · slices_S2x393216_S1x393216_0_0) : (⟨S2x393216, .i32⟩ : BufTy).Contents (Elt F) → (⟨S1x393216, .i32⟩ : BufTy).Contents (Elt F)),
    StableHlo.reshape main_v0 main_v1 rfl shapeCasts_S1x393216_S393216,
    StableHlo.unary main_arg1 main_v2 ((extractStridedSlice S1x393216 ![1, 0] · slices_S2x393216_S1x393216_1_0) : (⟨S2x393216, .i32⟩ : BufTy).Contents (Elt F) → (⟨S1x393216, .i32⟩ : BufTy).Contents (Elt F)),
    StableHlo.reshape main_v2 main_v3 rfl shapeCasts_S1x393216_S393216,
    StableHlo.nullary main_cst (constant S_ .f32 0x3F800000#32),
    StableHlo.unary main_cst main_v4 (broadcastInDim S393216 ![] bcast_S_S393216 : (⟨S_, .f32⟩ : BufTy).Contents (Elt F) → (⟨S393216, .f32⟩ : BufTy).Contents (Elt F)),
    StableHlo.nullary main_cst_0 (constant S_ .f32 0x00000000#32),
    StableHlo.unary main_cst_0 main_v5 (broadcastInDim S12288 ![] bcast_S_S12288 : (⟨S_, .f32⟩ : BufTy).Contents (Elt F) → (⟨S12288, .f32⟩ : BufTy).Contents (Elt F)),
    StableHlo.unary main_v3 main_v6 (broadcastInDim S393216x1 ![0] bcast_S393216_S393216x1_0 : (⟨S393216, .i32⟩ : BufTy).Contents (Elt F) → (⟨S393216x1, .i32⟩ : BufTy).Contents (Elt F)),
    StableHlo.ternary main_v5 main_v6 main_v4 main_v7 ((fun x i u => Host.scatterAdd scatter_S12288_S393216x1_S393216_n_0_0_1 x i u) : (⟨S12288, .f32⟩ : BufTy).Contents (Elt F) → (⟨S393216x1, .i32⟩ : BufTy).Contents (Elt F) → (⟨S393216, .f32⟩ : BufTy).Contents (Elt F) → (⟨S12288, .f32⟩ : BufTy).Contents (Elt F)),
    StableHlo.nullary main_cst_1 (constant S_ .f32 0x3F800000#32),
    StableHlo.unary main_cst_1 main_v8 (broadcastInDim S12288 ![] bcast_S_S12288 : (⟨S_, .f32⟩ : BufTy).Contents (Elt F) → (⟨S12288, .f32⟩ : BufTy).Contents (Elt F)),
    StableHlo.binary main_v7 main_v8 main_v9 (addf : (⟨S12288, .f32⟩ : BufTy).Contents (Elt F) → (⟨S12288, .f32⟩ : BufTy).Contents (Elt F) → (⟨S12288, .f32⟩ : BufTy).Contents (Elt F)),
    StableHlo.unary main_v9 main_v10 (Host.rsqrt : (⟨S12288, .f32⟩ : BufTy).Contents (Elt F) → (⟨S12288, .f32⟩ : BufTy).Contents (Elt F)),
    StableHlo.binary main_arg0 main_arg2 main_v11 ((fun l r => Host.dotGeneral dot_S12288x256_S256x256_S12288x256_1_0_0_1_n_n none l r) : (⟨S12288x256, .f32⟩ : BufTy).Contents (Elt F) → (⟨S256x256, .f32⟩ : BufTy).Contents (Elt F) → (⟨S12288x256, .f32⟩ : BufTy).Contents (Elt F)),
    StableHlo.nullary main_c (constantI S_ 32 0#32),
    StableHlo.unary main_c main_v12 (broadcastInDim S393216 ![] bcast_S_S393216 : (⟨S_, .i32⟩ : BufTy).Contents (Elt F) → (⟨S393216, .i32⟩ : BufTy).Contents (Elt F)),
    StableHlo.binary main_v1 main_v12 main_v13 (cmpi .slt : (⟨S393216, .i32⟩ : BufTy).Contents (Elt F) → (⟨S393216, .i32⟩ : BufTy).Contents (Elt F) → (⟨S393216, .i1⟩ : BufTy).Contents (Elt F)),
    StableHlo.nullary main_c_2 (constantI S_ 32 12288#32),
    StableHlo.unary main_c_2 main_v14 (broadcastInDim S393216 ![] bcast_S_S393216 : (⟨S_, .i32⟩ : BufTy).Contents (Elt F) → (⟨S393216, .i32⟩ : BufTy).Contents (Elt F)),
    StableHlo.binary main_v1 main_v14 main_v15 (addi : (⟨S393216, .i32⟩ : BufTy).Contents (Elt F) → (⟨S393216, .i32⟩ : BufTy).Contents (Elt F) → (⟨S393216, .i32⟩ : BufTy).Contents (Elt F)),
    StableHlo.ternary main_v13 main_v15 main_v1 main_v16 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v16 main_v17 (broadcastInDim S393216x1 ![0] bcast_S393216_S393216x1_0 : (⟨S393216, .i32⟩ : BufTy).Contents (Elt F) → (⟨S393216x1, .i32⟩ : BufTy).Contents (Elt F)),
    StableHlo.binary main_v10 main_v17 main_v18 ((fun x i => Host.gather gather_S12288_S393216x1_S393216_n_0_n_n_0_1_1 x i) : (⟨S12288, .f32⟩ : BufTy).Contents (Elt F) → (⟨S393216x1, .i32⟩ : BufTy).Contents (Elt F) → (⟨S393216, .f32⟩ : BufTy).Contents (Elt F)),
    StableHlo.nullary main_c_3 (constantI S_ 32 0#32),
    StableHlo.unary main_c_3 main_v19 (broadcastInDim S393216 ![] bcast_S_S393216 : (⟨S_, .i32⟩ : BufTy).Contents (Elt F) → (⟨S393216, .i32⟩ : BufTy).Contents (Elt F)),
    StableHlo.binary main_v3 main_v19 main_v20 (cmpi .slt : (⟨S393216, .i32⟩ : BufTy).Contents (Elt F) → (⟨S393216, .i32⟩ : BufTy).Contents (Elt F) → (⟨S393216, .i1⟩ : BufTy).Contents (Elt F)),
    StableHlo.nullary main_c_4 (constantI S_ 32 12288#32),
    StableHlo.unary main_c_4 main_v21 (broadcastInDim S393216 ![] bcast_S_S393216 : (⟨S_, .i32⟩ : BufTy).Contents (Elt F) → (⟨S393216, .i32⟩ : BufTy).Contents (Elt F)),
    StableHlo.binary main_v3 main_v21 main_v22 (addi : (⟨S393216, .i32⟩ : BufTy).Contents (Elt F) → (⟨S393216, .i32⟩ : BufTy).Contents (Elt F) → (⟨S393216, .i32⟩ : BufTy).Contents (Elt F)),
    StableHlo.ternary main_v20 main_v22 main_v3 main_v23 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v23 main_v24 (broadcastInDim S393216x1 ![0] bcast_S393216_S393216x1_0 : (⟨S393216, .i32⟩ : BufTy).Contents (Elt F) → (⟨S393216x1, .i32⟩ : BufTy).Contents (Elt F)),
    StableHlo.binary main_v10 main_v24 main_v25 ((fun x i => Host.gather gather_S12288_S393216x1_S393216_n_0_n_n_0_1_1 x i) : (⟨S12288, .f32⟩ : BufTy).Contents (Elt F) → (⟨S393216x1, .i32⟩ : BufTy).Contents (Elt F) → (⟨S393216, .f32⟩ : BufTy).Contents (Elt F)),
    StableHlo.binary main_v18 main_v25 main_v26 (mulf : (⟨S393216, .f32⟩ : BufTy).Contents (Elt F) → (⟨S393216, .f32⟩ : BufTy).Contents (Elt F) → (⟨S393216, .f32⟩ : BufTy).Contents (Elt F)),
    StableHlo.unary main_v26 main_v27 (broadcastInDim S393216x1 ![0] bcast_S393216_S393216x1_0 : (⟨S393216, .f32⟩ : BufTy).Contents (Elt F) → (⟨S393216x1, .f32⟩ : BufTy).Contents (Elt F)),
    StableHlo.nullary main_c_5 (constantI S_ 32 0#32),
    StableHlo.unary main_c_5 main_v28 (broadcastInDim S393216 ![] bcast_S_S393216 : (⟨S_, .i32⟩ : BufTy).Contents (Elt F) → (⟨S393216, .i32⟩ : BufTy).Contents (Elt F)),
    StableHlo.binary main_v1 main_v28 main_v29 (cmpi .slt : (⟨S393216, .i32⟩ : BufTy).Contents (Elt F) → (⟨S393216, .i32⟩ : BufTy).Contents (Elt F) → (⟨S393216, .i1⟩ : BufTy).Contents (Elt F)),
    StableHlo.nullary main_c_6 (constantI S_ 32 12288#32),
    StableHlo.unary main_c_6 main_v30 (broadcastInDim S393216 ![] bcast_S_S393216 : (⟨S_, .i32⟩ : BufTy).Contents (Elt F) → (⟨S393216, .i32⟩ : BufTy).Contents (Elt F)),
    StableHlo.binary main_v1 main_v30 main_v31 (addi : (⟨S393216, .i32⟩ : BufTy).Contents (Elt F) → (⟨S393216, .i32⟩ : BufTy).Contents (Elt F) → (⟨S393216, .i32⟩ : BufTy).Contents (Elt F)),
    StableHlo.ternary main_v29 main_v31 main_v1 main_v32 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v32 main_v33 (broadcastInDim S393216x1 ![0] bcast_S393216_S393216x1_0 : (⟨S393216, .i32⟩ : BufTy).Contents (Elt F) → (⟨S393216x1, .i32⟩ : BufTy).Contents (Elt F)),
    StableHlo.binary main_v11 main_v33 main_v34 ((fun x i => Host.gather gather_S12288x256_S393216x1_S393216x256_1_0_n_n_0_1_1256 x i) : (⟨S12288x256, .f32⟩ : BufTy).Contents (Elt F) → (⟨S393216x1, .i32⟩ : BufTy).Contents (Elt F) → (⟨S393216x256, .f32⟩ : BufTy).Contents (Elt F)),
    StableHlo.unary main_v27 main_v35 (broadcastInDim S393216x256 ![0, 1] bcast_S393216x1_S393216x256_0_1 : (⟨S393216x1, .f32⟩ : BufTy).Contents (Elt F) → (⟨S393216x256, .f32⟩ : BufTy).Contents (Elt F)),
    StableHlo.binary main_v34 main_v35 main_v36 (mulf : (⟨S393216x256, .f32⟩ : BufTy).Contents (Elt F) → (⟨S393216x256, .f32⟩ : BufTy).Contents (Elt F) → (⟨S393216x256, .f32⟩ : BufTy).Contents (Elt F)),
    StableHlo.nullary main_cst_7 (constant S_ .f32 0x00000000#32),
    StableHlo.unary main_cst_7 main_v37 (broadcastInDim S12288x256 ![] bcast_S_S12288x256 : (⟨S_, .f32⟩ : BufTy).Contents (Elt F) → (⟨S12288x256, .f32⟩ : BufTy).Contents (Elt F)),
    StableHlo.unary main_v3 main_v38 (broadcastInDim S393216x1 ![0] bcast_S393216_S393216x1_0 : (⟨S393216, .i32⟩ : BufTy).Contents (Elt F) → (⟨S393216x1, .i32⟩ : BufTy).Contents (Elt F)),
    StableHlo.ternary main_v37 main_v38 main_v36 main_v39 ((fun x i u => Host.scatterAdd scatter_S12288x256_S393216x1_S393216x256_1_0_0_1 x i u) : (⟨S12288x256, .f32⟩ : BufTy).Contents (Elt F) → (⟨S393216x1, .i32⟩ : BufTy).Contents (Elt F) → (⟨S393216x256, .f32⟩ : BufTy).Contents (Elt F) → (⟨S12288x256, .f32⟩ : BufTy).Contents (Elt F)),
    StableHlo.binary main_v10 main_v10 main_v40 (mulf : (⟨S12288, .f32⟩ : BufTy).Contents (Elt F) → (⟨S12288, .f32⟩ : BufTy).Contents (Elt F) → (⟨S12288, .f32⟩ : BufTy).Contents (Elt F)),
    StableHlo.unary main_v40 main_v41 (broadcastInDim S12288x1 ![0] bcast_S12288_S12288x1_0 : (⟨S12288, .f32⟩ : BufTy).Contents (Elt F) → (⟨S12288x1, .f32⟩ : BufTy).Contents (Elt F)),
    StableHlo.unary main_v41 main_v42 (broadcastInDim S12288x256 ![0, 1] bcast_S12288x1_S12288x256_0_1 : (⟨S12288x1, .f32⟩ : BufTy).Contents (Elt F) → (⟨S12288x256, .f32⟩ : BufTy).Contents (Elt F)),
    StableHlo.binary main_v11 main_v42 main_v43 (mulf : (⟨S12288x256, .f32⟩ : BufTy).Contents (Elt F) → (⟨S12288x256, .f32⟩ : BufTy).Contents (Elt F) → (⟨S12288x256, .f32⟩ : BufTy).Contents (Elt F)),
    StableHlo.binary main_v39 main_v43 main_v44 (addf : (⟨S12288x256, .f32⟩ : BufTy).Contents (Elt F) → (⟨S12288x256, .f32⟩ : BufTy).Contents (Elt F) → (⟨S12288x256, .f32⟩ : BufTy).Contents (Elt F)),
    StableHlo.unary main_arg3 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S12288x256 ![0, 1] bcast_S1x256_S12288x256_0_1 : (⟨S1x256, .f32⟩ : BufTy).Contents (Elt F) → (⟨S12288x256, .f32⟩ : BufTy).Contents (Elt F)),
    StableHlo.binary main_v44 main_v46 main_v47 (addf : (⟨S12288x256, .f32⟩ : BufTy).Contents (Elt F) → (⟨S12288x256, .f32⟩ : BufTy).Contents (Elt F) → (⟨S12288x256, .f32⟩ : BufTy).Contents (Elt F)),
    StableHlo.nullary main_cst_8 (constant S_ .f32 0x00000000#32),
    StableHlo.binary main_v47 main_cst_8 main_v48 ((fun x v => Host.reduceAdd x v reducesTo_S12288x256_S256_d0 h_S_) : (⟨S12288x256, .f32⟩ : BufTy).Contents (Elt F) → (⟨S_, .f32⟩ : BufTy).Contents (Elt F) → (⟨S256, .f32⟩ : BufTy).Contents (Elt F)) ]
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub ..⟩
theorem ops0_fresh : (ops0 : List (HloOp τ sig (Elt F))).Forall fun op => op.fresh = ∅ := by
  simp only [List.Forall]; repeat' constructor
/-- The references `ops0` writes. -/
abbrev W0 : List (Ref sig .tc) := [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44, main_v45, main_v46, main_v47, main_cst_8, main_v48]
theorem ops0_writes : (ops0 : List (HloOp τ sig (Elt F))).Forall fun op => op.writes ⊆ (W0.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem ops0_kept (r : Ref sig .tc) (h : r ∉ W0) (V : Valuation τ sig (Elt F)) : after ops0 V (Proc.devRef .tc r) = V (Proc.devRef .tc r) :=
  after_of_writes_sub ops0 V ops0_writes h

/-- 4 operations of @main, in order (window 1). -/
abbrev ops1 : List (HloOp τ sig (Elt F)) :=
  [ StableHlo.nullary main_cst_9 (constant S_ .f32 0x46400000#32),
    StableHlo.unary main_cst_9 main_v49 (broadcastInDim S256 ![] bcast_S_S256 : (⟨S_, .f32⟩ : BufTy).Contents (Elt F) → (⟨S256, .f32⟩ : BufTy).Contents (Elt F)),
    StableHlo.binary main_v48 main_v49 main_v50 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32) ]
theorem ops1_sub : (ops1 : List (HloOp τ sig (Elt F))).Forall fun op => op.bufs ⊆ tcRefs τ sig :=
  ⟨nullary_bufs_sub .., unary_bufs_sub .., binary_bufs_sub .., nullary_bufs_sub ..⟩
theorem ops1_fresh : (ops1 : List (HloOp τ sig (Elt F))).Forall fun op => op.fresh = ∅ := by
  simp only [List.Forall]; repeat' constructor
/-- The references `ops1` writes. -/
abbrev W1 : List (Ref sig .tc) := [main_cst_9, main_v49, main_v50, main_c_10]
theorem ops1_writes : (ops1 : List (HloOp τ sig (Elt F))).Forall fun op => op.writes ⊆ (W1.map (Proc.devRef (τ := τ) .tc)).toFinset := by
  simp only [List.Forall]; exact ⟨by writes_mem, by writes_mem, by writes_mem, by writes_mem⟩
theorem ops1_kept (r : Ref sig .tc) (h : r ∉ W1) (V : Valuation τ sig (Elt F)) : after ops1 V (Proc.devRef .tc r) = V (Proc.devRef .tc r) :=
  after_of_writes_sub ops1 V ops1_writes h

/-- 22 operations of @_var at its call (record `main_call0`), a nested call's included, in order (window 1). -/
abbrev ops2 : List (HloOp τ sig (Elt F)) :=
  [ StableHlo.TRef.nullary (.of main_call0_cst : StableHlo.TRef sig ⟨S_, .f32⟩) (constant S_ .f32 0x00000000#32),
    StableHlo.TRef.binary (.of main_v47 : StableHlo.TRef sig ⟨S12288x256, .f32⟩) (.of main_call0_cst : StableHlo.TRef sig ⟨S_, .f32⟩) (.of main_call0_v0 : StableHlo.TRef sig ⟨S256, .f32⟩) (fun x v => Host.reduceAdd x v reducesTo_S12288x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x46400000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S12288x256, .f32⟩) (broadcastInDim S12288x256 ![0, 1] bcast_S1x256_S12288x256_0_1),
    StableHlo.TRef.binary (.of main_v47 : StableHlo.TRef sig ⟨S12288x256, .f32⟩) (.of main_call0_v4 : StableHlo.TRef sig ⟨S12288x256, .f32⟩) (.of main_call0_v5 : StableHlo.TRef sig ⟨S12288x256, .f32⟩) subf,
    StableHlo.TRef.binary (.of main_call0_v5 : StableHlo.TRef sig ⟨S12288x256, .f32⟩) (.of main_call0_v5 : StableHlo.TRef sig ⟨S12288x256, .f32⟩) (.of main_call0_v6 : StableHlo.TRef sig ⟨S12288x256, .f32⟩) mulf,
    StableHlo.TRef.unary (.of main_c_10 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46400000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S12288x256, .f32⟩) (.of main_call0_cst_2 : StableHlo.TRef sig ⟨S_, .f32⟩) (.of main_call0_v9 : StableHlo.TRef sig ⟨S256, .f32⟩) (fun x v => Host.reduceAdd x v reducesTo_S12288x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v51 : StableHlo.TRef sig ⟨S256, .f32⟩) (fun p a b => select (broadcastInDim S256 ![] bcast_S_S256 p) a b) ]
theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops2_fresh : (ops2 : List (HloOp τ sig (Elt F))).Forall fun op => op.fresh = ∅ := by
  simp only [List.Forall]; repeat' constructor
/-- The references `ops2` writes. -/
abbrev W2 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51]
theorem ops2_writes : (ops2 : List (HloOp τ sig (Elt F))).Forall fun op => op.writes ⊆ (W2.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem ops2_kept (r : Ref sig .tc) (h : r ∉ W2) (V : Valuation τ sig (Elt F)) : after ops2 V (Proc.devRef .tc r) = V (Proc.devRef .tc r) :=
  after_of_writes_sub ops2 V ops2_writes h

/-- 16 operations of @main, in order (window 1). -/
abbrev ops3 : List (HloOp τ sig (Elt F)) :=
  [ StableHlo.unary main_v50 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S12288x256 ![0, 1] bcast_S1x256_S12288x256_0_1 : (⟨S1x256, .f32⟩ : BufTy).Contents (Elt F) → (⟨S12288x256, .f32⟩ : BufTy).Contents (Elt F)),
    StableHlo.binary main_v47 main_v53 main_v54 (subf : (⟨S12288x256, .f32⟩ : BufTy).Contents (Elt F) → (⟨S12288x256, .f32⟩ : BufTy).Contents (Elt F) → (⟨S12288x256, .f32⟩ : BufTy).Contents (Elt F)),
    StableHlo.nullary main_cst_11 (constant S_ .f32 0x3727C5AC#32),
    StableHlo.unary main_cst_11 main_v55 (broadcastInDim S256 ![] bcast_S_S256 : (⟨S_, .f32⟩ : BufTy).Contents (Elt F) → (⟨S256, .f32⟩ : BufTy).Contents (Elt F)),
    StableHlo.binary main_v51 main_v55 main_v56 (addf : (⟨S256, .f32⟩ : BufTy).Contents (Elt F) → (⟨S256, .f32⟩ : BufTy).Contents (Elt F) → (⟨S256, .f32⟩ : BufTy).Contents (Elt F)),
    StableHlo.unary main_v56 main_v57 (Host.rsqrt : (⟨S256, .f32⟩ : BufTy).Contents (Elt F) → (⟨S256, .f32⟩ : BufTy).Contents (Elt F)),
    StableHlo.unary main_v57 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S12288x256 ![0, 1] bcast_S1x256_S12288x256_0_1 : (⟨S1x256, .f32⟩ : BufTy).Contents (Elt F) → (⟨S12288x256, .f32⟩ : BufTy).Contents (Elt F)),
    StableHlo.binary main_v54 main_v59 main_v60 (mulf : (⟨S12288x256, .f32⟩ : BufTy).Contents (Elt F) → (⟨S12288x256, .f32⟩ : BufTy).Contents (Elt F) → (⟨S12288x256, .f32⟩ : BufTy).Contents (Elt F)),
    StableHlo.unary main_arg4 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S12288x256 ![0, 1] bcast_S1x256_S12288x256_0_1 : (⟨S1x256, .f32⟩ : BufTy).Contents (Elt F) → (⟨S12288x256, .f32⟩ : BufTy).Contents (Elt F)),
    StableHlo.binary main_v60 main_v62 main_v63 (mulf : (⟨S12288x256, .f32⟩ : BufTy).Contents (Elt F) → (⟨S12288x256, .f32⟩ : BufTy).Contents (Elt F) → (⟨S12288x256, .f32⟩ : BufTy).Contents (Elt F)),
    StableHlo.unary main_arg5 main_v64 (broadcastInDim S1x256 ![1] bcast_S256_S1x256_1 : (⟨S256, .f32⟩ : BufTy).Contents (Elt F) → (⟨S1x256, .f32⟩ : BufTy).Contents (Elt F)),
    StableHlo.unary main_v64 main_v65 (broadcastInDim S12288x256 ![0, 1] bcast_S1x256_S12288x256_0_1 : (⟨S1x256, .f32⟩ : BufTy).Contents (Elt F) → (⟨S12288x256, .f32⟩ : BufTy).Contents (Elt F)),
    StableHlo.binary main_v63 main_v65 main_v66 (addf : (⟨S12288x256, .f32⟩ : BufTy).Contents (Elt F) → (⟨S12288x256, .f32⟩ : BufTy).Contents (Elt F) → (⟨S12288x256, .f32⟩ : BufTy).Contents (Elt F)) ]
theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops3_fresh : (ops3 : List (HloOp τ sig (Elt F))).Forall fun op => op.fresh = ∅ := by
  simp only [List.Forall]; repeat' constructor
/-- The references `ops3` writes. -/
abbrev W3 : List (Ref sig .tc) := [main_v52, main_v53, main_v54, main_cst_11, main_v55, main_v56, main_v57, main_v58, main_v59, main_v60, main_v61, main_v62, main_v63, main_v64, main_v65, main_v66]
theorem ops3_writes : (ops3 : List (HloOp τ sig (Elt F))).Forall fun op => op.writes ⊆ (W3.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem⟩
theorem ops3_kept (r : Ref sig .tc) (h : r ∉ W3) (V : Valuation τ sig (Elt F)) : after ops3 V (Proc.devRef .tc r) = V (Proc.devRef .tc r) :=
  after_of_writes_sub ops3 V ops3_writes h

/-- 3 operations of @_relu at its call (record `main_call1`), a nested call's included, in order (window 1). -/
abbrev ops4 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S12288x256, .f32⟩) (broadcastInDim S12288x256 ![] bcast_S_S12288x256),
    StableHlo.TRef.binary (.of main_v66 : StableHlo.TRef sig ⟨S12288x256, .f32⟩) (.of main_call1_v0 : StableHlo.TRef sig ⟨S12288x256, .f32⟩) (.of main_v67 : StableHlo.TRef sig ⟨S12288x256, .f32⟩) maximumf ]
theorem ops4_sub : (ops4 : List (HloOp τ sig (Elt F))).Forall fun op => op.bufs ⊆ tcRefs τ sig :=
  ⟨nullary_bufs_sub .., unary_bufs_sub .., binary_bufs_sub ..⟩
theorem ops4_fresh : (ops4 : List (HloOp τ sig (Elt F))).Forall fun op => op.fresh = ∅ := by
  simp only [List.Forall]; repeat' constructor
/-- The references `ops4` writes. -/
abbrev W4 : List (Ref sig .tc) := [main_call1_cst, main_call1_v0, main_v67]
theorem ops4_writes : (ops4 : List (HloOp τ sig (Elt F))).Forall fun op => op.writes ⊆ (W4.map (Proc.devRef (τ := τ) .tc)).toFinset := by
  simp only [List.Forall]; exact ⟨by writes_mem, by writes_mem, by writes_mem⟩
theorem ops4_kept (r : Ref sig .tc) (h : r ∉ W4) (V : Valuation τ sig (Elt F)) : after ops4 V (Proc.devRef .tc r) = V (Proc.devRef .tc r) :=
  after_of_writes_sub ops4 V ops4_writes h

/-- 38 operations of @main, in order (window 1). -/
abbrev ops5 : List (HloOp τ sig (Elt F)) :=
  [ StableHlo.binary main_v67 main_arg6 main_v68 ((fun l r => Host.dotGeneral dot_S12288x256_S256x256_S12288x256_1_0_0_1_n_n none l r) : (⟨S12288x256, .f32⟩ : BufTy).Contents (Elt F) → (⟨S256x256, .f32⟩ : BufTy).Contents (Elt F) → (⟨S12288x256, .f32⟩ : BufTy).Contents (Elt F)),
    StableHlo.nullary main_c_12 (constantI S_ 32 0#32),
    StableHlo.unary main_c_12 main_v69 (broadcastInDim S393216 ![] bcast_S_S393216 : (⟨S_, .i32⟩ : BufTy).Contents (Elt F) → (⟨S393216, .i32⟩ : BufTy).Contents (Elt F)),
    StableHlo.binary main_v1 main_v69 main_v70 (cmpi .slt : (⟨S393216, .i32⟩ : BufTy).Contents (Elt F) → (⟨S393216, .i32⟩ : BufTy).Contents (Elt F) → (⟨S393216, .i1⟩ : BufTy).Contents (Elt F)),
    StableHlo.nullary main_c_13 (constantI S_ 32 12288#32),
    StableHlo.unary main_c_13 main_v71 (broadcastInDim S393216 ![] bcast_S_S393216 : (⟨S_, .i32⟩ : BufTy).Contents (Elt F) → (⟨S393216, .i32⟩ : BufTy).Contents (Elt F)),
    StableHlo.binary main_v1 main_v71 main_v72 (addi : (⟨S393216, .i32⟩ : BufTy).Contents (Elt F) → (⟨S393216, .i32⟩ : BufTy).Contents (Elt F) → (⟨S393216, .i32⟩ : BufTy).Contents (Elt F)),
    StableHlo.ternary main_v70 main_v72 main_v1 main_v73 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v73 main_v74 (broadcastInDim S393216x1 ![0] bcast_S393216_S393216x1_0 : (⟨S393216, .i32⟩ : BufTy).Contents (Elt F) → (⟨S393216x1, .i32⟩ : BufTy).Contents (Elt F)),
    StableHlo.binary main_v10 main_v74 main_v75 ((fun x i => Host.gather gather_S12288_S393216x1_S393216_n_0_n_n_0_1_1 x i) : (⟨S12288, .f32⟩ : BufTy).Contents (Elt F) → (⟨S393216x1, .i32⟩ : BufTy).Contents (Elt F) → (⟨S393216, .f32⟩ : BufTy).Contents (Elt F)),
    StableHlo.nullary main_c_14 (constantI S_ 32 0#32),
    StableHlo.unary main_c_14 main_v76 (broadcastInDim S393216 ![] bcast_S_S393216 : (⟨S_, .i32⟩ : BufTy).Contents (Elt F) → (⟨S393216, .i32⟩ : BufTy).Contents (Elt F)),
    StableHlo.binary main_v3 main_v76 main_v77 (cmpi .slt : (⟨S393216, .i32⟩ : BufTy).Contents (Elt F) → (⟨S393216, .i32⟩ : BufTy).Contents (Elt F) → (⟨S393216, .i1⟩ : BufTy).Contents (Elt F)),
    StableHlo.nullary main_c_15 (constantI S_ 32 12288#32),
    StableHlo.unary main_c_15 main_v78 (broadcastInDim S393216 ![] bcast_S_S393216 : (⟨S_, .i32⟩ : BufTy).Contents (Elt F) → (⟨S393216, .i32⟩ : BufTy).Contents (Elt F)),
    StableHlo.binary main_v3 main_v78 main_v79 (addi : (⟨S393216, .i32⟩ : BufTy).Contents (Elt F) → (⟨S393216, .i32⟩ : BufTy).Contents (Elt F) → (⟨S393216, .i32⟩ : BufTy).Contents (Elt F)),
    StableHlo.ternary main_v77 main_v79 main_v3 main_v80 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v80 main_v81 (broadcastInDim S393216x1 ![0] bcast_S393216_S393216x1_0 : (⟨S393216, .i32⟩ : BufTy).Contents (Elt F) → (⟨S393216x1, .i32⟩ : BufTy).Contents (Elt F)),
    StableHlo.binary main_v10 main_v81 main_v82 ((fun x i => Host.gather gather_S12288_S393216x1_S393216_n_0_n_n_0_1_1 x i) : (⟨S12288, .f32⟩ : BufTy).Contents (Elt F) → (⟨S393216x1, .i32⟩ : BufTy).Contents (Elt F) → (⟨S393216, .f32⟩ : BufTy).Contents (Elt F)),
    StableHlo.binary main_v75 main_v82 main_v83 (mulf : (⟨S393216, .f32⟩ : BufTy).Contents (Elt F) → (⟨S393216, .f32⟩ : BufTy).Contents (Elt F) → (⟨S393216, .f32⟩ : BufTy).Contents (Elt F)),
    StableHlo.unary main_v83 main_v84 (broadcastInDim S393216x1 ![0] bcast_S393216_S393216x1_0 : (⟨S393216, .f32⟩ : BufTy).Contents (Elt F) → (⟨S393216x1, .f32⟩ : BufTy).Contents (Elt F)),
    StableHlo.nullary main_c_16 (constantI S_ 32 0#32),
    StableHlo.unary main_c_16 main_v85 (broadcastInDim S393216 ![] bcast_S_S393216 : (⟨S_, .i32⟩ : BufTy).Contents (Elt F) → (⟨S393216, .i32⟩ : BufTy).Contents (Elt F)),
    StableHlo.binary main_v1 main_v85 main_v86 (cmpi .slt : (⟨S393216, .i32⟩ : BufTy).Contents (Elt F) → (⟨S393216, .i32⟩ : BufTy).Contents (Elt F) → (⟨S393216, .i1⟩ : BufTy).Contents (Elt F)),
    StableHlo.nullary main_c_17 (constantI S_ 32 12288#32),
    StableHlo.unary main_c_17 main_v87 (broadcastInDim S393216 ![] bcast_S_S393216 : (⟨S_, .i32⟩ : BufTy).Contents (Elt F) → (⟨S393216, .i32⟩ : BufTy).Contents (Elt F)),
    StableHlo.binary main_v1 main_v87 main_v88 (addi : (⟨S393216, .i32⟩ : BufTy).Contents (Elt F) → (⟨S393216, .i32⟩ : BufTy).Contents (Elt F) → (⟨S393216, .i32⟩ : BufTy).Contents (Elt F)),
    StableHlo.ternary main_v86 main_v88 main_v1 main_v89 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v89 main_v90 (broadcastInDim S393216x1 ![0] bcast_S393216_S393216x1_0 : (⟨S393216, .i32⟩ : BufTy).Contents (Elt F) → (⟨S393216x1, .i32⟩ : BufTy).Contents (Elt F)),
    StableHlo.binary main_v68 main_v90 main_v91 ((fun x i => Host.gather gather_S12288x256_S393216x1_S393216x256_1_0_n_n_0_1_1256 x i) : (⟨S12288x256, .f32⟩ : BufTy).Contents (Elt F) → (⟨S393216x1, .i32⟩ : BufTy).Contents (Elt F) → (⟨S393216x256, .f32⟩ : BufTy).Contents (Elt F)),
    StableHlo.unary main_v84 main_v92 (broadcastInDim S393216x256 ![0, 1] bcast_S393216x1_S393216x256_0_1 : (⟨S393216x1, .f32⟩ : BufTy).Contents (Elt F) → (⟨S393216x256, .f32⟩ : BufTy).Contents (Elt F)),
    StableHlo.binary main_v91 main_v92 main_v93 (mulf : (⟨S393216x256, .f32⟩ : BufTy).Contents (Elt F) → (⟨S393216x256, .f32⟩ : BufTy).Contents (Elt F) → (⟨S393216x256, .f32⟩ : BufTy).Contents (Elt F)),
    StableHlo.nullary main_cst_18 (constant S_ .f32 0x00000000#32),
    StableHlo.unary main_cst_18 main_v94 (broadcastInDim S12288x256 ![] bcast_S_S12288x256 : (⟨S_, .f32⟩ : BufTy).Contents (Elt F) → (⟨S12288x256, .f32⟩ : BufTy).Contents (Elt F)),
    StableHlo.unary main_v3 main_v95 (broadcastInDim S393216x1 ![0] bcast_S393216_S393216x1_0 : (⟨S393216, .i32⟩ : BufTy).Contents (Elt F) → (⟨S393216x1, .i32⟩ : BufTy).Contents (Elt F)),
    StableHlo.ternary main_v94 main_v95 main_v93 main_v96 ((fun x i u => Host.scatterAdd scatter_S12288x256_S393216x1_S393216x256_1_0_0_1 x i u) : (⟨S12288x256, .f32⟩ : BufTy).Contents (Elt F) → (⟨S393216x1, .i32⟩ : BufTy).Contents (Elt F) → (⟨S393216x256, .f32⟩ : BufTy).Contents (Elt F) → (⟨S12288x256, .f32⟩ : BufTy).Contents (Elt F)),
    StableHlo.binary main_v10 main_v10 main_v97 (mulf : (⟨S12288, .f32⟩ : BufTy).Contents (Elt F) → (⟨S12288, .f32⟩ : BufTy).Contents (Elt F) → (⟨S12288, .f32⟩ : BufTy).Contents (Elt F)),
    StableHlo.unary main_v97 main_v98 (broadcastInDim S12288x1 ![0] bcast_S12288_S12288x1_0 : (⟨S12288, .f32⟩ : BufTy).Contents (Elt F) → (⟨S12288x1, .f32⟩ : BufTy).Contents (Elt F)) ]
theorem ops5_sub : (ops5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub ..⟩
theorem ops5_fresh : (ops5 : List (HloOp τ sig (Elt F))).Forall fun op => op.fresh = ∅ := by
  simp only [List.Forall]; repeat' constructor
/-- The references `ops5` writes. -/
abbrev W5 : List (Ref sig .tc) := [main_v68, main_c_12, main_v69, main_v70, main_c_13, main_v71, main_v72, main_v73, main_v74, main_v75, main_c_14, main_v76, main_v77, main_c_15, main_v78, main_v79, main_v80, main_v81, main_v82, main_v83, main_v84, main_c_16, main_v85, main_v86, main_c_17, main_v87, main_v88, main_v89, main_v90, main_v91, main_v92, main_v93, main_cst_18, main_v94, main_v95, main_v96, main_v97, main_v98]
theorem ops5_writes : (ops5 : List (HloOp τ sig (Elt F))).Forall fun op => op.writes ⊆ (W5.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem ops5_kept (r : Ref sig .tc) (h : r ∉ W5) (V : Valuation τ sig (Elt F)) : after ops5 V (Proc.devRef .tc r) = V (Proc.devRef .tc r) :=
  after_of_writes_sub ops5 V ops5_writes h

/-- 12 operations of @main, in order (window 2). -/
abbrev ops6 : List (HloOp τ sig (Elt F)) :=
  [ StableHlo.unary main_v98 main_v99 (broadcastInDim S12288x256 ![0, 1] bcast_S12288x1_S12288x256_0_1 : (⟨S12288x1, .f32⟩ : BufTy).Contents (Elt F) → (⟨S12288x256, .f32⟩ : BufTy).Contents (Elt F)),
    StableHlo.binary main_v68 main_v99 main_v100 (mulf : (⟨S12288x256, .f32⟩ : BufTy).Contents (Elt F) → (⟨S12288x256, .f32⟩ : BufTy).Contents (Elt F) → (⟨S12288x256, .f32⟩ : BufTy).Contents (Elt F)),
    StableHlo.binary main_v96 main_v100 main_v101 (addf : (⟨S12288x256, .f32⟩ : BufTy).Contents (Elt F) → (⟨S12288x256, .f32⟩ : BufTy).Contents (Elt F) → (⟨S12288x256, .f32⟩ : BufTy).Contents (Elt F)),
    StableHlo.unary main_arg7 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S12288x256 ![0, 1] bcast_S1x256_S12288x256_0_1 : (⟨S1x256, .f32⟩ : BufTy).Contents (Elt F) → (⟨S12288x256, .f32⟩ : BufTy).Contents (Elt F)),
    StableHlo.binary main_v101 main_v103 main_v104 (addf : (⟨S12288x256, .f32⟩ : BufTy).Contents (Elt F) → (⟨S12288x256, .f32⟩ : BufTy).Contents (Elt F) → (⟨S12288x256, .f32⟩ : BufTy).Contents (Elt F)),
    StableHlo.nullary main_cst_19 (constant S_ .f32 0x00000000#32),
    StableHlo.binary main_v104 main_cst_19 main_v105 ((fun x v => Host.reduceAdd x v reducesTo_S12288x256_S256_d0 h_S_) : (⟨S12288x256, .f32⟩ : BufTy).Contents (Elt F) → (⟨S_, .f32⟩ : BufTy).Contents (Elt F) → (⟨S256, .f32⟩ : BufTy).Contents (Elt F)),
    StableHlo.nullary main_cst_20 (constant S_ .f32 0x46400000#32),
    StableHlo.unary main_cst_20 main_v106 (broadcastInDim S256 ![] bcast_S_S256 : (⟨S_, .f32⟩ : BufTy).Contents (Elt F) → (⟨S256, .f32⟩ : BufTy).Contents (Elt F)),
    StableHlo.binary main_v105 main_v106 main_v107 (Host.divf : (⟨S256, .f32⟩ : BufTy).Contents (Elt F) → (⟨S256, .f32⟩ : BufTy).Contents (Elt F) → (⟨S256, .f32⟩ : BufTy).Contents (Elt F)),
    StableHlo.nullary main_c_21 (constantI S_ 32 0#32) ]
theorem ops6_sub : (ops6 : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem ops6_fresh : (ops6 : List (HloOp τ sig (Elt F))).Forall fun op => op.fresh = ∅ := by
  simp only [List.Forall]; repeat' constructor
/-- The references `ops6` writes. -/
abbrev W6 : List (Ref sig .tc) := [main_v99, main_v100, main_v101, main_v102, main_v103, main_v104, main_cst_19, main_v105, main_cst_20, main_v106, main_v107, main_c_21]
theorem ops6_writes : (ops6 : List (HloOp τ sig (Elt F))).Forall fun op => op.writes ⊆ (W6.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem⟩
theorem ops6_kept (r : Ref sig .tc) (h : r ∉ W6) (V : Valuation τ sig (Elt F)) : after ops6 V (Proc.devRef .tc r) = V (Proc.devRef .tc r) :=
  after_of_writes_sub ops6 V ops6_writes h

/-- 22 operations of @_var at its call (record `main_call2`), a nested call's included, in order (window 2). -/
abbrev ops7 : List (HloOp τ sig (Elt F)) :=
  [ StableHlo.TRef.nullary (.of main_call2_cst : StableHlo.TRef sig ⟨S_, .f32⟩) (constant S_ .f32 0x00000000#32),
    StableHlo.TRef.binary (.of main_v104 : StableHlo.TRef sig ⟨S12288x256, .f32⟩) (.of main_call2_cst : StableHlo.TRef sig ⟨S_, .f32⟩) (.of main_call2_v0 : StableHlo.TRef sig ⟨S256, .f32⟩) (fun x v => Host.reduceAdd x v reducesTo_S12288x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x46400000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S12288x256, .f32⟩) (broadcastInDim S12288x256 ![0, 1] bcast_S1x256_S12288x256_0_1),
    StableHlo.TRef.binary (.of main_v104 : StableHlo.TRef sig ⟨S12288x256, .f32⟩) (.of main_call2_v4 : StableHlo.TRef sig ⟨S12288x256, .f32⟩) (.of main_call2_v5 : StableHlo.TRef sig ⟨S12288x256, .f32⟩) subf,
    StableHlo.TRef.binary (.of main_call2_v5 : StableHlo.TRef sig ⟨S12288x256, .f32⟩) (.of main_call2_v5 : StableHlo.TRef sig ⟨S12288x256, .f32⟩) (.of main_call2_v6 : StableHlo.TRef sig ⟨S12288x256, .f32⟩) mulf,
    StableHlo.TRef.unary (.of main_c_21 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x46400000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S12288x256, .f32⟩) (.of main_call2_cst_2 : StableHlo.TRef sig ⟨S_, .f32⟩) (.of main_call2_v9 : StableHlo.TRef sig ⟨S256, .f32⟩) (fun x v => Host.reduceAdd x v reducesTo_S12288x256_S256_d0 h_S_),
    StableHlo.TRef.unary (.of main_call2_v8 : StableHlo.TRef sig ⟨S_, .f32⟩) (.of main_call2_v10 : StableHlo.TRef sig ⟨S256, .f32⟩) (broadcastInDim S256 ![] bcast_S_S256),
    StableHlo.TRef.binary (.of main_call2_v9 : StableHlo.TRef sig ⟨S256, .f32⟩) (.of main_call2_v10 : StableHlo.TRef sig ⟨S256, .f32⟩) (.of main_call2_v11 : StableHlo.TRef sig ⟨S256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S256, .f32⟩) (broadcastInDim S256 ![] bcast_S_S256),
    StableHlo.TRef.ternary (.of main_call2_v12 : StableHlo.TRef sig ⟨S_, .i1⟩) (.of main_call2_v11 : StableHlo.TRef sig ⟨S256, .f32⟩) (.of main_call2_call0_v1 : StableHlo.TRef sig ⟨S256, .f32⟩) (.of main_v108 : StableHlo.TRef sig ⟨S256, .f32⟩) (fun p a b => select (broadcastInDim S256 ![] bcast_S_S256 p) a b) ]
theorem ops7_sub : (ops7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops7_fresh : (ops7 : List (HloOp τ sig (Elt F))).Forall fun op => op.fresh = ∅ := by
  simp only [List.Forall]; repeat' constructor
/-- The references `ops7` writes. -/
abbrev W7 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v108]
theorem ops7_writes : (ops7 : List (HloOp τ sig (Elt F))).Forall fun op => op.writes ⊆ (W7.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem ops7_kept (r : Ref sig .tc) (h : r ∉ W7) (V : Valuation τ sig (Elt F)) : after ops7 V (Proc.devRef .tc r) = V (Proc.devRef .tc r) :=
  after_of_writes_sub ops7 V ops7_writes h

/-- 16 operations of @main, in order (window 2). -/
abbrev ops8 : List (HloOp τ sig (Elt F)) :=
  [ StableHlo.unary main_v107 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S12288x256 ![0, 1] bcast_S1x256_S12288x256_0_1 : (⟨S1x256, .f32⟩ : BufTy).Contents (Elt F) → (⟨S12288x256, .f32⟩ : BufTy).Contents (Elt F)),
    StableHlo.binary main_v104 main_v110 main_v111 (subf : (⟨S12288x256, .f32⟩ : BufTy).Contents (Elt F) → (⟨S12288x256, .f32⟩ : BufTy).Contents (Elt F) → (⟨S12288x256, .f32⟩ : BufTy).Contents (Elt F)),
    StableHlo.nullary main_cst_22 (constant S_ .f32 0x3727C5AC#32),
    StableHlo.unary main_cst_22 main_v112 (broadcastInDim S256 ![] bcast_S_S256 : (⟨S_, .f32⟩ : BufTy).Contents (Elt F) → (⟨S256, .f32⟩ : BufTy).Contents (Elt F)),
    StableHlo.binary main_v108 main_v112 main_v113 (addf : (⟨S256, .f32⟩ : BufTy).Contents (Elt F) → (⟨S256, .f32⟩ : BufTy).Contents (Elt F) → (⟨S256, .f32⟩ : BufTy).Contents (Elt F)),
    StableHlo.unary main_v113 main_v114 (Host.rsqrt : (⟨S256, .f32⟩ : BufTy).Contents (Elt F) → (⟨S256, .f32⟩ : BufTy).Contents (Elt F)),
    StableHlo.unary main_v114 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S12288x256 ![0, 1] bcast_S1x256_S12288x256_0_1 : (⟨S1x256, .f32⟩ : BufTy).Contents (Elt F) → (⟨S12288x256, .f32⟩ : BufTy).Contents (Elt F)),
    StableHlo.binary main_v111 main_v116 main_v117 (mulf : (⟨S12288x256, .f32⟩ : BufTy).Contents (Elt F) → (⟨S12288x256, .f32⟩ : BufTy).Contents (Elt F) → (⟨S12288x256, .f32⟩ : BufTy).Contents (Elt F)),
    StableHlo.unary main_arg8 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S12288x256 ![0, 1] bcast_S1x256_S12288x256_0_1 : (⟨S1x256, .f32⟩ : BufTy).Contents (Elt F) → (⟨S12288x256, .f32⟩ : BufTy).Contents (Elt F)),
    StableHlo.binary main_v117 main_v119 main_v120 (mulf : (⟨S12288x256, .f32⟩ : BufTy).Contents (Elt F) → (⟨S12288x256, .f32⟩ : BufTy).Contents (Elt F) → (⟨S12288x256, .f32⟩ : BufTy).Contents (Elt F)),
    StableHlo.unary main_arg9 main_v121 (broadcastInDim S1x256 ![1] bcast_S256_S1x256_1 : (⟨S256, .f32⟩ : BufTy).Contents (Elt F) → (⟨S1x256, .f32⟩ : BufTy).Contents (Elt F)),
    StableHlo.unary main_v121 main_v122 (broadcastInDim S12288x256 ![0, 1] bcast_S1x256_S12288x256_0_1 : (⟨S1x256, .f32⟩ : BufTy).Contents (Elt F) → (⟨S12288x256, .f32⟩ : BufTy).Contents (Elt F)),
    StableHlo.binary main_v120 main_v122 main_v123 (addf : (⟨S12288x256, .f32⟩ : BufTy).Contents (Elt F) → (⟨S12288x256, .f32⟩ : BufTy).Contents (Elt F) → (⟨S12288x256, .f32⟩ : BufTy).Contents (Elt F)) ]
theorem ops8_sub : (ops8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops8_fresh : (ops8 : List (HloOp τ sig (Elt F))).Forall fun op => op.fresh = ∅ := by
  simp only [List.Forall]; repeat' constructor
/-- The references `ops8` writes. -/
abbrev W8 : List (Ref sig .tc) := [main_v109, main_v110, main_v111, main_cst_22, main_v112, main_v113, main_v114, main_v115, main_v116, main_v117, main_v118, main_v119, main_v120, main_v121, main_v122, main_v123]
theorem ops8_writes : (ops8 : List (HloOp τ sig (Elt F))).Forall fun op => op.writes ⊆ (W8.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem⟩
theorem ops8_kept (r : Ref sig .tc) (h : r ∉ W8) (V : Valuation τ sig (Elt F)) : after ops8 V (Proc.devRef .tc r) = V (Proc.devRef .tc r) :=
  after_of_writes_sub ops8 V ops8_writes h

/-- 3 operations of @_relu at its call (record `main_call3`), a nested call's included, in order (window 2). -/
abbrev ops9 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S12288x256, .f32⟩) (broadcastInDim S12288x256 ![] bcast_S_S12288x256),
    StableHlo.TRef.binary (.of main_v123 : StableHlo.TRef sig ⟨S12288x256, .f32⟩) (.of main_call3_v0 : StableHlo.TRef sig ⟨S12288x256, .f32⟩) (.of main_v124 : StableHlo.TRef sig ⟨S12288x256, .f32⟩) maximumf ]
theorem ops9_sub : (ops9 : List (HloOp τ sig (Elt F))).Forall fun op => op.bufs ⊆ tcRefs τ sig :=
  ⟨nullary_bufs_sub .., unary_bufs_sub .., binary_bufs_sub ..⟩
theorem ops9_fresh : (ops9 : List (HloOp τ sig (Elt F))).Forall fun op => op.fresh = ∅ := by
  simp only [List.Forall]; repeat' constructor
/-- The references `ops9` writes. -/
abbrev W9 : List (Ref sig .tc) := [main_call3_cst, main_call3_v0, main_v124]
theorem ops9_writes : (ops9 : List (HloOp τ sig (Elt F))).Forall fun op => op.writes ⊆ (W9.map (Proc.devRef (τ := τ) .tc)).toFinset := by
  simp only [List.Forall]; exact ⟨by writes_mem, by writes_mem, by writes_mem⟩
theorem ops9_kept (r : Ref sig .tc) (h : r ∉ W9) (V : Valuation τ sig (Elt F)) : after ops9 V (Proc.devRef .tc r) = V (Proc.devRef .tc r) :=
  after_of_writes_sub ops9 V ops9_writes h

/-- 8 operations of @main, in order (window 2). -/
abbrev ops10 : List (HloOp τ sig (Elt F)) :=
  [ StableHlo.binary main_v124 main_arg10 main_v125 ((fun l r => Host.dotGeneral dot_S12288x256_S256x64_S12288x64_1_0_0_1_n_n none l r) : (⟨S12288x256, .f32⟩ : BufTy).Contents (Elt F) → (⟨S256x64, .f32⟩ : BufTy).Contents (Elt F) → (⟨S12288x64, .f32⟩ : BufTy).Contents (Elt F)),
    StableHlo.unary main_arg11 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S12288x64 ![0, 1] bcast_S1x64_S12288x64_0_1 : (⟨S1x64, .f32⟩ : BufTy).Contents (Elt F) → (⟨S12288x64, .f32⟩ : BufTy).Contents (Elt F)),
    StableHlo.binary main_v125 main_v127 main_v128 (addf : (⟨S12288x64, .f32⟩ : BufTy).Contents (Elt F) → (⟨S12288x64, .f32⟩ : BufTy).Contents (Elt F) → (⟨S12288x64, .f32⟩ : BufTy).Contents (Elt F)),
    StableHlo.binary main_v124 main_arg12 main_v129 ((fun l r => Host.dotGeneral dot_S12288x256_S256x64_S12288x64_1_0_0_1_n_n none l r) : (⟨S12288x256, .f32⟩ : BufTy).Contents (Elt F) → (⟨S256x64, .f32⟩ : BufTy).Contents (Elt F) → (⟨S12288x64, .f32⟩ : BufTy).Contents (Elt F)),
    StableHlo.unary main_arg13 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S12288x64 ![0, 1] bcast_S1x64_S12288x64_0_1 : (⟨S1x64, .f32⟩ : BufTy).Contents (Elt F) → (⟨S12288x64, .f32⟩ : BufTy).Contents (Elt F)),
    StableHlo.binary main_v129 main_v131 main_v132 (addf : (⟨S12288x64, .f32⟩ : BufTy).Contents (Elt F) → (⟨S12288x64, .f32⟩ : BufTy).Contents (Elt F) → (⟨S12288x64, .f32⟩ : BufTy).Contents (Elt F)) ]
theorem ops10_sub : (ops10 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem ops10_fresh : (ops10 : List (HloOp τ sig (Elt F))).Forall fun op => op.fresh = ∅ := by
  simp only [List.Forall]; repeat' constructor
/-- The references `ops10` writes. -/
abbrev W10 : List (Ref sig .tc) := [main_v125, main_v126, main_v127, main_v128, main_v129, main_v130, main_v131, main_v132]
theorem ops10_writes : (ops10 : List (HloOp τ sig (Elt F))).Forall fun op => op.writes ⊆ (W10.map (Proc.devRef (τ := τ) .tc)).toFinset := by
  simp only [List.Forall]; exact ⟨by writes_mem, by writes_mem, by writes_mem, by writes_mem, by writes_mem, by writes_mem, by writes_mem, by writes_mem⟩
theorem ops10_kept (r : Ref sig .tc) (h : r ∉ W10) (V : Valuation τ sig (Elt F)) : after ops10 V (Proc.devRef .tc r) = V (Proc.devRef .tc r) :=
  after_of_writes_sub ops10 V ops10_writes h

/-- 20 operations of @main, in order (window 2). -/
abbrev ops11 : List (HloOp τ sig (Elt F)) :=
  [ StableHlo.unary main_v128 main_v133 ((transpose S64x12288 [1, 0] · transposes_S12288x64_S64x12288_1_0) : (⟨S12288x64, .f32⟩ : BufTy).Contents (Elt F) → (⟨S64x12288, .f32⟩ : BufTy).Contents (Elt F)),
    StableHlo.binary main_v128 main_v133 main_v134 ((fun l r => Host.dotGeneral dot_S12288x64_S64x12288_S12288x12288_1_0_0_1_n_n none l r) : (⟨S12288x64, .f32⟩ : BufTy).Contents (Elt F) → (⟨S64x12288, .f32⟩ : BufTy).Contents (Elt F) → (⟨S12288x12288, .f32⟩ : BufTy).Contents (Elt F)),
    StableHlo.unary main_v134 main_v135 (Host.negf : (⟨S12288x12288, .f32⟩ : BufTy).Contents (Elt F) → (⟨S12288x12288, .f32⟩ : BufTy).Contents (Elt F)),
    StableHlo.unary main_v135 main_v136 (Host.exp : (⟨S12288x12288, .f32⟩ : BufTy).Contents (Elt F) → (⟨S12288x12288, .f32⟩ : BufTy).Contents (Elt F)),
    StableHlo.nullary main_cst_23 (constant S_ .f32 0x3F800000#32),
    StableHlo.unary main_cst_23 main_v137 (broadcastInDim S12288x12288 ![] bcast_S_S12288x12288 : (⟨S_, .f32⟩ : BufTy).Contents (Elt F) → (⟨S12288x12288, .f32⟩ : BufTy).Contents (Elt F)),
    StableHlo.binary main_v137 main_v136 main_v138 (addf : (⟨S12288x12288, .f32⟩ : BufTy).Contents (Elt F) → (⟨S12288x12288, .f32⟩ : BufTy).Contents (Elt F) → (⟨S12288x12288, .f32⟩ : BufTy).Contents (Elt F)),
    StableHlo.nullary main_cst_24 (constant S_ .f32 0x3F800000#32),
    StableHlo.unary main_cst_24 main_v139 (broadcastInDim S12288x12288 ![] bcast_S_S12288x12288 : (⟨S_, .f32⟩ : BufTy).Contents (Elt F) → (⟨S12288x12288, .f32⟩ : BufTy).Contents (Elt F)),
    StableHlo.binary main_v139 main_v138 main_v140 (Host.divf : (⟨S12288x12288, .f32⟩ : BufTy).Contents (Elt F) → (⟨S12288x12288, .f32⟩ : BufTy).Contents (Elt F) → (⟨S12288x12288, .f32⟩ : BufTy).Contents (Elt F)),
    StableHlo.binary main_v128 main_arg14 main_v141 ((fun l r => Host.dotGeneral dot_S12288x64_S64x128_S12288x128_1_0_0_1_n_n none l r) : (⟨S12288x64, .f32⟩ : BufTy).Contents (Elt F) → (⟨S64x128, .f32⟩ : BufTy).Contents (Elt F) → (⟨S12288x128, .f32⟩ : BufTy).Contents (Elt F)),
    StableHlo.unary main_arg15 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S12288x128 ![0, 1] bcast_S1x128_S12288x128_0_1 : (⟨S1x128, .f32⟩ : BufTy).Contents (Elt F) → (⟨S12288x128, .f32⟩ : BufTy).Contents (Elt F)),
    StableHlo.binary main_v141 main_v143 main_v144 (addf : (⟨S12288x128, .f32⟩ : BufTy).Contents (Elt F) → (⟨S12288x128, .f32⟩ : BufTy).Contents (Elt F) → (⟨S12288x128, .f32⟩ : BufTy).Contents (Elt F)),
    StableHlo.nullary main_cst_25 (constant S_ .f32 0x00000000#32),
    StableHlo.binary main_v144 main_cst_25 main_v145 ((fun x v => Host.reduceAdd x v reducesTo_S12288x128_S128_d0 h_S_) : (⟨S12288x128, .f32⟩ : BufTy).Contents (Elt F) → (⟨S_, .f32⟩ : BufTy).Contents (Elt F) → (⟨S128, .f32⟩ : BufTy).Contents (Elt F)),
    StableHlo.nullary main_cst_26 (constant S_ .f32 0x46400000#32),
    StableHlo.unary main_cst_26 main_v146 (broadcastInDim S128 ![] bcast_S_S128 : (⟨S_, .f32⟩ : BufTy).Contents (Elt F) → (⟨S128, .f32⟩ : BufTy).Contents (Elt F)),
    StableHlo.binary main_v145 main_v146 main_v147 (Host.divf : (⟨S128, .f32⟩ : BufTy).Contents (Elt F) → (⟨S128, .f32⟩ : BufTy).Contents (Elt F) → (⟨S128, .f32⟩ : BufTy).Contents (Elt F)),
    StableHlo.nullary main_c_27 (constantI S_ 32 0#32) ]
theorem ops11_sub : (ops11 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem ops11_fresh : (ops11 : List (HloOp τ sig (Elt F))).Forall fun op => op.fresh = ∅ := by
  simp only [List.Forall]; repeat' constructor
/-- The references `ops11` writes. -/
abbrev W11 : List (Ref sig .tc) := [main_v133, main_v134, main_v135, main_v136, main_cst_23, main_v137, main_v138, main_cst_24, main_v139, main_v140, main_v141, main_v142, main_v143, main_v144, main_cst_25, main_v145, main_cst_26, main_v146, main_v147, main_c_27]
theorem ops11_writes : (ops11 : List (HloOp τ sig (Elt F))).Forall fun op => op.writes ⊆ (W11.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem ops11_kept (r : Ref sig .tc) (h : r ∉ W11) (V : Valuation τ sig (Elt F)) : after ops11 V (Proc.devRef .tc r) = V (Proc.devRef .tc r) :=
  after_of_writes_sub ops11 V ops11_writes h

/-- 22 operations of @_var_0 at its call (record `main_call4`), a nested call's included, in order (window 2). -/
abbrev ops12 : List (HloOp τ sig (Elt F)) :=
  [ StableHlo.TRef.nullary (.of main_call4_cst : StableHlo.TRef sig ⟨S_, .f32⟩) (constant S_ .f32 0x00000000#32),
    StableHlo.TRef.binary (.of main_v144 : StableHlo.TRef sig ⟨S12288x128, .f32⟩) (.of main_call4_cst : StableHlo.TRef sig ⟨S_, .f32⟩) (.of main_call4_v0 : StableHlo.TRef sig ⟨S128, .f32⟩) (fun x v => Host.reduceAdd x v reducesTo_S12288x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x46400000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S12288x128, .f32⟩) (broadcastInDim S12288x128 ![0, 1] bcast_S1x128_S12288x128_0_1),
    StableHlo.TRef.binary (.of main_v144 : StableHlo.TRef sig ⟨S12288x128, .f32⟩) (.of main_call4_v4 : StableHlo.TRef sig ⟨S12288x128, .f32⟩) (.of main_call4_v5 : StableHlo.TRef sig ⟨S12288x128, .f32⟩) subf,
    StableHlo.TRef.binary (.of main_call4_v5 : StableHlo.TRef sig ⟨S12288x128, .f32⟩) (.of main_call4_v5 : StableHlo.TRef sig ⟨S12288x128, .f32⟩) (.of main_call4_v6 : StableHlo.TRef sig ⟨S12288x128, .f32⟩) mulf,
    StableHlo.TRef.unary (.of main_c_27 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x46400000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S12288x128, .f32⟩) (.of main_call4_cst_2 : StableHlo.TRef sig ⟨S_, .f32⟩) (.of main_call4_v9 : StableHlo.TRef sig ⟨S128, .f32⟩) (fun x v => Host.reduceAdd x v reducesTo_S12288x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v148 : StableHlo.TRef sig ⟨S128, .f32⟩) (fun p a b => select (broadcastInDim S128 ![] bcast_S_S128 p) a b) ]
theorem ops12_sub : (ops12 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops12_fresh : (ops12 : List (HloOp τ sig (Elt F))).Forall fun op => op.fresh = ∅ := by
  simp only [List.Forall]; repeat' constructor
/-- The references `ops12` writes. -/
abbrev W12 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v148]
theorem ops12_writes : (ops12 : List (HloOp τ sig (Elt F))).Forall fun op => op.writes ⊆ (W12.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem ops12_kept (r : Ref sig .tc) (h : r ∉ W12) (V : Valuation τ sig (Elt F)) : after ops12 V (Proc.devRef .tc r) = V (Proc.devRef .tc r) :=
  after_of_writes_sub ops12 V ops12_writes h

/-- 1 operations of @main, in order (window 2). -/
abbrev ops13 : List (HloOp τ sig (Elt F)) :=
  [ StableHlo.unary main_v147 main_v149 (broadcastInDim S1x128 ![1] bcast_S128_S1x128_1 : (⟨S128, .f32⟩ : BufTy).Contents (Elt F) → (⟨S1x128, .f32⟩ : BufTy).Contents (Elt F)) ]
theorem ops13_sub : (ops13 : List (HloOp τ sig (Elt F))).Forall fun op => op.bufs ⊆ tcRefs τ sig :=
  unary_bufs_sub ..
theorem ops13_fresh : (ops13 : List (HloOp τ sig (Elt F))).Forall fun op => op.fresh = ∅ := by
  simp only [List.Forall]; repeat' constructor
/-- The references `ops13` writes. -/
abbrev W13 : List (Ref sig .tc) := [main_v149]
theorem ops13_writes : (ops13 : List (HloOp τ sig (Elt F))).Forall fun op => op.writes ⊆ (W13.map (Proc.devRef (τ := τ) .tc)).toFinset := by
  simp only [List.Forall]; writes_mem
theorem ops13_kept (r : Ref sig .tc) (h : r ∉ W13) (V : Valuation τ sig (Elt F)) : after ops13 V (Proc.devRef .tc r) = V (Proc.devRef .tc r) :=
  after_of_writes_sub ops13 V ops13_writes h

/-- 15 operations of @main, in order (window 3). -/
abbrev ops14 : List (HloOp τ sig (Elt F)) :=
  [ StableHlo.unary main_v149 main_v150 (broadcastInDim S12288x128 ![0, 1] bcast_S1x128_S12288x128_0_1 : (⟨S1x128, .f32⟩ : BufTy).Contents (Elt F) → (⟨S12288x128, .f32⟩ : BufTy).Contents (Elt F)),
    StableHlo.binary main_v144 main_v150 main_v151 (subf : (⟨S12288x128, .f32⟩ : BufTy).Contents (Elt F) → (⟨S12288x128, .f32⟩ : BufTy).Contents (Elt F) → (⟨S12288x128, .f32⟩ : BufTy).Contents (Elt F)),
    StableHlo.nullary main_cst_28 (constant S_ .f32 0x3727C5AC#32),
    StableHlo.unary main_cst_28 main_v152 (broadcastInDim S128 ![] bcast_S_S128 : (⟨S_, .f32⟩ : BufTy).Contents (Elt F) → (⟨S128, .f32⟩ : BufTy).Contents (Elt F)),
    StableHlo.binary main_v148 main_v152 main_v153 (addf : (⟨S128, .f32⟩ : BufTy).Contents (Elt F) → (⟨S128, .f32⟩ : BufTy).Contents (Elt F) → (⟨S128, .f32⟩ : BufTy).Contents (Elt F)),
    StableHlo.unary main_v153 main_v154 (Host.rsqrt : (⟨S128, .f32⟩ : BufTy).Contents (Elt F) → (⟨S128, .f32⟩ : BufTy).Contents (Elt F)),
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S12288x128 ![0, 1] bcast_S1x128_S12288x128_0_1 : (⟨S1x128, .f32⟩ : BufTy).Contents (Elt F) → (⟨S12288x128, .f32⟩ : BufTy).Contents (Elt F)),
    StableHlo.binary main_v151 main_v156 main_v157 (mulf : (⟨S12288x128, .f32⟩ : BufTy).Contents (Elt F) → (⟨S12288x128, .f32⟩ : BufTy).Contents (Elt F) → (⟨S12288x128, .f32⟩ : BufTy).Contents (Elt F)),
    StableHlo.unary main_arg16 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S12288x128 ![0, 1] bcast_S1x128_S12288x128_0_1 : (⟨S1x128, .f32⟩ : BufTy).Contents (Elt F) → (⟨S12288x128, .f32⟩ : BufTy).Contents (Elt F)),
    StableHlo.binary main_v157 main_v159 main_v160 (mulf : (⟨S12288x128, .f32⟩ : BufTy).Contents (Elt F) → (⟨S12288x128, .f32⟩ : BufTy).Contents (Elt F) → (⟨S12288x128, .f32⟩ : BufTy).Contents (Elt F)),
    StableHlo.unary main_arg17 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S12288x128 ![0, 1] bcast_S1x128_S12288x128_0_1 : (⟨S1x128, .f32⟩ : BufTy).Contents (Elt F) → (⟨S12288x128, .f32⟩ : BufTy).Contents (Elt F)),
    StableHlo.binary main_v160 main_v162 main_v163 (addf : (⟨S12288x128, .f32⟩ : BufTy).Contents (Elt F) → (⟨S12288x128, .f32⟩ : BufTy).Contents (Elt F) → (⟨S12288x128, .f32⟩ : BufTy).Contents (Elt F)) ]
theorem ops14_sub : (ops14 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops14_fresh : (ops14 : List (HloOp τ sig (Elt F))).Forall fun op => op.fresh = ∅ := by
  simp only [List.Forall]; repeat' constructor
/-- The references `ops14` writes. -/
abbrev W14 : List (Ref sig .tc) := [main_v150, main_v151, main_cst_28, main_v152, main_v153, main_v154, main_v155, main_v156, main_v157, main_v158, main_v159, main_v160, main_v161, main_v162, main_v163]
theorem ops14_writes : (ops14 : List (HloOp τ sig (Elt F))).Forall fun op => op.writes ⊆ (W14.map (Proc.devRef (τ := τ) .tc)).toFinset := by
  simp only [List.Forall]; exact ⟨by writes_mem, by writes_mem, by writes_mem, by writes_mem, by writes_mem, by writes_mem, by writes_mem, by writes_mem, by writes_mem, by writes_mem, by writes_mem, by writes_mem, by writes_mem, by writes_mem, by writes_mem⟩
theorem ops14_kept (r : Ref sig .tc) (h : r ∉ W14) (V : Valuation τ sig (Elt F)) : after ops14 V (Proc.devRef .tc r) = V (Proc.devRef .tc r) :=
  after_of_writes_sub ops14 V ops14_writes h

/-- 4 operations of @main, in order (window 3). -/
abbrev ops15 : List (HloOp τ sig (Elt F)) :=
  [ StableHlo.binary main_v163 main_arg18 main_v164 ((fun l r => Host.dotGeneral dot_S12288x128_S128x512_S12288x512_1_0_0_1_n_n none l r) : (⟨S12288x128, .f32⟩ : BufTy).Contents (Elt F) → (⟨S128x512, .f32⟩ : BufTy).Contents (Elt F) → (⟨S12288x512, .f32⟩ : BufTy).Contents (Elt F)),
    StableHlo.unary main_arg19 main_v165 (broadcastInDim S1x512 ![1] bcast_S512_S1x512_1 : (⟨S512, .f32⟩ : BufTy).Contents (Elt F) → (⟨S1x512, .f32⟩ : BufTy).Contents (Elt F)),
    StableHlo.unary main_v165 main_v166 (broadcastInDim S12288x512 ![0, 1] bcast_S1x512_S12288x512_0_1 : (⟨S1x512, .f32⟩ : BufTy).Contents (Elt F) → (⟨S12288x512, .f32⟩ : BufTy).Contents (Elt F)),
    StableHlo.binary main_v164 main_v166 main_v167 (addf : (⟨S12288x512, .f32⟩ : BufTy).Contents (Elt F) → (⟨S12288x512, .f32⟩ : BufTy).Contents (Elt F) → (⟨S12288x512, .f32⟩ : BufTy).Contents (Elt F)) ]
theorem ops15_sub : (ops15 : List (HloOp τ sig (Elt F))).Forall fun op => op.bufs ⊆ tcRefs τ sig :=
  ⟨binary_bufs_sub .., unary_bufs_sub .., unary_bufs_sub .., binary_bufs_sub ..⟩
theorem ops15_fresh : (ops15 : List (HloOp τ sig (Elt F))).Forall fun op => op.fresh = ∅ := by
  simp only [List.Forall]; repeat' constructor
/-- The references `ops15` writes. -/
abbrev W15 : List (Ref sig .tc) := [main_v164, main_v165, main_v166, main_v167]
theorem ops15_writes : (ops15 : List (HloOp τ sig (Elt F))).Forall fun op => op.writes ⊆ (W15.map (Proc.devRef (τ := τ) .tc)).toFinset := by
  simp only [List.Forall]; exact ⟨by writes_mem, by writes_mem, by writes_mem, by writes_mem⟩
theorem ops15_kept (r : Ref sig .tc) (h : r ∉ W15) (V : Valuation τ sig (Elt F)) : after ops15 V (Proc.devRef .tc r) = V (Proc.devRef .tc r) :=
  after_of_writes_sub ops15 V ops15_writes h

/-- 3 operations of @_relu_2 at its call (record `main_call5`), a nested call's included, in order (window 3). -/
abbrev ops16 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S12288x512, .f32⟩) (broadcastInDim S12288x512 ![] bcast_S_S12288x512),
    StableHlo.TRef.binary (.of main_v167 : StableHlo.TRef sig ⟨S12288x512, .f32⟩) (.of main_call5_v0 : StableHlo.TRef sig ⟨S12288x512, .f32⟩) (.of main_v168 : StableHlo.TRef sig ⟨S12288x512, .f32⟩) maximumf ]
theorem ops16_sub : (ops16 : List (HloOp τ sig (Elt F))).Forall fun op => op.bufs ⊆ tcRefs τ sig :=
  ⟨nullary_bufs_sub .., unary_bufs_sub .., binary_bufs_sub ..⟩
theorem ops16_fresh : (ops16 : List (HloOp τ sig (Elt F))).Forall fun op => op.fresh = ∅ := by
  simp only [List.Forall]; repeat' constructor
/-- The references `ops16` writes. -/
abbrev W16 : List (Ref sig .tc) := [main_call5_cst, main_call5_v0, main_v168]
theorem ops16_writes : (ops16 : List (HloOp τ sig (Elt F))).Forall fun op => op.writes ⊆ (W16.map (Proc.devRef (τ := τ) .tc)).toFinset := by
  simp only [List.Forall]; exact ⟨by writes_mem, by writes_mem, by writes_mem⟩
theorem ops16_kept (r : Ref sig .tc) (h : r ∉ W16) (V : Valuation τ sig (Elt F)) : after ops16 V (Proc.devRef .tc r) = V (Proc.devRef .tc r) :=
  after_of_writes_sub ops16 V ops16_writes h

/-- 4 operations of @main, in order (window 3). -/
abbrev ops17 : List (HloOp τ sig (Elt F)) :=
  [ StableHlo.binary main_v168 main_arg20 main_v169 ((fun l r => Host.dotGeneral dot_S12288x512_S512x256_S12288x256_1_0_0_1_n_n none l r) : (⟨S12288x512, .f32⟩ : BufTy).Contents (Elt F) → (⟨S512x256, .f32⟩ : BufTy).Contents (Elt F) → (⟨S12288x256, .f32⟩ : BufTy).Contents (Elt F)),
    StableHlo.unary main_arg21 main_v170 (broadcastInDim S1x256 ![1] bcast_S256_S1x256_1 : (⟨S256, .f32⟩ : BufTy).Contents (Elt F) → (⟨S1x256, .f32⟩ : BufTy).Contents (Elt F)),
    StableHlo.unary main_v170 main_v171 (broadcastInDim S12288x256 ![0, 1] bcast_S1x256_S12288x256_0_1 : (⟨S1x256, .f32⟩ : BufTy).Contents (Elt F) → (⟨S12288x256, .f32⟩ : BufTy).Contents (Elt F)),
    StableHlo.binary main_v169 main_v171 main_v172 (addf : (⟨S12288x256, .f32⟩ : BufTy).Contents (Elt F) → (⟨S12288x256, .f32⟩ : BufTy).Contents (Elt F) → (⟨S12288x256, .f32⟩ : BufTy).Contents (Elt F)) ]
theorem ops17_sub : (ops17 : List (HloOp τ sig (Elt F))).Forall fun op => op.bufs ⊆ tcRefs τ sig :=
  ⟨binary_bufs_sub .., unary_bufs_sub .., unary_bufs_sub .., binary_bufs_sub ..⟩
theorem ops17_fresh : (ops17 : List (HloOp τ sig (Elt F))).Forall fun op => op.fresh = ∅ := by
  simp only [List.Forall]; repeat' constructor
/-- The references `ops17` writes. -/
abbrev W17 : List (Ref sig .tc) := [main_v169, main_v170, main_v171, main_v172]
theorem ops17_writes : (ops17 : List (HloOp τ sig (Elt F))).Forall fun op => op.writes ⊆ (W17.map (Proc.devRef (τ := τ) .tc)).toFinset := by
  simp only [List.Forall]; exact ⟨by writes_mem, by writes_mem, by writes_mem, by writes_mem⟩
theorem ops17_kept (r : Ref sig .tc) (h : r ∉ W17) (V : Valuation τ sig (Elt F)) : after ops17 V (Proc.devRef .tc r) = V (Proc.devRef .tc r) :=
  after_of_writes_sub ops17 V ops17_writes h

/-! ## @main's operations -/

/-- The stretches from `ops17` on. -/
abbrev tl17 : List (HloOp τ sig (Elt F)) := ops17
/-- The references they write. -/
abbrev Wt17 : List (Ref sig .tc) := W17
theorem tl17_sub : (tl17 : List (HloOp τ sig (Elt F))).Forall fun op => op.bufs ⊆ tcRefs τ sig := ops17_sub
theorem tl17_fresh : (tl17 : List (HloOp τ sig (Elt F))).Forall fun op => op.fresh = ∅ := ops17_fresh
theorem tl17_kept : ∀ r : Ref sig .tc, r ∉ Wt17 → ∀ V : Valuation τ sig (Elt F), after tl17 V (Proc.devRef .tc r) = V (Proc.devRef .tc r) := ops17_kept
/-- The stretches from `ops16` on. -/
abbrev tl16 : List (HloOp τ sig (Elt F)) := ops16 ++ tl17
/-- The references they write. -/
abbrev Wt16 : List (Ref sig .tc) := W16 ++ Wt17
theorem tl16_sub : (tl16 : List (HloOp τ sig (Elt F))).Forall fun op => op.bufs ⊆ tcRefs τ sig := forall_append ops16_sub tl17_sub
theorem tl16_fresh : (tl16 : List (HloOp τ sig (Elt F))).Forall fun op => op.fresh = ∅ := forall_append ops16_fresh tl17_fresh
theorem tl16_kept : ∀ r : Ref sig .tc, r ∉ Wt16 → ∀ V : Valuation τ sig (Elt F), after tl16 V (Proc.devRef .tc r) = V (Proc.devRef .tc r) := kept_append ops16_kept tl17_kept
theorem after_tl16 (V : Valuation τ sig (Elt F)) : after tl16 V = after tl17 (after ops16 V) := after_append _ _ V
/-- The stretches from `ops15` on. -/
abbrev tl15 : List (HloOp τ sig (Elt F)) := ops15 ++ tl16
/-- The references they write. -/
abbrev Wt15 : List (Ref sig .tc) := W15 ++ Wt16
theorem tl15_sub : (tl15 : List (HloOp τ sig (Elt F))).Forall fun op => op.bufs ⊆ tcRefs τ sig := forall_append ops15_sub tl16_sub
theorem tl15_fresh : (tl15 : List (HloOp τ sig (Elt F))).Forall fun op => op.fresh = ∅ := forall_append ops15_fresh tl16_fresh
theorem tl15_kept : ∀ r : Ref sig .tc, r ∉ Wt15 → ∀ V : Valuation τ sig (Elt F), after tl15 V (Proc.devRef .tc r) = V (Proc.devRef .tc r) := kept_append ops15_kept tl16_kept
theorem after_tl15 (V : Valuation τ sig (Elt F)) : after tl15 V = after tl16 (after ops15 V) := after_append _ _ V
/-- The stretches from `ops14` on. -/
abbrev tl14 : List (HloOp τ sig (Elt F)) := ops14 ++ tl15
/-- The references they write. -/
abbrev Wt14 : List (Ref sig .tc) := W14 ++ Wt15
theorem tl14_sub : (tl14 : List (HloOp τ sig (Elt F))).Forall fun op => op.bufs ⊆ tcRefs τ sig := forall_append ops14_sub tl15_sub
theorem tl14_fresh : (tl14 : List (HloOp τ sig (Elt F))).Forall fun op => op.fresh = ∅ := forall_append ops14_fresh tl15_fresh
theorem tl14_kept : ∀ r : Ref sig .tc, r ∉ Wt14 → ∀ V : Valuation τ sig (Elt F), after tl14 V (Proc.devRef .tc r) = V (Proc.devRef .tc r) := kept_append ops14_kept tl15_kept
theorem after_tl14 (V : Valuation τ sig (Elt F)) : after tl14 V = after tl15 (after ops14 V) := after_append _ _ V
/-- The stretches from `ops13` on. -/
abbrev tl13 : List (HloOp τ sig (Elt F)) := ops13 ++ tl14
/-- The references they write. -/
abbrev Wt13 : List (Ref sig .tc) := W13 ++ Wt14
theorem tl13_sub : (tl13 : List (HloOp τ sig (Elt F))).Forall fun op => op.bufs ⊆ tcRefs τ sig := forall_append ops13_sub tl14_sub
theorem tl13_fresh : (tl13 : List (HloOp τ sig (Elt F))).Forall fun op => op.fresh = ∅ := forall_append ops13_fresh tl14_fresh
theorem tl13_kept : ∀ r : Ref sig .tc, r ∉ Wt13 → ∀ V : Valuation τ sig (Elt F), after tl13 V (Proc.devRef .tc r) = V (Proc.devRef .tc r) := kept_append ops13_kept tl14_kept
theorem after_tl13 (V : Valuation τ sig (Elt F)) : after tl13 V = after tl14 (after ops13 V) := after_append _ _ V
/-- The stretches from `ops12` on. -/
abbrev tl12 : List (HloOp τ sig (Elt F)) := ops12 ++ tl13
/-- The references they write. -/
abbrev Wt12 : List (Ref sig .tc) := W12 ++ Wt13
theorem tl12_sub : (tl12 : List (HloOp τ sig (Elt F))).Forall fun op => op.bufs ⊆ tcRefs τ sig := forall_append ops12_sub tl13_sub
theorem tl12_fresh : (tl12 : List (HloOp τ sig (Elt F))).Forall fun op => op.fresh = ∅ := forall_append ops12_fresh tl13_fresh
theorem tl12_kept : ∀ r : Ref sig .tc, r ∉ Wt12 → ∀ V : Valuation τ sig (Elt F), after tl12 V (Proc.devRef .tc r) = V (Proc.devRef .tc r) := kept_append ops12_kept tl13_kept
theorem after_tl12 (V : Valuation τ sig (Elt F)) : after tl12 V = after tl13 (after ops12 V) := after_append _ _ V
/-- The stretches from `ops11` on. -/
abbrev tl11 : List (HloOp τ sig (Elt F)) := ops11 ++ tl12
/-- The references they write. -/
abbrev Wt11 : List (Ref sig .tc) := W11 ++ Wt12
theorem tl11_sub : (tl11 : List (HloOp τ sig (Elt F))).Forall fun op => op.bufs ⊆ tcRefs τ sig := forall_append ops11_sub tl12_sub
theorem tl11_fresh : (tl11 : List (HloOp τ sig (Elt F))).Forall fun op => op.fresh = ∅ := forall_append ops11_fresh tl12_fresh
theorem tl11_kept : ∀ r : Ref sig .tc, r ∉ Wt11 → ∀ V : Valuation τ sig (Elt F), after tl11 V (Proc.devRef .tc r) = V (Proc.devRef .tc r) := kept_append ops11_kept tl12_kept
theorem after_tl11 (V : Valuation τ sig (Elt F)) : after tl11 V = after tl12 (after ops11 V) := after_append _ _ V
/-- The stretches from `ops10` on. -/
abbrev tl10 : List (HloOp τ sig (Elt F)) := ops10 ++ tl11
/-- The references they write. -/
abbrev Wt10 : List (Ref sig .tc) := W10 ++ Wt11
theorem tl10_sub : (tl10 : List (HloOp τ sig (Elt F))).Forall fun op => op.bufs ⊆ tcRefs τ sig := forall_append ops10_sub tl11_sub
theorem tl10_fresh : (tl10 : List (HloOp τ sig (Elt F))).Forall fun op => op.fresh = ∅ := forall_append ops10_fresh tl11_fresh
theorem tl10_kept : ∀ r : Ref sig .tc, r ∉ Wt10 → ∀ V : Valuation τ sig (Elt F), after tl10 V (Proc.devRef .tc r) = V (Proc.devRef .tc r) := kept_append ops10_kept tl11_kept
theorem after_tl10 (V : Valuation τ sig (Elt F)) : after tl10 V = after tl11 (after ops10 V) := after_append _ _ V
/-- The stretches from `ops9` on. -/
abbrev tl9 : List (HloOp τ sig (Elt F)) := ops9 ++ tl10
/-- The references they write. -/
abbrev Wt9 : List (Ref sig .tc) := W9 ++ Wt10
theorem tl9_sub : (tl9 : List (HloOp τ sig (Elt F))).Forall fun op => op.bufs ⊆ tcRefs τ sig := forall_append ops9_sub tl10_sub
theorem tl9_fresh : (tl9 : List (HloOp τ sig (Elt F))).Forall fun op => op.fresh = ∅ := forall_append ops9_fresh tl10_fresh
theorem tl9_kept : ∀ r : Ref sig .tc, r ∉ Wt9 → ∀ V : Valuation τ sig (Elt F), after tl9 V (Proc.devRef .tc r) = V (Proc.devRef .tc r) := kept_append ops9_kept tl10_kept
theorem after_tl9 (V : Valuation τ sig (Elt F)) : after tl9 V = after tl10 (after ops9 V) := after_append _ _ V
/-- The stretches from `ops8` on. -/
abbrev tl8 : List (HloOp τ sig (Elt F)) := ops8 ++ tl9
/-- The references they write. -/
abbrev Wt8 : List (Ref sig .tc) := W8 ++ Wt9
theorem tl8_sub : (tl8 : List (HloOp τ sig (Elt F))).Forall fun op => op.bufs ⊆ tcRefs τ sig := forall_append ops8_sub tl9_sub
theorem tl8_fresh : (tl8 : List (HloOp τ sig (Elt F))).Forall fun op => op.fresh = ∅ := forall_append ops8_fresh tl9_fresh
theorem tl8_kept : ∀ r : Ref sig .tc, r ∉ Wt8 → ∀ V : Valuation τ sig (Elt F), after tl8 V (Proc.devRef .tc r) = V (Proc.devRef .tc r) := kept_append ops8_kept tl9_kept
theorem after_tl8 (V : Valuation τ sig (Elt F)) : after tl8 V = after tl9 (after ops8 V) := after_append _ _ V
/-- The stretches from `ops7` on. -/
abbrev tl7 : List (HloOp τ sig (Elt F)) := ops7 ++ tl8
/-- The references they write. -/
abbrev Wt7 : List (Ref sig .tc) := W7 ++ Wt8
theorem tl7_sub : (tl7 : List (HloOp τ sig (Elt F))).Forall fun op => op.bufs ⊆ tcRefs τ sig := forall_append ops7_sub tl8_sub
theorem tl7_fresh : (tl7 : List (HloOp τ sig (Elt F))).Forall fun op => op.fresh = ∅ := forall_append ops7_fresh tl8_fresh
theorem tl7_kept : ∀ r : Ref sig .tc, r ∉ Wt7 → ∀ V : Valuation τ sig (Elt F), after tl7 V (Proc.devRef .tc r) = V (Proc.devRef .tc r) := kept_append ops7_kept tl8_kept
theorem after_tl7 (V : Valuation τ sig (Elt F)) : after tl7 V = after tl8 (after ops7 V) := after_append _ _ V
/-- The stretches from `ops6` on. -/
abbrev tl6 : List (HloOp τ sig (Elt F)) := ops6 ++ tl7
/-- The references they write. -/
abbrev Wt6 : List (Ref sig .tc) := W6 ++ Wt7
theorem tl6_sub : (tl6 : List (HloOp τ sig (Elt F))).Forall fun op => op.bufs ⊆ tcRefs τ sig := forall_append ops6_sub tl7_sub
theorem tl6_fresh : (tl6 : List (HloOp τ sig (Elt F))).Forall fun op => op.fresh = ∅ := forall_append ops6_fresh tl7_fresh
theorem tl6_kept : ∀ r : Ref sig .tc, r ∉ Wt6 → ∀ V : Valuation τ sig (Elt F), after tl6 V (Proc.devRef .tc r) = V (Proc.devRef .tc r) := kept_append ops6_kept tl7_kept
theorem after_tl6 (V : Valuation τ sig (Elt F)) : after tl6 V = after tl7 (after ops6 V) := after_append _ _ V
/-- The stretches from `ops5` on. -/
abbrev tl5 : List (HloOp τ sig (Elt F)) := ops5 ++ tl6
/-- The references they write. -/
abbrev Wt5 : List (Ref sig .tc) := W5 ++ Wt6
theorem tl5_sub : (tl5 : List (HloOp τ sig (Elt F))).Forall fun op => op.bufs ⊆ tcRefs τ sig := forall_append ops5_sub tl6_sub
theorem tl5_fresh : (tl5 : List (HloOp τ sig (Elt F))).Forall fun op => op.fresh = ∅ := forall_append ops5_fresh tl6_fresh
theorem tl5_kept : ∀ r : Ref sig .tc, r ∉ Wt5 → ∀ V : Valuation τ sig (Elt F), after tl5 V (Proc.devRef .tc r) = V (Proc.devRef .tc r) := kept_append ops5_kept tl6_kept
theorem after_tl5 (V : Valuation τ sig (Elt F)) : after tl5 V = after tl6 (after ops5 V) := after_append _ _ V
/-- The stretches from `ops4` on. -/
abbrev tl4 : List (HloOp τ sig (Elt F)) := ops4 ++ tl5
/-- The references they write. -/
abbrev Wt4 : List (Ref sig .tc) := W4 ++ Wt5
theorem tl4_sub : (tl4 : List (HloOp τ sig (Elt F))).Forall fun op => op.bufs ⊆ tcRefs τ sig := forall_append ops4_sub tl5_sub
theorem tl4_fresh : (tl4 : List (HloOp τ sig (Elt F))).Forall fun op => op.fresh = ∅ := forall_append ops4_fresh tl5_fresh
theorem tl4_kept : ∀ r : Ref sig .tc, r ∉ Wt4 → ∀ V : Valuation τ sig (Elt F), after tl4 V (Proc.devRef .tc r) = V (Proc.devRef .tc r) := kept_append ops4_kept tl5_kept
theorem after_tl4 (V : Valuation τ sig (Elt F)) : after tl4 V = after tl5 (after ops4 V) := after_append _ _ V
/-- The stretches from `ops3` on. -/
abbrev tl3 : List (HloOp τ sig (Elt F)) := ops3 ++ tl4
/-- The references they write. -/
abbrev Wt3 : List (Ref sig .tc) := W3 ++ Wt4
theorem tl3_sub : (tl3 : List (HloOp τ sig (Elt F))).Forall fun op => op.bufs ⊆ tcRefs τ sig := forall_append ops3_sub tl4_sub
theorem tl3_fresh : (tl3 : List (HloOp τ sig (Elt F))).Forall fun op => op.fresh = ∅ := forall_append ops3_fresh tl4_fresh
theorem tl3_kept : ∀ r : Ref sig .tc, r ∉ Wt3 → ∀ V : Valuation τ sig (Elt F), after tl3 V (Proc.devRef .tc r) = V (Proc.devRef .tc r) := kept_append ops3_kept tl4_kept
theorem after_tl3 (V : Valuation τ sig (Elt F)) : after tl3 V = after tl4 (after ops3 V) := after_append _ _ V
/-- The stretches from `ops2` on. -/
abbrev tl2 : List (HloOp τ sig (Elt F)) := ops2 ++ tl3
/-- The references they write. -/
abbrev Wt2 : List (Ref sig .tc) := W2 ++ Wt3
theorem tl2_sub : (tl2 : List (HloOp τ sig (Elt F))).Forall fun op => op.bufs ⊆ tcRefs τ sig := forall_append ops2_sub tl3_sub
theorem tl2_fresh : (tl2 : List (HloOp τ sig (Elt F))).Forall fun op => op.fresh = ∅ := forall_append ops2_fresh tl3_fresh
theorem tl2_kept : ∀ r : Ref sig .tc, r ∉ Wt2 → ∀ V : Valuation τ sig (Elt F), after tl2 V (Proc.devRef .tc r) = V (Proc.devRef .tc r) := kept_append ops2_kept tl3_kept
theorem after_tl2 (V : Valuation τ sig (Elt F)) : after tl2 V = after tl3 (after ops2 V) := after_append _ _ V
/-- The stretches from `ops1` on. -/
abbrev tl1 : List (HloOp τ sig (Elt F)) := ops1 ++ tl2
/-- The references they write. -/
abbrev Wt1 : List (Ref sig .tc) := W1 ++ Wt2
theorem tl1_sub : (tl1 : List (HloOp τ sig (Elt F))).Forall fun op => op.bufs ⊆ tcRefs τ sig := forall_append ops1_sub tl2_sub
theorem tl1_fresh : (tl1 : List (HloOp τ sig (Elt F))).Forall fun op => op.fresh = ∅ := forall_append ops1_fresh tl2_fresh
theorem tl1_kept : ∀ r : Ref sig .tc, r ∉ Wt1 → ∀ V : Valuation τ sig (Elt F), after tl1 V (Proc.devRef .tc r) = V (Proc.devRef .tc r) := kept_append ops1_kept tl2_kept
theorem after_tl1 (V : Valuation τ sig (Elt F)) : after tl1 V = after tl2 (after ops1 V) := after_append _ _ V
/-- The stretches from `ops0` on. -/
abbrev tl0 : List (HloOp τ sig (Elt F)) := ops0 ++ tl1
/-- The references they write. -/
abbrev Wt0 : List (Ref sig .tc) := W0 ++ Wt1
theorem tl0_sub : (tl0 : List (HloOp τ sig (Elt F))).Forall fun op => op.bufs ⊆ tcRefs τ sig := forall_append ops0_sub tl1_sub
theorem tl0_fresh : (tl0 : List (HloOp τ sig (Elt F))).Forall fun op => op.fresh = ∅ := forall_append ops0_fresh tl1_fresh
theorem tl0_kept : ∀ r : Ref sig .tc, r ∉ Wt0 → ∀ V : Valuation τ sig (Elt F), after tl0 V (Proc.devRef .tc r) = V (Proc.devRef .tc r) := kept_append ops0_kept tl1_kept
theorem after_tl0 (V : Valuation τ sig (Elt F)) : after tl0 V = after tl1 (after ops0 V) := after_append _ _ V

/-- @main's 273 operations, in program order: `ops0 ++ (ops1 ++ (… ++ ops17))`. -/
abbrev ops : List (HloOp τ sig (Elt F)) := tl0

/-- The references @main's operations write. -/
abbrev W : List (Ref sig .tc) := Wt0

/-! ## The contents after the first stretches -/

/-- The contents after `ops0`, from `V`. -/
abbrev st0 (V : Valuation τ sig (Elt F)) : Valuation τ sig (Elt F) := after ops0 V
/-- The references `ops0` writes. -/
abbrev Ws0 : List (Ref sig .tc) := W0
theorem st0_kept : ∀ r : Ref sig .tc, r ∉ Ws0 → ∀ V : Valuation τ sig (Elt F), st0 V (Proc.devRef .tc r) = V (Proc.devRef .tc r) := ops0_kept
theorem after_ops_st0 (V : Valuation τ sig (Elt F)) : after ops V = after tl1 (st0 V) := after_tl0 V
/-- The contents after `ops0 … ops1`, from `V`. -/
abbrev st1 (V : Valuation τ sig (Elt F)) : Valuation τ sig (Elt F) := after ops1 (st0 V)
/-- The references `ops0 … ops1` write. -/
abbrev Ws1 : List (Ref sig .tc) := Ws0 ++ W1
theorem st1_kept : ∀ r : Ref sig .tc, r ∉ Ws1 → ∀ V : Valuation τ sig (Elt F), st1 V (Proc.devRef .tc r) = V (Proc.devRef .tc r) := fun r hr V =>
  (ops1_kept r (fun h => hr (List.mem_append_right _ h)) _).trans (st0_kept r (fun h => hr (List.mem_append_left _ h)) V)
theorem after_ops_st1 (V : Valuation τ sig (Elt F)) : after ops V = after tl2 (st1 V) := by rw [after_ops_st0, after_tl1]
/-- The contents after `ops0 … ops2`, from `V`. -/
abbrev st2 (V : Valuation τ sig (Elt F)) : Valuation τ sig (Elt F) := after ops2 (st1 V)
/-- The references `ops0 … ops2` write. -/
abbrev Ws2 : List (Ref sig .tc) := Ws1 ++ W2
theorem st2_kept : ∀ r : Ref sig .tc, r ∉ Ws2 → ∀ V : Valuation τ sig (Elt F), st2 V (Proc.devRef .tc r) = V (Proc.devRef .tc r) := fun r hr V =>
  (ops2_kept r (fun h => hr (List.mem_append_right _ h)) _).trans (st1_kept r (fun h => hr (List.mem_append_left _ h)) V)
theorem after_ops_st2 (V : Valuation τ sig (Elt F)) : after ops V = after tl3 (st2 V) := by rw [after_ops_st1, after_tl2]
/-- The contents after `ops0 … ops3`, from `V`. -/
abbrev st3 (V : Valuation τ sig (Elt F)) : Valuation τ sig (Elt F) := after ops3 (st2 V)
/-- The references `ops0 … ops3` write. -/
abbrev Ws3 : List (Ref sig .tc) := Ws2 ++ W3
theorem st3_kept : ∀ r : Ref sig .tc, r ∉ Ws3 → ∀ V : Valuation τ sig (Elt F), st3 V (Proc.devRef .tc r) = V (Proc.devRef .tc r) := fun r hr V =>
  (ops3_kept r (fun h => hr (List.mem_append_right _ h)) _).trans (st2_kept r (fun h => hr (List.mem_append_left _ h)) V)
theorem after_ops_st3 (V : Valuation τ sig (Elt F)) : after ops V = after tl4 (st3 V) := by rw [after_ops_st2, after_tl3]
/-- The contents after `ops0 … ops4`, from `V`. -/
abbrev st4 (V : Valuation τ sig (Elt F)) : Valuation τ sig (Elt F) := after ops4 (st3 V)
/-- The references `ops0 … ops4` write. -/
abbrev Ws4 : List (Ref sig .tc) := Ws3 ++ W4
theorem st4_kept : ∀ r : Ref sig .tc, r ∉ Ws4 → ∀ V : Valuation τ sig (Elt F), st4 V (Proc.devRef .tc r) = V (Proc.devRef .tc r) := fun r hr V =>
  (ops4_kept r (fun h => hr (List.mem_append_right _ h)) _).trans (st3_kept r (fun h => hr (List.mem_append_left _ h)) V)
theorem after_ops_st4 (V : Valuation τ sig (Elt F)) : after ops V = after tl5 (st4 V) := by rw [after_ops_st3, after_tl4]
/-- The contents after `ops0 … ops5`, from `V`. -/
abbrev st5 (V : Valuation τ sig (Elt F)) : Valuation τ sig (Elt F) := after ops5 (st4 V)
/-- The references `ops0 … ops5` write. -/
abbrev Ws5 : List (Ref sig .tc) := Ws4 ++ W5
theorem st5_kept : ∀ r : Ref sig .tc, r ∉ Ws5 → ∀ V : Valuation τ sig (Elt F), st5 V (Proc.devRef .tc r) = V (Proc.devRef .tc r) := fun r hr V =>
  (ops5_kept r (fun h => hr (List.mem_append_right _ h)) _).trans (st4_kept r (fun h => hr (List.mem_append_left _ h)) V)
theorem after_ops_st5 (V : Valuation τ sig (Elt F)) : after ops V = after tl6 (st5 V) := by rw [after_ops_st4, after_tl5]
/-- The contents after `ops0 … ops6`, from `V`. -/
abbrev st6 (V : Valuation τ sig (Elt F)) : Valuation τ sig (Elt F) := after ops6 (st5 V)
/-- The references `ops0 … ops6` write. -/
abbrev Ws6 : List (Ref sig .tc) := Ws5 ++ W6
theorem st6_kept : ∀ r : Ref sig .tc, r ∉ Ws6 → ∀ V : Valuation τ sig (Elt F), st6 V (Proc.devRef .tc r) = V (Proc.devRef .tc r) := fun r hr V =>
  (ops6_kept r (fun h => hr (List.mem_append_right _ h)) _).trans (st5_kept r (fun h => hr (List.mem_append_left _ h)) V)
theorem after_ops_st6 (V : Valuation τ sig (Elt F)) : after ops V = after tl7 (st6 V) := by rw [after_ops_st5, after_tl6]
/-- The contents after `ops0 … ops7`, from `V`. -/
abbrev st7 (V : Valuation τ sig (Elt F)) : Valuation τ sig (Elt F) := after ops7 (st6 V)
/-- The references `ops0 … ops7` write. -/
abbrev Ws7 : List (Ref sig .tc) := Ws6 ++ W7
theorem st7_kept : ∀ r : Ref sig .tc, r ∉ Ws7 → ∀ V : Valuation τ sig (Elt F), st7 V (Proc.devRef .tc r) = V (Proc.devRef .tc r) := fun r hr V =>
  (ops7_kept r (fun h => hr (List.mem_append_right _ h)) _).trans (st6_kept r (fun h => hr (List.mem_append_left _ h)) V)
theorem after_ops_st7 (V : Valuation τ sig (Elt F)) : after ops V = after tl8 (st7 V) := by rw [after_ops_st6, after_tl7]
/-- The contents after `ops0 … ops8`, from `V`. -/
abbrev st8 (V : Valuation τ sig (Elt F)) : Valuation τ sig (Elt F) := after ops8 (st7 V)
/-- The references `ops0 … ops8` write. -/
abbrev Ws8 : List (Ref sig .tc) := Ws7 ++ W8
theorem st8_kept : ∀ r : Ref sig .tc, r ∉ Ws8 → ∀ V : Valuation τ sig (Elt F), st8 V (Proc.devRef .tc r) = V (Proc.devRef .tc r) := fun r hr V =>
  (ops8_kept r (fun h => hr (List.mem_append_right _ h)) _).trans (st7_kept r (fun h => hr (List.mem_append_left _ h)) V)
theorem after_ops_st8 (V : Valuation τ sig (Elt F)) : after ops V = after tl9 (st8 V) := by rw [after_ops_st7, after_tl8]
/-- The contents after `ops0 … ops9`, from `V`. -/
abbrev st9 (V : Valuation τ sig (Elt F)) : Valuation τ sig (Elt F) := after ops9 (st8 V)
/-- The references `ops0 … ops9` write. -/
abbrev Ws9 : List (Ref sig .tc) := Ws8 ++ W9
theorem st9_kept : ∀ r : Ref sig .tc, r ∉ Ws9 → ∀ V : Valuation τ sig (Elt F), st9 V (Proc.devRef .tc r) = V (Proc.devRef .tc r) := fun r hr V =>
  (ops9_kept r (fun h => hr (List.mem_append_right _ h)) _).trans (st8_kept r (fun h => hr (List.mem_append_left _ h)) V)
theorem after_ops_st9 (V : Valuation τ sig (Elt F)) : after ops V = after tl10 (st9 V) := by rw [after_ops_st8, after_tl9]
/-- The contents after `ops0 … ops10`, from `V`. -/
abbrev st10 (V : Valuation τ sig (Elt F)) : Valuation τ sig (Elt F) := after ops10 (st9 V)
/-- The references `ops0 … ops10` write. -/
abbrev Ws10 : List (Ref sig .tc) := Ws9 ++ W10
theorem st10_kept : ∀ r : Ref sig .tc, r ∉ Ws10 → ∀ V : Valuation τ sig (Elt F), st10 V (Proc.devRef .tc r) = V (Proc.devRef .tc r) := fun r hr V =>
  (ops10_kept r (fun h => hr (List.mem_append_right _ h)) _).trans (st9_kept r (fun h => hr (List.mem_append_left _ h)) V)
theorem after_ops_st10 (V : Valuation τ sig (Elt F)) : after ops V = after tl11 (st10 V) := by rw [after_ops_st9, after_tl10]
/-- The contents after `ops0 … ops11`, from `V`. -/
abbrev st11 (V : Valuation τ sig (Elt F)) : Valuation τ sig (Elt F) := after ops11 (st10 V)
/-- The references `ops0 … ops11` write. -/
abbrev Ws11 : List (Ref sig .tc) := Ws10 ++ W11
theorem st11_kept : ∀ r : Ref sig .tc, r ∉ Ws11 → ∀ V : Valuation τ sig (Elt F), st11 V (Proc.devRef .tc r) = V (Proc.devRef .tc r) := fun r hr V =>
  (ops11_kept r (fun h => hr (List.mem_append_right _ h)) _).trans (st10_kept r (fun h => hr (List.mem_append_left _ h)) V)
theorem after_ops_st11 (V : Valuation τ sig (Elt F)) : after ops V = after tl12 (st11 V) := by rw [after_ops_st10, after_tl11]
/-- The contents after `ops0 … ops12`, from `V`. -/
abbrev st12 (V : Valuation τ sig (Elt F)) : Valuation τ sig (Elt F) := after ops12 (st11 V)
/-- The references `ops0 … ops12` write. -/
abbrev Ws12 : List (Ref sig .tc) := Ws11 ++ W12
theorem st12_kept : ∀ r : Ref sig .tc, r ∉ Ws12 → ∀ V : Valuation τ sig (Elt F), st12 V (Proc.devRef .tc r) = V (Proc.devRef .tc r) := fun r hr V =>
  (ops12_kept r (fun h => hr (List.mem_append_right _ h)) _).trans (st11_kept r (fun h => hr (List.mem_append_left _ h)) V)
theorem after_ops_st12 (V : Valuation τ sig (Elt F)) : after ops V = after tl13 (st12 V) := by rw [after_ops_st11, after_tl12]
/-- The contents after `ops0 … ops13`, from `V`. -/
abbrev st13 (V : Valuation τ sig (Elt F)) : Valuation τ sig (Elt F) := after ops13 (st12 V)
/-- The references `ops0 … ops13` write. -/
abbrev Ws13 : List (Ref sig .tc) := Ws12 ++ W13
theorem st13_kept : ∀ r : Ref sig .tc, r ∉ Ws13 → ∀ V : Valuation τ sig (Elt F), st13 V (Proc.devRef .tc r) = V (Proc.devRef .tc r) := fun r hr V =>
  (ops13_kept r (fun h => hr (List.mem_append_right _ h)) _).trans (st12_kept r (fun h => hr (List.mem_append_left _ h)) V)
theorem after_ops_st13 (V : Valuation τ sig (Elt F)) : after ops V = after tl14 (st13 V) := by rw [after_ops_st12, after_tl13]
/-- The contents after `ops0 … ops14`, from `V`. -/
abbrev st14 (V : Valuation τ sig (Elt F)) : Valuation τ sig (Elt F) := after ops14 (st13 V)
/-- The references `ops0 … ops14` write. -/
abbrev Ws14 : List (Ref sig .tc) := Ws13 ++ W14
theorem st14_kept : ∀ r : Ref sig .tc, r ∉ Ws14 → ∀ V : Valuation τ sig (Elt F), st14 V (Proc.devRef .tc r) = V (Proc.devRef .tc r) := fun r hr V =>
  (ops14_kept r (fun h => hr (List.mem_append_right _ h)) _).trans (st13_kept r (fun h => hr (List.mem_append_left _ h)) V)
theorem after_ops_st14 (V : Valuation τ sig (Elt F)) : after ops V = after tl15 (st14 V) := by rw [after_ops_st13, after_tl14]
/-- The contents after `ops0 … ops15`, from `V`. -/
abbrev st15 (V : Valuation τ sig (Elt F)) : Valuation τ sig (Elt F) := after ops15 (st14 V)
/-- The references `ops0 … ops15` write. -/
abbrev Ws15 : List (Ref sig .tc) := Ws14 ++ W15
theorem st15_kept : ∀ r : Ref sig .tc, r ∉ Ws15 → ∀ V : Valuation τ sig (Elt F), st15 V (Proc.devRef .tc r) = V (Proc.devRef .tc r) := fun r hr V =>
  (ops15_kept r (fun h => hr (List.mem_append_right _ h)) _).trans (st14_kept r (fun h => hr (List.mem_append_left _ h)) V)
theorem after_ops_st15 (V : Valuation τ sig (Elt F)) : after ops V = after tl16 (st15 V) := by rw [after_ops_st14, after_tl15]
/-- The contents after `ops0 … ops16`, from `V`. -/
abbrev st16 (V : Valuation τ sig (Elt F)) : Valuation τ sig (Elt F) := after ops16 (st15 V)
/-- The references `ops0 … ops16` write. -/
abbrev Ws16 : List (Ref sig .tc) := Ws15 ++ W16
theorem st16_kept : ∀ r : Ref sig .tc, r ∉ Ws16 → ∀ V : Valuation τ sig (Elt F), st16 V (Proc.devRef .tc r) = V (Proc.devRef .tc r) := fun r hr V =>
  (ops16_kept r (fun h => hr (List.mem_append_right _ h)) _).trans (st15_kept r (fun h => hr (List.mem_append_left _ h)) V)
theorem after_ops_st16 (V : Valuation τ sig (Elt F)) : after ops V = after tl17 (st16 V) := by rw [after_ops_st15, after_tl16]
/-- The contents after `ops0 … ops17`, from `V`. -/
abbrev st17 (V : Valuation τ sig (Elt F)) : Valuation τ sig (Elt F) := after ops17 (st16 V)
/-- The references `ops0 … ops17` write. -/
abbrev Ws17 : List (Ref sig .tc) := Ws16 ++ W17
theorem st17_kept : ∀ r : Ref sig .tc, r ∉ Ws17 → ∀ V : Valuation τ sig (Elt F), st17 V (Proc.devRef .tc r) = V (Proc.devRef .tc r) := fun r hr V =>
  (ops17_kept r (fun h => hr (List.mem_append_right _ h)) _).trans (st16_kept r (fun h => hr (List.mem_append_left _ h)) V)
theorem after_ops_st17 (V : Valuation τ sig (Elt F)) : after ops V = st17 V := by rw [after_ops_st16]

/-- Window 0 of @main is the chain of its stretches, ending in the last. -/
theorem main_part0_chain (c : Dev nD) : main_part0 (F := F) c = (Pipeline.chainK
  [  ]
  (seq ops0) : Prog (TpuEff nD τ sig (Elt F) (Pipeline.Sig Λ₀ (Fin 0) fun p => (pcfgs (F := F) p).Adm) .tc) PUnit) := by
  chain_rfl

/-- Window 1 of @main is the chain of its stretches, ending in the last. -/
theorem main_part1_chain (c : Dev nD) : main_part1 (F := F) c = (Pipeline.chainK
  [ seq ops1,
    seq ops2,
    seq ops3,
    seq ops4 ]
  (seq ops5) : Prog (TpuEff nD τ sig (Elt F) (Pipeline.Sig Λ₀ (Fin 0) fun p => (pcfgs (F := F) p).Adm) .tc) PUnit) := by
  chain_rfl

/-- Window 2 of @main is the chain of its stretches, ending in the last. -/
theorem main_part2_chain (c : Dev nD) : main_part2 (F := F) c = (Pipeline.chainK
  [ seq ops6,
    seq ops7,
    seq ops8,
    seq ops9,
    seq ops10,
    seq ops11,
    seq ops12 ]
  (seq ops13) : Prog (TpuEff nD τ sig (Elt F) (Pipeline.Sig Λ₀ (Fin 0) fun p => (pcfgs (F := F) p).Adm) .tc) PUnit) := by
  chain_rfl

/-- The last window of @main is the chain of its stretches. -/
theorem main_part3_chain (c : Dev nD) : main_part3 (F := F) c = (Pipeline.chain
  [ seq ops14,
    seq ops15,
    seq ops16,
    seq ops17 ] : Prog (TpuEff nD τ sig (Elt F) (Pipeline.Sig Λ₀ (Fin 0) fun p => (pcfgs (F := F) p).Adm) .tc) PUnit) := by
  chain_rfl

/-- @main is the chain of its stretches. -/
theorem main_chain (c : Dev nD) : main (F := F) c = (Pipeline.chain
  [ seq ops0,
    seq ops1,
    seq ops2,
    seq ops3,
    seq ops4,
    seq ops5,
    seq ops6,
    seq ops7,
    seq ops8,
    seq ops9,
    seq ops10,
    seq ops11,
    seq ops12,
    seq ops13,
    seq ops14,
    seq ops15,
    seq ops16,
    seq ops17 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  rfl

/-- @main is the run of its list of operations. -/
theorem main_eq (c : Dev nD) : main (F := F) c = seq ops :=
  (main_chain c).trans (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_cons _ _ _ (chain_seq_one _))))))))))))))))))

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig := tl0_sub

/-- Each operation determines its results. -/
theorem ops_fresh : (ops : List (HloOp τ sig (Elt F))).Forall fun op => op.fresh = ∅ := tl0_fresh

/-- A reference no operation writes keeps its contents through @main. -/
theorem ops_kept : ∀ r : Ref sig .tc, r ∉ W → ∀ V : Valuation τ sig (Elt F), after ops V (Proc.devRef .tc r) = V (Proc.devRef .tc r) := tl0_kept

/-- On every device, for any float values, from any memory with zero counters: every weakly fair execution of
    @main terminates with each buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.1 ops_fresh)

/-! ## No operation writes an argument -/

theorem arg0_kept (V : Valuation τ sig (Elt F)) : after ops V (Proc.devRef .tc main_arg0) = V (Proc.devRef .tc main_arg0) := ops_kept main_arg0 (by decide) V
theorem arg1_kept (V : Valuation τ sig (Elt F)) : after ops V (Proc.devRef .tc main_arg1) = V (Proc.devRef .tc main_arg1) := ops_kept main_arg1 (by decide) V
theorem arg2_kept (V : Valuation τ sig (Elt F)) : after ops V (Proc.devRef .tc main_arg2) = V (Proc.devRef .tc main_arg2) := ops_kept main_arg2 (by decide) V
theorem arg3_kept (V : Valuation τ sig (Elt F)) : after ops V (Proc.devRef .tc main_arg3) = V (Proc.devRef .tc main_arg3) := ops_kept main_arg3 (by decide) V
theorem arg4_kept (V : Valuation τ sig (Elt F)) : after ops V (Proc.devRef .tc main_arg4) = V (Proc.devRef .tc main_arg4) := ops_kept main_arg4 (by decide) V
theorem arg5_kept (V : Valuation τ sig (Elt F)) : after ops V (Proc.devRef .tc main_arg5) = V (Proc.devRef .tc main_arg5) := ops_kept main_arg5 (by decide) V
theorem arg6_kept (V : Valuation τ sig (Elt F)) : after ops V (Proc.devRef .tc main_arg6) = V (Proc.devRef .tc main_arg6) := ops_kept main_arg6 (by decide) V
theorem arg7_kept (V : Valuation τ sig (Elt F)) : after ops V (Proc.devRef .tc main_arg7) = V (Proc.devRef .tc main_arg7) := ops_kept main_arg7 (by decide) V
theorem arg8_kept (V : Valuation τ sig (Elt F)) : after ops V (Proc.devRef .tc main_arg8) = V (Proc.devRef .tc main_arg8) := ops_kept main_arg8 (by decide) V
theorem arg9_kept (V : Valuation τ sig (Elt F)) : after ops V (Proc.devRef .tc main_arg9) = V (Proc.devRef .tc main_arg9) := ops_kept main_arg9 (by decide) V
theorem arg10_kept (V : Valuation τ sig (Elt F)) : after ops V (Proc.devRef .tc main_arg10) = V (Proc.devRef .tc main_arg10) := ops_kept main_arg10 (by decide) V
theorem arg11_kept (V : Valuation τ sig (Elt F)) : after ops V (Proc.devRef .tc main_arg11) = V (Proc.devRef .tc main_arg11) := ops_kept main_arg11 (by decide) V
theorem arg12_kept (V : Valuation τ sig (Elt F)) : after ops V (Proc.devRef .tc main_arg12) = V (Proc.devRef .tc main_arg12) := ops_kept main_arg12 (by decide) V
theorem arg13_kept (V : Valuation τ sig (Elt F)) : after ops V (Proc.devRef .tc main_arg13) = V (Proc.devRef .tc main_arg13) := ops_kept main_arg13 (by decide) V
theorem arg14_kept (V : Valuation τ sig (Elt F)) : after ops V (Proc.devRef .tc main_arg14) = V (Proc.devRef .tc main_arg14) := ops_kept main_arg14 (by decide) V
theorem arg15_kept (V : Valuation τ sig (Elt F)) : after ops V (Proc.devRef .tc main_arg15) = V (Proc.devRef .tc main_arg15) := ops_kept main_arg15 (by decide) V
theorem arg16_kept (V : Valuation τ sig (Elt F)) : after ops V (Proc.devRef .tc main_arg16) = V (Proc.devRef .tc main_arg16) := ops_kept main_arg16 (by decide) V
theorem arg17_kept (V : Valuation τ sig (Elt F)) : after ops V (Proc.devRef .tc main_arg17) = V (Proc.devRef .tc main_arg17) := ops_kept main_arg17 (by decide) V
theorem arg18_kept (V : Valuation τ sig (Elt F)) : after ops V (Proc.devRef .tc main_arg18) = V (Proc.devRef .tc main_arg18) := ops_kept main_arg18 (by decide) V
theorem arg19_kept (V : Valuation τ sig (Elt F)) : after ops V (Proc.devRef .tc main_arg19) = V (Proc.devRef .tc main_arg19) := ops_kept main_arg19 (by decide) V
theorem arg20_kept (V : Valuation τ sig (Elt F)) : after ops V (Proc.devRef .tc main_arg20) = V (Proc.devRef .tc main_arg20) := ops_kept main_arg20 (by decide) V
theorem arg21_kept (V : Valuation τ sig (Elt F)) : after ops V (Proc.devRef .tc main_arg21) = V (Proc.devRef .tc main_arg21) := ops_kept main_arg21 (by decide) V

end Cert.ReferenceIdeal.RefRun

end
-- ==== Proof.HostChain.lean ====
import proofs.«172694_j54030688584372_2_alg».proof.Proof.RefRun
import proofs.«172694_j54030688584372_2_alg».proof.Proof.Gen.KernelIdeal.Regions
import Idealize.ShloMosaic.PureOps.Ideal

set_option maxRecDepth 1604

noncomputable section

namespace Cert.Proof.HostChain

open Idealize.ShloMosaic Idealize.ShloMosaic.TcCoe Idealize.SL.Sem Idealize.ShloMosaic.StableHlo
open Cert.ReferenceIdeal.RefRun

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-! Both programs apply the same host operations to the arguments: the reference's buffers `main_v128`, `main_v132`
(the two dense heads of the second graph layer) and `main_v163` (the input of the last dense chain) hold what the
kernel program's `main_v110`, `main_v114`, `main_v139` hold, and the reference's two remaining results are one named
function each of those. The kernel program computes the edge coefficient once and the reference once per graph
layer: as compositions of the arguments the buffers' contents are the same terms. -/

/-- The two launch memories agree on the arguments, on device `c`. -/
abbrev Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

/-! ## The reference's last operations as two functions -/

section Fns
open Cert.ReferenceIdeal Cert.ReferenceIdeal.Gen

/-- The operations producing `main_v133 … main_v140` from `main_v128`: one over one plus the exponential of minus z·zᵀ. -/
def adjHost (z : FVec Ideal S12288x64 .f32) : FVec Ideal S12288x12288 .f32 :=
  Host.divf (broadcastInDim S12288x12288 ![] bcast_S_S12288x12288 (constant S_ .f32 0x3F800000#32))
    (addf (broadcastInDim S12288x12288 ![] bcast_S_S12288x12288 (constant S_ .f32 0x3F800000#32))
      (Host.exp (Host.negf (Host.dotGeneral dot_S12288x64_S64x12288_S12288x12288_1_0_0_1_n_n none z
        (transpose S64x12288 [1, 0] z transposes_S12288x64_S64x12288_1_0)))))

/-- The operations producing `main_v164 … main_v172` from `main_v163` and the last four arguments: two dense layers,
    the first clamped below at a broadcast zero. -/
def mlpHost (x : FVec Ideal S12288x128 .f32) (W1 : FVec Ideal S128x512 .f32) (b1 : FVec Ideal S512 .f32)
    (W2 : FVec Ideal S512x256 .f32) (b2 : FVec Ideal S256 .f32) : FVec Ideal S12288x256 .f32 :=
  addf
    (Host.dotGeneral dot_S12288x512_S512x256_S12288x256_1_0_0_1_n_n none
      (maximumf
        (addf (Host.dotGeneral dot_S12288x128_S128x512_S12288x512_1_0_0_1_n_n none x W1)
          (broadcastInDim S12288x512 ![0, 1] bcast_S1x512_S12288x512_0_1 (broadcastInDim S1x512 ![1] bcast_S512_S1x512_1 b1)))
        (broadcastInDim S12288x512 ![] bcast_S_S12288x512 (constant S_ .f32 0x00000000#32)))
      W2)
    (broadcastInDim S12288x256 ![0, 1] bcast_S1x256_S12288x256_0_1 (broadcastInDim S1x256 ![1] bcast_S256_S1x256_1 b2))

/-- From any contents, the stretch after `main_v132` leaves `main_v140` at `adjHost` of `main_v128`. -/
theorem adj_stage (Rg : Valuation Cert.ReferenceIdeal.τ Cert.ReferenceIdeal.sig (Elt Ideal)) :
    after (ops11 (F := Ideal)) Rg (Proc.devRef .tc Cert.ReferenceIdeal.main_v140) = adjHost (Rg (Proc.devRef .tc Cert.ReferenceIdeal.main_v128)) := by
  after_results_simp
  rfl

/-- From any contents, the last three stretches leave `main_v172` at `mlpHost` of `main_v163` and the last four arguments. -/
theorem xrec_stage (Rg : Valuation Cert.ReferenceIdeal.τ Cert.ReferenceIdeal.sig (Elt Ideal)) :
    after (ops17 (F := Ideal)) (after (ops16 (F := Ideal)) (after (ops15 (F := Ideal)) Rg)) (Proc.devRef .tc Cert.ReferenceIdeal.main_v172)
      = mlpHost (Rg (Proc.devRef .tc Cert.ReferenceIdeal.main_v163)) (Rg (Proc.devRef .tc Cert.ReferenceIdeal.main_arg18)) (Rg (Proc.devRef .tc Cert.ReferenceIdeal.main_arg19)) (Rg (Proc.devRef .tc Cert.ReferenceIdeal.main_arg20)) (Rg (Proc.devRef .tc Cert.ReferenceIdeal.main_arg21)) := by
  after_results_simp
  rfl

end Fns

/-! ## Stages from any contents that agree on what the stage reads -/

/-- The two dense heads: from contents agreeing on the second layer's output and on arguments 10 … 13. -/
theorem heads_stage (Rg : Valuation Cert.ReferenceIdeal.τ Cert.ReferenceIdeal.sig (Elt Ideal)) (Kg : Valuation Cert.KernelIdeal.τ Cert.KernelIdeal.sig (Elt Ideal))
    (hx : Rg (Proc.devRef .tc Cert.ReferenceIdeal.main_v124) = Kg (Proc.devRef .tc Cert.KernelIdeal.main_v106))
    (h10 : Rg (Proc.devRef .tc Cert.ReferenceIdeal.main_arg10) = Kg (Proc.devRef .tc Cert.KernelIdeal.main_arg10))
    (h11 : Rg (Proc.devRef .tc Cert.ReferenceIdeal.main_arg11) = Kg (Proc.devRef .tc Cert.KernelIdeal.main_arg11))
    (h12 : Rg (Proc.devRef .tc Cert.ReferenceIdeal.main_arg12) = Kg (Proc.devRef .tc Cert.KernelIdeal.main_arg12))
    (h13 : Rg (Proc.devRef .tc Cert.ReferenceIdeal.main_arg13) = Kg (Proc.devRef .tc Cert.KernelIdeal.main_arg13)) :
    after (ops10 (F := Ideal)) Rg (Proc.devRef .tc Cert.ReferenceIdeal.main_v128) = after (Cert.KernelIdeal.Gen.hostOps0_8 (F := Ideal)) Kg (Proc.devRef .tc Cert.KernelIdeal.main_v110)
    ∧ after (ops10 (F := Ideal)) Rg (Proc.devRef .tc Cert.ReferenceIdeal.main_v132) = after (Cert.KernelIdeal.Gen.hostOps0_8 (F := Ideal)) Kg (Proc.devRef .tc Cert.KernelIdeal.main_v114) := by
  constructor
  · after_results_simp
    rw [hx, h10, h11]
    rfl
  · after_results_simp
    rw [hx, h12, h13]
    rfl

/-- The normalised dense layer after the first head: from contents agreeing on `main_v128` / `main_v110` and on arguments 14 … 17. -/
theorem zp_stage (Rg : Valuation Cert.ReferenceIdeal.τ Cert.ReferenceIdeal.sig (Elt Ideal)) (Kg : Valuation Cert.KernelIdeal.τ Cert.KernelIdeal.sig (Elt Ideal))
    (hx : Rg (Proc.devRef .tc Cert.ReferenceIdeal.main_v128) = Kg (Proc.devRef .tc Cert.KernelIdeal.main_v110))
    (h14 : Rg (Proc.devRef .tc Cert.ReferenceIdeal.main_arg14) = Kg (Proc.devRef .tc Cert.KernelIdeal.main_arg14))
    (h15 : Rg (Proc.devRef .tc Cert.ReferenceIdeal.main_arg15) = Kg (Proc.devRef .tc Cert.KernelIdeal.main_arg15))
    (h16 : Rg (Proc.devRef .tc Cert.ReferenceIdeal.main_arg16) = Kg (Proc.devRef .tc Cert.KernelIdeal.main_arg16))
    (h17 : Rg (Proc.devRef .tc Cert.ReferenceIdeal.main_arg17) = Kg (Proc.devRef .tc Cert.KernelIdeal.main_arg17)) :
    after (ops14 (F := Ideal)) (after (ops13 (F := Ideal)) (after (ops12 (F := Ideal)) (after (ops11 (F := Ideal)) Rg))) (Proc.devRef .tc Cert.ReferenceIdeal.main_v163)
      = after (Cert.KernelIdeal.Gen.hostOps1_2 (F := Ideal)) (after (Cert.KernelIdeal.Gen.hostOps1_1 (F := Ideal)) (after (Cert.KernelIdeal.Gen.hostOps1 (F := Ideal)) Kg)) (Proc.devRef .tc Cert.KernelIdeal.main_v139) := by
  after_results_simp
  simp only [hx, h14, h15, h16, h17]
  rfl

/-! ## The two programs, from launch memories agreeing on the arguments -/

set_option maxHeartbeats 40000000 in
/-- The second graph layer's output: the reference's `main_v124` after its first ten stretches is the kernel program's
    `main_v106` after its first eight — both the same composition of arguments 0 … 9. -/
theorem x2_core (hagree : Agree m m' c) :
    Cert.ReferenceIdeal.RefRun.st9 (F := Ideal) (launchContents m' c) (Proc.devRef .tc Cert.ReferenceIdeal.main_v124) = Cert.KernelIdeal.Gen.V8 m c (Proc.devRef .tc Cert.KernelIdeal.main_v106) := by
  obtain ⟨h0, h1, h2, h3, h4, h5, h6, h7, h8, h9, -, -, -, -, -, -, -, -, -, -, -, -⟩ := hagree
  after_results_simp
  simp only [launchContents] at *
  rw [h0, h1, h2, h3, h4, h5, h6, h7, h8, h9]
  rfl

/-- The two dense heads after the first eleven stretches / the first nine. -/
theorem heads_core (hagree : Agree m m' c) :
    Cert.ReferenceIdeal.RefRun.st10 (F := Ideal) (launchContents m' c) (Proc.devRef .tc Cert.ReferenceIdeal.main_v128) = Cert.KernelIdeal.Gen.V9 m c (Proc.devRef .tc Cert.KernelIdeal.main_v110)
    ∧ Cert.ReferenceIdeal.RefRun.st10 (F := Ideal) (launchContents m' c) (Proc.devRef .tc Cert.ReferenceIdeal.main_v132) = Cert.KernelIdeal.Gen.V9 m c (Proc.devRef .tc Cert.KernelIdeal.main_v114) := by
  have hx := x2_core m m' c hagree
  obtain ⟨-, -, -, -, -, -, -, -, -, -, h10, h11, h12, h13, -, -, -, -, -, -, -, -⟩ := hagree
  exact heads_stage _ _ hx
    (((Cert.ReferenceIdeal.RefRun.st9_kept Cert.ReferenceIdeal.main_arg10 (by decide) (launchContents m' c)).trans h10).trans ((Cert.KernelIdeal.Gen.V8_of m c Cert.KernelIdeal.main_arg10 (by decide)).trans ((Cert.KernelIdeal.Gen.V7_of m c Cert.KernelIdeal.main_arg10 (by decide)).trans ((Cert.KernelIdeal.Gen.V6_of m c Cert.KernelIdeal.main_arg10 (by decide)).trans ((Cert.KernelIdeal.Gen.V5_of m c Cert.KernelIdeal.main_arg10 (by decide)).trans ((Cert.KernelIdeal.Gen.V4_of m c Cert.KernelIdeal.main_arg10 (by decide)).trans ((Cert.KernelIdeal.Gen.V3_of m c Cert.KernelIdeal.main_arg10 (by decide)).trans ((Cert.KernelIdeal.Gen.V2_of m c Cert.KernelIdeal.main_arg10 (by decide)).trans ((Cert.KernelIdeal.Gen.V1_of m c Cert.KernelIdeal.main_arg10 (by decide)).trans (rfl))))))))).symm)
    (((Cert.ReferenceIdeal.RefRun.st9_kept Cert.ReferenceIdeal.main_arg11 (by decide) (launchContents m' c)).trans h11).trans ((Cert.KernelIdeal.Gen.V8_of m c Cert.KernelIdeal.main_arg11 (by decide)).trans ((Cert.KernelIdeal.Gen.V7_of m c Cert.KernelIdeal.main_arg11 (by decide)).trans ((Cert.KernelIdeal.Gen.V6_of m c Cert.KernelIdeal.main_arg11 (by decide)).trans ((Cert.KernelIdeal.Gen.V5_of m c Cert.KernelIdeal.main_arg11 (by decide)).trans ((Cert.KernelIdeal.Gen.V4_of m c Cert.KernelIdeal.main_arg11 (by decide)).trans ((Cert.KernelIdeal.Gen.V3_of m c Cert.KernelIdeal.main_arg11 (by decide)).trans ((Cert.KernelIdeal.Gen.V2_of m c Cert.KernelIdeal.main_arg11 (by decide)).trans ((Cert.KernelIdeal.Gen.V1_of m c Cert.KernelIdeal.main_arg11 (by decide)).trans (rfl))))))))).symm)
    (((Cert.ReferenceIdeal.RefRun.st9_kept Cert.ReferenceIdeal.main_arg12 (by decide) (launchContents m' c)).trans h12).trans ((Cert.KernelIdeal.Gen.V8_of m c Cert.KernelIdeal.main_arg12 (by decide)).trans ((Cert.KernelIdeal.Gen.V7_of m c Cert.KernelIdeal.main_arg12 (by decide)).trans ((Cert.KernelIdeal.Gen.V6_of m c Cert.KernelIdeal.main_arg12 (by decide)).trans ((Cert.KernelIdeal.Gen.V5_of m c Cert.KernelIdeal.main_arg12 (by decide)).trans ((Cert.KernelIdeal.Gen.V4_of m c Cert.KernelIdeal.main_arg12 (by decide)).trans ((Cert.KernelIdeal.Gen.V3_of m c Cert.KernelIdeal.main_arg12 (by decide)).trans ((Cert.KernelIdeal.Gen.V2_of m c Cert.KernelIdeal.main_arg12 (by decide)).trans ((Cert.KernelIdeal.Gen.V1_of m c Cert.KernelIdeal.main_arg12 (by decide)).trans (rfl))))))))).symm)
    (((Cert.ReferenceIdeal.RefRun.st9_kept Cert.ReferenceIdeal.main_arg13 (by decide) (launchContents m' c)).trans h13).trans ((Cert.KernelIdeal.Gen.V8_of m c Cert.KernelIdeal.main_arg13 (by decide)).trans ((Cert.KernelIdeal.Gen.V7_of m c Cert.KernelIdeal.main_arg13 (by decide)).trans ((Cert.KernelIdeal.Gen.V6_of m c Cert.KernelIdeal.main_arg13 (by decide)).trans ((Cert.KernelIdeal.Gen.V5_of m c Cert.KernelIdeal.main_arg13 (by decide)).trans ((Cert.KernelIdeal.Gen.V4_of m c Cert.KernelIdeal.main_arg13 (by decide)).trans ((Cert.KernelIdeal.Gen.V3_of m c Cert.KernelIdeal.main_arg13 (by decide)).trans ((Cert.KernelIdeal.Gen.V2_of m c Cert.KernelIdeal.main_arg13 (by decide)).trans ((Cert.KernelIdeal.Gen.V1_of m c Cert.KernelIdeal.main_arg13 (by decide)).trans (rfl))))))))).symm)

/-- `mu`: the reference's `main_v128` at the end is the kernel program's `main_v110` before its first region. -/
theorem mu_eq (hagree : Agree m m' c) :
    after (Cert.ReferenceIdeal.RefRun.ops (F := Ideal)) (launchContents m' c) (Proc.devRef .tc Cert.ReferenceIdeal.main_v128) = Cert.KernelIdeal.Gen.V9 m c (Proc.devRef .tc Cert.KernelIdeal.main_v110) := by
  rw [Cert.ReferenceIdeal.RefRun.after_ops_st10, Cert.ReferenceIdeal.RefRun.tl11_kept Cert.ReferenceIdeal.main_v128 (by decide)]
  exact (heads_core m m' c hagree).1

/-- `logvar`: the reference's `main_v132` at the end is the kernel program's `main_v114` before its first region. -/
theorem logvar_eq (hagree : Agree m m' c) :
    after (Cert.ReferenceIdeal.RefRun.ops (F := Ideal)) (launchContents m' c) (Proc.devRef .tc Cert.ReferenceIdeal.main_v132) = Cert.KernelIdeal.Gen.V9 m c (Proc.devRef .tc Cert.KernelIdeal.main_v114) := by
  rw [Cert.ReferenceIdeal.RefRun.after_ops_st10, Cert.ReferenceIdeal.RefRun.tl11_kept Cert.ReferenceIdeal.main_v132 (by decide)]
  exact (heads_core m m' c hagree).2

/-- The input of the last dense chain: the reference's `main_v163` at the end is the kernel program's `main_v139`
    before its second region, whatever the first region left in its output array. -/
theorem zp_eq (outs : Cert.KernelIdeal.Gen.Outs (F := Ideal)) (hagree : Agree m m' c) :
    after (Cert.ReferenceIdeal.RefRun.ops (F := Ideal)) (launchContents m' c) (Proc.devRef .tc Cert.ReferenceIdeal.main_v163) = Cert.KernelIdeal.Gen.V13 m outs c (Proc.devRef .tc Cert.KernelIdeal.main_v139) := by
  rw [Cert.ReferenceIdeal.RefRun.after_ops_st10, Cert.ReferenceIdeal.RefRun.after_tl11, Cert.ReferenceIdeal.RefRun.after_tl12, Cert.ReferenceIdeal.RefRun.after_tl13, Cert.ReferenceIdeal.RefRun.after_tl14,
    Cert.ReferenceIdeal.RefRun.tl15_kept Cert.ReferenceIdeal.main_v163 (by decide)]
  have hx := (heads_core m m' c hagree).1
  obtain ⟨-, -, -, -, -, -, -, -, -, -, -, -, -, -, h14, h15, h16, h17, -, -, -, -⟩ := hagree
  exact zp_stage _ _ (hx.trans (Cert.KernelIdeal.Gen.V10_of m outs c Cert.KernelIdeal.main_v110 (by decide)).symm)
    (((Cert.ReferenceIdeal.RefRun.st10_kept Cert.ReferenceIdeal.main_arg14 (by decide) (launchContents m' c)).trans h14).trans ((Cert.KernelIdeal.Gen.V10_of m outs c Cert.KernelIdeal.main_arg14 (by decide)).trans ((Cert.KernelIdeal.Gen.V9_of m c Cert.KernelIdeal.main_arg14 (by decide)).trans ((Cert.KernelIdeal.Gen.V8_of m c Cert.KernelIdeal.main_arg14 (by decide)).trans ((Cert.KernelIdeal.Gen.V7_of m c Cert.KernelIdeal.main_arg14 (by decide)).trans ((Cert.KernelIdeal.Gen.V6_of m c Cert.KernelIdeal.main_arg14 (by decide)).trans ((Cert.KernelIdeal.Gen.V5_of m c Cert.KernelIdeal.main_arg14 (by decide)).trans ((Cert.KernelIdeal.Gen.V4_of m c Cert.KernelIdeal.main_arg14 (by decide)).trans ((Cert.KernelIdeal.Gen.V3_of m c Cert.KernelIdeal.main_arg14 (by decide)).trans ((Cert.KernelIdeal.Gen.V2_of m c Cert.KernelIdeal.main_arg14 (by decide)).trans ((Cert.KernelIdeal.Gen.V1_of m c Cert.KernelIdeal.main_arg14 (by decide)).trans (rfl))))))))))).symm)
    (((Cert.ReferenceIdeal.RefRun.st10_kept Cert.ReferenceIdeal.main_arg15 (by decide) (launchContents m' c)).trans h15).trans ((Cert.KernelIdeal.Gen.V10_of m outs c Cert.KernelIdeal.main_arg15 (by decide)).trans ((Cert.KernelIdeal.Gen.V9_of m c Cert.KernelIdeal.main_arg15 (by decide)).trans ((Cert.KernelIdeal.Gen.V8_of m c Cert.KernelIdeal.main_arg15 (by decide)).trans ((Cert.KernelIdeal.Gen.V7_of m c Cert.KernelIdeal.main_arg15 (by decide)).trans ((Cert.KernelIdeal.Gen.V6_of m c Cert.KernelIdeal.main_arg15 (by decide)).trans ((Cert.KernelIdeal.Gen.V5_of m c Cert.KernelIdeal.main_arg15 (by decide)).trans ((Cert.KernelIdeal.Gen.V4_of m c Cert.KernelIdeal.main_arg15 (by decide)).trans ((Cert.KernelIdeal.Gen.V3_of m c Cert.KernelIdeal.main_arg15 (by decide)).trans ((Cert.KernelIdeal.Gen.V2_of m c Cert.KernelIdeal.main_arg15 (by decide)).trans ((Cert.KernelIdeal.Gen.V1_of m c Cert.KernelIdeal.main_arg15 (by decide)).trans (rfl))))))))))).symm)
    (((Cert.ReferenceIdeal.RefRun.st10_kept Cert.ReferenceIdeal.main_arg16 (by decide) (launchContents m' c)).trans h16).trans ((Cert.KernelIdeal.Gen.V10_of m outs c Cert.KernelIdeal.main_arg16 (by decide)).trans ((Cert.KernelIdeal.Gen.V9_of m c Cert.KernelIdeal.main_arg16 (by decide)).trans ((Cert.KernelIdeal.Gen.V8_of m c Cert.KernelIdeal.main_arg16 (by decide)).trans ((Cert.KernelIdeal.Gen.V7_of m c Cert.KernelIdeal.main_arg16 (by decide)).trans ((Cert.KernelIdeal.Gen.V6_of m c Cert.KernelIdeal.main_arg16 (by decide)).trans ((Cert.KernelIdeal.Gen.V5_of m c Cert.KernelIdeal.main_arg16 (by decide)).trans ((Cert.KernelIdeal.Gen.V4_of m c Cert.KernelIdeal.main_arg16 (by decide)).trans ((Cert.KernelIdeal.Gen.V3_of m c Cert.KernelIdeal.main_arg16 (by decide)).trans ((Cert.KernelIdeal.Gen.V2_of m c Cert.KernelIdeal.main_arg16 (by decide)).trans ((Cert.KernelIdeal.Gen.V1_of m c Cert.KernelIdeal.main_arg16 (by decide)).trans (rfl))))))))))).symm)
    (((Cert.ReferenceIdeal.RefRun.st10_kept Cert.ReferenceIdeal.main_arg17 (by decide) (launchContents m' c)).trans h17).trans ((Cert.KernelIdeal.Gen.V10_of m outs c Cert.KernelIdeal.main_arg17 (by decide)).trans ((Cert.KernelIdeal.Gen.V9_of m c Cert.KernelIdeal.main_arg17 (by decide)).trans ((Cert.KernelIdeal.Gen.V8_of m c Cert.KernelIdeal.main_arg17 (by decide)).trans ((Cert.KernelIdeal.Gen.V7_of m c Cert.KernelIdeal.main_arg17 (by decide)).trans ((Cert.KernelIdeal.Gen.V6_of m c Cert.KernelIdeal.main_arg17 (by decide)).trans ((Cert.KernelIdeal.Gen.V5_of m c Cert.KernelIdeal.main_arg17 (by decide)).trans ((Cert.KernelIdeal.Gen.V4_of m c Cert.KernelIdeal.main_arg17 (by decide)).trans ((Cert.KernelIdeal.Gen.V3_of m c Cert.KernelIdeal.main_arg17 (by decide)).trans ((Cert.KernelIdeal.Gen.V2_of m c Cert.KernelIdeal.main_arg17 (by decide)).trans ((Cert.KernelIdeal.Gen.V1_of m c Cert.KernelIdeal.main_arg17 (by decide)).trans (rfl))))))))))).symm)

/-- The reference's first result is `adjHost` of its `main_v128`. -/
theorem adj_ref :
    after (Cert.ReferenceIdeal.RefRun.ops (F := Ideal)) (launchContents m' c) (Proc.devRef .tc Cert.ReferenceIdeal.main_v140) = adjHost (after (Cert.ReferenceIdeal.RefRun.ops (F := Ideal)) (launchContents m' c) (Proc.devRef .tc Cert.ReferenceIdeal.main_v128)) := by
  rw [Cert.ReferenceIdeal.RefRun.after_ops_st10, Cert.ReferenceIdeal.RefRun.after_tl11, Cert.ReferenceIdeal.RefRun.tl12_kept Cert.ReferenceIdeal.main_v140 (by decide),
    Cert.ReferenceIdeal.RefRun.tl12_kept Cert.ReferenceIdeal.main_v128 (by decide), Cert.ReferenceIdeal.RefRun.ops11_kept Cert.ReferenceIdeal.main_v128 (by decide)]
  exact adj_stage _

/-- The reference's second result is `mlpHost` of its `main_v163` and the last four arguments. -/
theorem xrec_ref :
    after (Cert.ReferenceIdeal.RefRun.ops (F := Ideal)) (launchContents m' c) (Proc.devRef .tc Cert.ReferenceIdeal.main_v172)
      = mlpHost (after (Cert.ReferenceIdeal.RefRun.ops (F := Ideal)) (launchContents m' c) (Proc.devRef .tc Cert.ReferenceIdeal.main_v163)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) := by
  rw [Cert.ReferenceIdeal.RefRun.after_ops_st14, Cert.ReferenceIdeal.RefRun.after_tl15, Cert.ReferenceIdeal.RefRun.after_tl16,
    Cert.ReferenceIdeal.RefRun.tl17_kept Cert.ReferenceIdeal.main_v163 (by decide), Cert.ReferenceIdeal.RefRun.ops16_kept Cert.ReferenceIdeal.main_v163 (by decide), Cert.ReferenceIdeal.RefRun.ops15_kept Cert.ReferenceIdeal.main_v163 (by decide)]
  refine (xrec_stage _).trans ?_
  rw [Cert.ReferenceIdeal.RefRun.st14_kept Cert.ReferenceIdeal.main_arg18 (by decide), Cert.ReferenceIdeal.RefRun.st14_kept Cert.ReferenceIdeal.main_arg19 (by decide), Cert.ReferenceIdeal.RefRun.st14_kept Cert.ReferenceIdeal.main_arg20 (by decide), Cert.ReferenceIdeal.RefRun.st14_kept Cert.ReferenceIdeal.main_arg21 (by decide)]

end Cert.Proof.HostChain

end
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«172694_j54030688584372_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«172694_j54030688584372_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.HostForms.lean ====
/-
  The reference's spellings of the two dense stages, entry by entry, on the extended reals.

  The reconstruction of the adjacency: the transpose of z, the product z·zᵀ, its negation, the exponential, one plus it,
  and one over that, the ones broadcast from the word of the number one.  At (r, s) the product is the sum over k of
  z(r,k)·z(s,k), and 1 / (1 + exp (−v)) is the logistic function of v by definition, at the infinities too: `adj z`.

  The reconstruction of the features: the product x·W₁, the bias vector broadcast as a row down the rows, the maximum
  with a broadcast zero, the product with W₂, the second bias likewise: `mlp` with each bias vector read as a 1×n row.
-/
import proofs.«172694_j54030688584372_2_alg».proof.Proof.Gen.ReferenceIdeal
import proofs.«172694_j54030688584372_2_alg».proof.Proof.Spec
import proofs.«172694_j54030688584372_2_alg».proof.Proof.LibBlockReads
import proofs.«172694_j54030688584372_2_alg».proof.Proof.LibMatProd
import proofs.«172694_j54030688584372_2_alg».proof.Proof.LibRowVector
import Idealize.ShloMosaic.PureOps.Ideal.Laws
import Idealize.ShloMosaic.Lib.ValueIdx
import Idealize.ShloMosaic.Lib.Pipeline.Value

set_option maxRecDepth 16384

open scoped BigOperators

noncomputable section

namespace Cert.Proof.HostForms

open Cert.ReferenceIdeal Cert.ReferenceIdeal.Gen
open Idealize.ShloMosaic Idealize.ShloMosaic.ValueIdx
open Cert.Lib.BlockReads Cert.Lib.MatProd Cert.Lib.RowVector Cert.Proof.Spec

/-- The word 0x3F800000 is the number one. -/
theorem one_f32 : Ideal.ofBits .f32 0x3F800000#32 = 1 := by
  simp [Ideal.ofBits, Ideal.ieee, -EReal.coe_mul]; norm_num

/-- The reference's inner-product decoder is `adj`. -/
theorem adj_host (z : FVec Ideal S12288x64 .f32) :
    Host.divf (broadcastInDim S12288x12288 ![] bcast_S_S12288x12288 (constant (F := Ideal) S_ .f32 0x3F800000#32))
      (addf (broadcastInDim S12288x12288 ![] bcast_S_S12288x12288 (constant (F := Ideal) S_ .f32 0x3F800000#32))
        (Host.exp (Host.negf (Host.dotGeneral dot_S12288x64_S64x12288_S12288x12288_1_0_0_1_n_n none z
          (transpose S64x12288 [1, 0] z transposes_S12288x64_S64x12288_1_0))))) = adj z := by
  simp only [Host.dotGeneral]
  rw [dotGeneral_eq_matProd _ rfl rfl rfl rfl rfl rfl]
  funext i
  obtain ⟨r, s, rfl⟩ : ∃ (r s : Fin 12288), i = ix2 r s := ⟨i 0, i 1, eq_ix2 i⟩
  show Ideal.div (broadcastInDim S12288x12288 ![] bcast_S_S12288x12288 (constant (F := Ideal) S_ .f32 0x3F800000#32) (ix2 r s))
      (broadcastInDim S12288x12288 ![] bcast_S_S12288x12288 (constant (F := Ideal) S_ .f32 0x3F800000#32) (ix2 r s)
        + Ideal.exp (-(matProd z (transpose S64x12288 [1, 0] z transposes_S12288x64_S64x12288_1_0) (ix2 r s)))) = _
  rw [bcastInDim_scalar_apply, matProd_apply, adj_apply]
  have ht : ∀ c : Fin 64, transpose S64x12288 [1, 0] z transposes_S12288x64_S64x12288_1_0 (ix2 c s) = z (ix2 s c) := fun c =>
    transpose_apply _ z _ _ _ (fun b => by
      match b with
      | ⟨0, _⟩ => rfl
      | ⟨1, _⟩ => rfl)
  simp only [ht]
  show Ideal.div (Ideal.ofBits .f32 0x3F800000#32) (Ideal.ofBits .f32 0x3F800000#32 + Ideal.exp (-(∑ c : Fin 64, z (ix2 r c) * z (ix2 s c)))) = _
  rw [one_f32]
  rfl

/-- The reference's two dense layers are `mlp`, each bias vector read as a 1×n row. -/
theorem mlp_host (x : FVec Ideal S12288x128 .f32) (W1 : FVec Ideal S128x512 .f32) (b1 : FVec Ideal S512 .f32)
    (W2 : FVec Ideal S512x256 .f32) (b2 : FVec Ideal S256 .f32)
    (h19 : (⟨1, ![512]⟩ : Shape).ShapeCasts ⟨2, ![1, 512]⟩) (h21 : (⟨1, ![256]⟩ : Shape).ShapeCasts ⟨2, ![1, 256]⟩) :
    addf
      (Host.dotGeneral dot_S12288x512_S512x256_S12288x256_1_0_0_1_n_n none
        (maximumf
          (addf (Host.dotGeneral dot_S12288x128_S128x512_S12288x512_1_0_0_1_n_n none x W1)
            (broadcastInDim S12288x512 ![0, 1] bcast_S1x512_S12288x512_0_1 (broadcastInDim S1x512 ![1] bcast_S512_S1x512_1 b1)))
          (broadcastInDim S12288x512 ![] bcast_S_S12288x512 (constant (F := Ideal) S_ .f32 0x00000000#32)))
        W2)
      (broadcastInDim S12288x256 ![0, 1] bcast_S1x256_S12288x256_0_1 (broadcastInDim S1x256 ![1] bcast_S256_S1x256_1 b2))
    = mlp x W1 (shapeCast ⟨2, ![1, 512]⟩ b1 h19) W2 (shapeCast ⟨2, ![1, 256]⟩ b2 h21) := by
  simp only [Host.dotGeneral]
  rw [dotGeneral_eq_matProd _ rfl rfl rfl rfl rfl rfl, dotGeneral_eq_matProd _ rfl rfl rfl rfl rfl rfl,
    bcastInDim_eq_asRow, bcastInDim_eq_asRow, shapeCast_eq_asRow, shapeCast_eq_asRow]
  funext i
  obtain ⟨r, q, rfl⟩ : ∃ (r : Fin 12288) (q : Fin 256), i = ix2 r q := ⟨i 0, i 1, eq_ix2 i⟩
  rw [mlp_apply]
  refine (addf_apply _ _ _).trans ?_
  rw [bcastInDim_rows_apply, matProd_apply]
  refine congrArg (· + asRow b2 (ix2 0 q)) (Finset.sum_congr rfl fun j _ => ?_)
  refine congrArg (· * W2 (ix2 j q)) ?_
  refine (maximumf_apply _ _ _).trans ?_
  refine congrArg₂ max ?_ ?_
  · refine (addf_apply _ _ _).trans ?_
    rw [bcastInDim_rows_apply, matProd_apply]
  · exact (bcastInDim_scalar_apply _ _ _).trans rfl

end Cert.Proof.HostForms

end
-- ==== Proof.lean ====
/-
  The certificate of the graph auto-encoder kernel against its reference, on the extended reals.

  Both programs compute the same graph convolutions, normalisations and projections on the host; the kernel program
  replaces two dense stages by tiled kernels.  Region 0 writes sigmoid(z·zᵀ) tile by tile from two windows on one
  array; region 1 writes a two-layer perceptron block of rows by block of rows.

  The three frames: the two kernel programs run through the several-regions launch with each region's body triple and
  proof data (the shared array's share dealt by halves to the two windows on it); the reference is a straight line of
  host operations.  Nothing was rewritten by the idealization, so it preserves the program trivially.  For the
  algebraic claim: the mean and log-variance arrays are the same composition of host operations of the arguments in
  both programs; region 0's array is `adj` of the mean array, which is what the reference's transpose, product,
  negation, exponential and quotient compute entry by entry (the logistic function is 1 / (1 + exp (−v)) on all of the
  extended reals); region 1's array is `mlp` of the projected array, the weights and the bias rows, which is the
  reference's two products, bias additions and clamp entry by entry.  No finiteness is needed: a change of float
  format is the identity, and the two sides are the same sums of the same products.
-/
import proofs.«172694_j54030688584372_2_alg».proof.Defs
import proofs.«172694_j54030688584372_2_alg».proof.Proof.Gen.Kernel
import proofs.«172694_j54030688584372_2_alg».proof.Proof.Gen.KernelIdeal
import proofs.«172694_j54030688584372_2_alg».proof.Proof.Gen.ReferenceIdeal
import proofs.«172694_j54030688584372_2_alg».proof.Proof.Gen.Pre_finite_inputs
import proofs.«172694_j54030688584372_2_alg».proof.Proof.BitsLaunch
import proofs.«172694_j54030688584372_2_alg».proof.Proof.IdealResults
import proofs.«172694_j54030688584372_2_alg».proof.Proof.RefRun
import proofs.«172694_j54030688584372_2_alg».proof.Proof.HostChain
import proofs.«172694_j54030688584372_2_alg».proof.Proof.HostForms
import Idealize.ShloMosaic.Adequacy
import Idealize.ShloMosaic.Init

set_option maxRecDepth 16384

noncomputable section

namespace Cert.Proof

open Idealize.ShloMosaic Idealize.ShloMosaic.TcCoe Idealize.SL.Sem
open Cert.Proof.Spec (adj mlp)

theorem frame_k : Cert.frame_Kernel := fun m ρ _ => Cert.Kernel.Hand.frame m ρ

theorem frame_ki : Cert.frame_KernelIdeal := fun m ρ _ => Cert.KernelIdeal.Hand.frame m ρ

/-- The reference is a straight line of host operations none of which writes an argument. -/
theorem frame_ri : Cert.frame_ReferenceIdeal := fun m ρ _ =>
  (θ_run Cert.ReferenceIdeal.defs _ _).mono (fun r h c => ⟨
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _),
      (h c Cert.ReferenceIdeal.main_arg14).trans (Cert.ReferenceIdeal.RefRun.arg14_kept _),
      (h c Cert.ReferenceIdeal.main_arg15).trans (Cert.ReferenceIdeal.RefRun.arg15_kept _),
      (h c Cert.ReferenceIdeal.main_arg16).trans (Cert.ReferenceIdeal.RefRun.arg16_kept _),
      (h c Cert.ReferenceIdeal.main_arg17).trans (Cert.ReferenceIdeal.RefRun.arg17_kept _),
      (h c Cert.ReferenceIdeal.main_arg18).trans (Cert.ReferenceIdeal.RefRun.arg18_kept _),
      (h c Cert.ReferenceIdeal.main_arg19).trans (Cert.ReferenceIdeal.RefRun.arg19_kept _),
      (h c Cert.ReferenceIdeal.main_arg20).trans (Cert.ReferenceIdeal.RefRun.arg20_kept _),
      (h c Cert.ReferenceIdeal.main_arg21).trans (Cert.ReferenceIdeal.RefRun.arg21_kept _)⟩)
    (Cert.ReferenceIdeal.RefRun.run (F := Ideal) m ρ)

theorem preserves : Cert.preserves_Kernel_KernelIdeal := trivial

/-- Both idealized programs, from memories agreeing on the arguments, end with equal results. -/
theorem algebraic : Cert.algebraic_KernelIdeal_ReferenceIdeal := by
  intro m ρ m' ρ' _ hagree
  refine ⟨fun c => adj (Cert.KernelIdeal.Gen.V9 m c Cert.KernelIdeal.main_v110),
    fun c => mlp (Cert.KernelIdeal.Gen.V13 m (Cert.KernelIdeal.Hand.outs m) c Cert.KernelIdeal.main_v139) (m ((c.tc : Thread Cert.KernelIdeal.nD Cert.KernelIdeal.τ).loc Cert.KernelIdeal.main_arg18))
      (shapeCast Cert.KernelIdeal.S1x512 (m ((c.tc : Thread Cert.KernelIdeal.nD Cert.KernelIdeal.τ).loc Cert.KernelIdeal.main_arg19)) Cert.KernelIdeal.Facts₀.shapeCasts_S512_S1x512)
      (m ((c.tc : Thread Cert.KernelIdeal.nD Cert.KernelIdeal.τ).loc Cert.KernelIdeal.main_arg20))
      (shapeCast Cert.KernelIdeal.S1x256 (m ((c.tc : Thread Cert.KernelIdeal.nD Cert.KernelIdeal.τ).loc Cert.KernelIdeal.main_arg21)) Cert.KernelIdeal.Facts₀.shapeCasts_S256_S1x256),
    fun c => Cert.KernelIdeal.Gen.V9 m c Cert.KernelIdeal.main_v110, fun c => Cert.KernelIdeal.Gen.V9 m c Cert.KernelIdeal.main_v114, ?_, ?_⟩
  · refine (θ_run Cert.KernelIdeal.defs _ _).mono (fun r h c => ⟨
      (h c _ (Cert.KernelIdeal.Hand.mem_uc Cert.KernelIdeal.main_v116 (by decide))).trans (Cert.KernelIdeal.Hand.V14_adj m c),
      (h c _ (Cert.KernelIdeal.Hand.mem_uc Cert.KernelIdeal.main_v144 (by decide))).trans (Cert.KernelIdeal.Hand.V14_xrec m c),
      (h c _ (Cert.KernelIdeal.Hand.mem_uc Cert.KernelIdeal.main_v110 (by decide))).trans (Cert.KernelIdeal.Hand.V14_mu m c),
      (h c _ (Cert.KernelIdeal.Hand.mem_uc Cert.KernelIdeal.main_v114 (by decide))).trans (Cert.KernelIdeal.Hand.V14_logvar m c),
      (h c _ (Cert.KernelIdeal.Hand.mem_uc Cert.KernelIdeal.main_arg0 (by decide))).trans (Cert.KernelIdeal.Gen.V14_main_arg0 m (Cert.KernelIdeal.Hand.outs m) c),
      (h c _ (Cert.KernelIdeal.Hand.mem_uc Cert.KernelIdeal.main_arg1 (by decide))).trans (Cert.KernelIdeal.Gen.V14_main_arg1 m (Cert.KernelIdeal.Hand.outs m) c),
      (h c _ (Cert.KernelIdeal.Hand.mem_uc Cert.KernelIdeal.main_arg2 (by decide))).trans (Cert.KernelIdeal.Gen.V14_main_arg2 m (Cert.KernelIdeal.Hand.outs m) c),
      (h c _ (Cert.KernelIdeal.Hand.mem_uc Cert.KernelIdeal.main_arg3 (by decide))).trans (Cert.KernelIdeal.Gen.V14_main_arg3 m (Cert.KernelIdeal.Hand.outs m) c),
      (h c _ (Cert.KernelIdeal.Hand.mem_uc Cert.KernelIdeal.main_arg4 (by decide))).trans (Cert.KernelIdeal.Gen.V14_main_arg4 m (Cert.KernelIdeal.Hand.outs m) c),
      (h c _ (Cert.KernelIdeal.Hand.mem_uc Cert.KernelIdeal.main_arg5 (by decide))).trans (Cert.KernelIdeal.Gen.V14_main_arg5 m (Cert.KernelIdeal.Hand.outs m) c),
      (h c _ (Cert.KernelIdeal.Hand.mem_uc Cert.KernelIdeal.main_arg6 (by decide))).trans (Cert.KernelIdeal.Gen.V14_main_arg6 m (Cert.KernelIdeal.Hand.outs m) c),
      (h c _ (Cert.KernelIdeal.Hand.mem_uc Cert.KernelIdeal.main_arg7 (by decide))).trans (Cert.KernelIdeal.Gen.V14_main_arg7 m (Cert.KernelIdeal.Hand.outs m) c),
      (h c _ (Cert.KernelIdeal.Hand.mem_uc Cert.KernelIdeal.main_arg8 (by decide))).trans (Cert.KernelIdeal.Gen.V14_main_arg8 m (Cert.KernelIdeal.Hand.outs m) c),
      (h c _ (Cert.KernelIdeal.Hand.mem_uc Cert.KernelIdeal.main_arg9 (by decide))).trans (Cert.KernelIdeal.Gen.V14_main_arg9 m (Cert.KernelIdeal.Hand.outs m) c),
      (h c _ (Cert.KernelIdeal.Hand.mem_uc Cert.KernelIdeal.main_arg10 (by decide))).trans (Cert.KernelIdeal.Gen.V14_main_arg10 m (Cert.KernelIdeal.Hand.outs m) c),
      (h c _ (Cert.KernelIdeal.Hand.mem_uc Cert.KernelIdeal.main_arg11 (by decide))).trans (Cert.KernelIdeal.Gen.V14_main_arg11 m (Cert.KernelIdeal.Hand.outs m) c),
      (h c _ (Cert.KernelIdeal.Hand.mem_uc Cert.KernelIdeal.main_arg12 (by decide))).trans (Cert.KernelIdeal.Gen.V14_main_arg12 m (Cert.KernelIdeal.Hand.outs m) c),
      (h c _ (Cert.KernelIdeal.Hand.mem_uc Cert.KernelIdeal.main_arg13 (by decide))).trans (Cert.KernelIdeal.Gen.V14_main_arg13 m (Cert.KernelIdeal.Hand.outs m) c),
      (h c _ (Cert.KernelIdeal.Hand.mem_uc Cert.KernelIdeal.main_arg14 (by decide))).trans (Cert.KernelIdeal.Gen.V14_main_arg14 m (Cert.KernelIdeal.Hand.outs m) c),
      (h c _ (Cert.KernelIdeal.Hand.mem_uc Cert.KernelIdeal.main_arg15 (by decide))).trans (Cert.KernelIdeal.Gen.V14_main_arg15 m (Cert.KernelIdeal.Hand.outs m) c),
      (h c _ (Cert.KernelIdeal.Hand.mem_uc Cert.KernelIdeal.main_arg16 (by decide))).trans (Cert.KernelIdeal.Gen.V14_main_arg16 m (Cert.KernelIdeal.Hand.outs m) c),
      (h c _ (Cert.KernelIdeal.Hand.mem_uc Cert.KernelIdeal.main_arg17 (by decide))).trans (Cert.KernelIdeal.Gen.V14_main_arg17 m (Cert.KernelIdeal.Hand.outs m) c),
      (h c _ (Cert.KernelIdeal.Hand.mem_uc Cert.KernelIdeal.main_arg18 (by decide))).trans (Cert.KernelIdeal.Gen.V14_main_arg18 m (Cert.KernelIdeal.Hand.outs m) c),
      (h c _ (Cert.KernelIdeal.Hand.mem_uc Cert.KernelIdeal.main_arg19 (by decide))).trans (Cert.KernelIdeal.Gen.V14_main_arg19 m (Cert.KernelIdeal.Hand.outs m) c),
      (h c _ (Cert.KernelIdeal.Hand.mem_uc Cert.KernelIdeal.main_arg20 (by decide))).trans (Cert.KernelIdeal.Gen.V14_main_arg20 m (Cert.KernelIdeal.Hand.outs m) c),
      (h c _ (Cert.KernelIdeal.Hand.mem_uc Cert.KernelIdeal.main_arg21 (by decide))).trans (Cert.KernelIdeal.Gen.V14_main_arg21 m (Cert.KernelIdeal.Hand.outs m) c)⟩)
      (Cert.KernelIdeal.Hand.run_all m ρ)
  · refine (θ_run Cert.ReferenceIdeal.defs _ _).mono (fun r h c => ⟨
      (h c Cert.ReferenceIdeal.main_v140).trans ?_,
      (h c Cert.ReferenceIdeal.main_v172).trans ?_,
      (h c Cert.ReferenceIdeal.main_v128).trans (HostChain.mu_eq m m' c (hagree c)),
      (h c Cert.ReferenceIdeal.main_v132).trans (HostChain.logvar_eq m m' c (hagree c)),
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _),
      (h c Cert.ReferenceIdeal.main_arg14).trans (Cert.ReferenceIdeal.RefRun.arg14_kept _),
      (h c Cert.ReferenceIdeal.main_arg15).trans (Cert.ReferenceIdeal.RefRun.arg15_kept _),
      (h c Cert.ReferenceIdeal.main_arg16).trans (Cert.ReferenceIdeal.RefRun.arg16_kept _),
      (h c Cert.ReferenceIdeal.main_arg17).trans (Cert.ReferenceIdeal.RefRun.arg17_kept _),
      (h c Cert.ReferenceIdeal.main_arg18).trans (Cert.ReferenceIdeal.RefRun.arg18_kept _),
      (h c Cert.ReferenceIdeal.main_arg19).trans (Cert.ReferenceIdeal.RefRun.arg19_kept _),
      (h c Cert.ReferenceIdeal.main_arg20).trans (Cert.ReferenceIdeal.RefRun.arg20_kept _),
      (h c Cert.ReferenceIdeal.main_arg21).trans (Cert.ReferenceIdeal.RefRun.arg21_kept _)⟩)
      (Cert.ReferenceIdeal.RefRun.run (F := Ideal) m' ρ')
    · exact (HostChain.adj_ref m' c).trans ((HostForms.adj_host _).trans (congrArg adj (HostChain.mu_eq m m' c (hagree c))))
    · obtain ⟨-, -, -, -, -, -, -, -, -, -, -, -, -, -, -, -, -, -, h18, h19, h20, h21⟩ := hagree c
      refine (HostChain.xrec_ref m' c).trans ((HostForms.mlp_host _ _ _ _ _ Cert.KernelIdeal.Facts₀.shapeCasts_S512_S1x512 Cert.KernelIdeal.Facts₀.shapeCasts_S256_S1x256).trans ?_)
      rw [HostChain.zp_eq m m' c (Cert.KernelIdeal.Hand.outs m) (hagree c), h18, h19, h20, h21]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
